-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S3x64 .f32) (main_arg14 : FVec F S3x64 .f32) (main_arg15 : FVec F S64x128 .f32) (main_arg16 : FVec F S128 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_v63 main_v67

def fn_part2 {F : FTy → Type} [FloatOps F] (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S64x128 .f32) (main_arg16 : FVec F S128 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_v48 main_v49 main_v50

def fn_part1 {F : FTy → Type} [FloatOps F] (main_arg6 : FVec F S3x64 .f32) (main_arg7 : FVec F S3x64 .f32) (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S64x128 .f32) (main_arg16 : FVec F S128 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64 .f32) (main_arg6 : FVec F S3x64 .f32) (main_arg7 : FVec F S3x64 .f32) (main_arg8 : FVec F S3x64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S64x128 .f32) (main_arg16 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000x64 : Shape := ⟨2, ![2000, 64]⟩
abbrev S512x64 : Shape := ⟨2, ![512, 64]⟩
abbrev S100000x1 : Shape := ⟨2, ![100000, 1]⟩
abbrev S1x128 : Shape := ⟨2, ![1, 128]⟩
abbrev S512x128 : Shape := ⟨2, ![512, 128]⟩

abbrev nBuf : Space → Nat
  | .hbm => 171
  | .vmem => 58
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S64x128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S1x64x64, .f32⟩
  | 35 => ⟨S64x64, .f32⟩
  | 36 => ⟨S1x64, .f32⟩
  | 37 => ⟨S64, .f32⟩
  | 38 => ⟨S1x64, .f32⟩
  | 39 => ⟨S64, .f32⟩
  | 40 => ⟨S1x64, .f32⟩
  | 41 => ⟨S64, .f32⟩
  | 42 => ⟨S1x64, .f32⟩
  | 43 => ⟨S64, .f32⟩
  | 44 => ⟨S1x64, .f32⟩
  | 45 => ⟨S64, .f32⟩
  | 46 => ⟨S1x64x64, .f32⟩
  | 47 => ⟨S64x64, .f32⟩
  | 48 => ⟨S1x64, .f32⟩
  | 49 => ⟨S64, .f32⟩
  | 50 => ⟨S1x64, .f32⟩
  | 51 => ⟨S64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S1x64, .f32⟩
  | 59 => ⟨S1x64, .f32⟩
  | 60 => ⟨S1x64, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S1x64x64, .f32⟩
  | 83 => ⟨S64x64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S64, .f32⟩
  | 90 => ⟨S1x64, .f32⟩
  | 91 => ⟨S64, .f32⟩
  | 92 => ⟨S1x64, .f32⟩
  | 93 => ⟨S64, .f32⟩
  | 94 => ⟨S1x64x64, .f32⟩
  | 95 => ⟨S64x64, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S1x64, .f32⟩
  | 108 => ⟨S1x64, .f32⟩
  | 109 => ⟨S1x64, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S_, .f32⟩
  | 127 => ⟨S100000x64, .f32⟩
  | _ => ⟨S100000x64, .f32⟩

abbrev hbmTy0_1 (i : Nat) : BufTy := match i % 128 with
  | 0 => ⟨S1600000x1, .i32⟩
  | 1 => ⟨S100000x64, .f32⟩
  | 2 => ⟨S1x64x64, .f32⟩
  | 3 => ⟨S64x64, .f32⟩
  | 4 => ⟨S1x64, .f32⟩
  | 5 => ⟨S64, .f32⟩
  | 6 => ⟨S1x64, .f32⟩
  | 7 => ⟨S64, .f32⟩
  | 8 => ⟨S1x64, .f32⟩
  | 9 => ⟨S64, .f32⟩
  | 10 => ⟨S1x64, .f32⟩
  | 11 => ⟨S64, .f32⟩
  | 12 => ⟨S1x64, .f32⟩
  | 13 => ⟨S64, .f32⟩
  | 14 => ⟨S1x64x64, .f32⟩
  | 15 => ⟨S64x64, .f32⟩
  | 16 => ⟨S1x64, .f32⟩
  | 17 => ⟨S64, .f32⟩
  | 18 => ⟨S1x64, .f32⟩
  | 19 => ⟨S64, .f32⟩
  | 20 => ⟨S1x64, .f32⟩
  | 21 => ⟨S64, .f32⟩
  | 22 => ⟨S1x64, .f32⟩
  | 23 => ⟨S64, .f32⟩
  | 24 => ⟨S1x64, .f32⟩
  | 25 => ⟨S64, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S100000x64, .f32⟩
  | 37 => ⟨S_, .f32⟩
  | 38 => ⟨S512x64, .f32⟩
  | 39 => ⟨S100000x1, .i32⟩
  | 40 => ⟨S512x64, .f32⟩
  | 41 => ⟨S1x128, .f32⟩
  | 42 => ⟨S512x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S64x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | .local _ .vmem, ⟨54, _⟩ => ⟨S512x64, .f32⟩
  | .local _ .vmem, ⟨55, _⟩ => ⟨S64x128, .f32⟩
  | .local _ .vmem, ⟨56, _⟩ => ⟨S1x128, .f32⟩
  | .local _ .vmem, ⟨57, _⟩ => ⟨S512x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_1 : Ref sig .tc := ⟨.hbm, 69, rfl⟩
abbrev main_v49 : Ref sig .tc := ⟨.hbm, 70, rfl⟩
abbrev main_v50 : Ref sig .tc := ⟨.hbm, 71, rfl⟩
abbrev main_c_2 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_4 : Ref sig .tc := ⟨.hbm, 117, rfl⟩
abbrev main_v94 : Ref sig .tc := ⟨.hbm, 118, rfl⟩
abbrev main_v95 : Ref sig .tc := ⟨.hbm, 119, rfl⟩
abbrev main_c_5 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_6 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_7 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg10_0 : Ref sig .tc := ⟨.vmem, 48, rfl⟩
abbrev cc2_stg11_0 : Ref sig .tc := ⟨.vmem, 49, rfl⟩
abbrev cc2_stg12_0 : Ref sig .tc := ⟨.vmem, 50, rfl⟩
abbrev cc2_stg13_0 : Ref sig .tc := ⟨.vmem, 51, rfl⟩
abbrev cc2_stg14_0 : Ref sig .tc := ⟨.vmem, 52, rfl⟩
abbrev cc2_stg14_1 : Ref sig .tc := ⟨.vmem, 53, rfl⟩
abbrev cc3_stg0_0 : Ref sig .tc := ⟨.vmem, 54, rfl⟩
abbrev cc3_stg1_0 : Ref sig .tc := ⟨.vmem, 55, rfl⟩
abbrev cc3_stg2_0 : Ref sig .tc := ⟨.vmem, 56, rfl⟩
abbrev cc3_stg3_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem14_1 : DmaSem sig := 53
abbrev cc3_sem0_0 : DmaSem sig := 54
abbrev cc3_sem1_0 : DmaSem sig := 55
abbrev cc3_sem2_0 : DmaSem sig := 56
abbrev cc3_sem3_0 : DmaSem sig := 57

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  shapeCasts_S128_S1x128 : S128.ShapeCasts S1x128
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  scatter_S512x64_S100000x1_S100000x64_1_0_0_1_wf : ScatterDims.WF S512x64 S100000x1 S100000x64 [1] [0] [0] 1
  dot_S512x64_S64x128_S512x128_1_0_0_1_n_n_wf : DotDims.WF S512x64 S64x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x64.size a ≤ S100000x64.size a
  hwx0_14 : ∀ i : grid0.Coords, EltTy.bits .f32 = 32 ∨ (Rect.block (s := S100000x64) S2000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x64.size a ≤ S100000x64.size a
  hwx1_14 : ∀ i : grid1.Coords, EltTy.bits .f32 = 32 ∨ (Rect.block (s := S100000x64) S2000x64.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x64.size a ≤ S100000x64.size a
  hwx2_14 : ∀ i : grid2.Coords, EltTy.bits .f32 = 32 ∨ (Rect.block (s := S100000x64) S2000x64.size (cc2_transform_14 i) (hinb2_14 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S512x128.size a
  hwx3_3 : ∀ i : grid3.Coords, EltTy.bits .f32 = 32 ∨ (Rect.block (s := S512x128) S512x128.size (cc3_transform_3 i) (hinb3_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v46) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v48) S2000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v84) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v86) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v87) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v72) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v88) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v89) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v90) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v91) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v92) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v93) S2000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v93) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v105) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v128) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v129) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v130) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v131) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v132) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v117) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v133) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v134) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v135) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v136) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v137) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v138) S2000x64.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v141) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v142) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v143) S512x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S100000x1 : Shape := ⟨2, ![100000, 1]⟩
abbrev S512x128 : Shape := ⟨2, ![512, 128]⟩
abbrev S1x128 : Shape := ⟨2, ![1, 128]⟩

abbrev nBuf : Space → Nat
  | .hbm => 281
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S64x128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S100000x64, .f32⟩
  | 35 => ⟨S1x64x64, .f32⟩
  | 36 => ⟨S64x64, .f32⟩
  | 37 => ⟨S100000x64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S64, .f32⟩
  | 56 => ⟨S64, .f32⟩
  | 57 => ⟨S64, .f32⟩
  | 58 => ⟨S1x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S1x64x64, .f32⟩
  | 71 => ⟨S64x64, .f32⟩
  | 72 => ⟨S100000x64, .f32⟩
  | 73 => ⟨S1x64, .f32⟩
  | 74 => ⟨S64, .f32⟩
  | 75 => ⟨S1x64, .f32⟩
  | 76 => ⟨S100000x64, .f32⟩
  | 77 => ⟨S100000x64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000x64, .f32⟩
  | 119 => ⟨S1x64x64, .f32⟩
  | 120 => ⟨S64x64, .f32⟩
  | 121 => ⟨S100000x64, .f32⟩
  | 122 => ⟨S1x64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S100000x64, .f32⟩
  | 9 => ⟨S100000x64, .f32⟩
  | 10 => ⟨S_, .f32⟩
  | 11 => ⟨S64, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S1x64x64, .f32⟩
  | 27 => ⟨S64x64, .f32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S_, .f32⟩
  | 46 => ⟨S64, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S1x64x64, .f32⟩
  | 111 => ⟨S64x64, .f32⟩
  | 112 => ⟨S100000x64, .f32⟩
  | 113 => ⟨S1x64, .f32⟩
  | 114 => ⟨S64, .f32⟩
  | 115 => ⟨S1x64, .f32⟩
  | 116 => ⟨S100000x64, .f32⟩
  | 117 => ⟨S100000x64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S64, .f32⟩
  | 126 => ⟨S1x64, .f32⟩
  | 127 => ⟨S100000x64, .f32⟩
  | _ => ⟨S100000x64, .f32⟩

abbrev hbmTy0_2 (i : Nat) : BufTy := match i % 128 with
  | 0 => ⟨S100000x64, .f32⟩
  | 1 => ⟨S_, .f32⟩
  | 2 => ⟨S64, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S_, .f32⟩
  | 18 => ⟨S512x64, .f32⟩
  | 19 => ⟨S100000x1, .i32⟩
  | 20 => ⟨S512x64, .f32⟩
  | 21 => ⟨S512x128, .f32⟩
  | 22 => ⟨S1x128, .f32⟩
  | 23 => ⟨S512x128, .f32⟩
  | 24 => ⟨S512x128, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_2 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call1_cst : Ref sig .tc := ⟨.hbm, 102, rfl⟩
abbrev main_call1_v0 : Ref sig .tc := ⟨.hbm, 103, rfl⟩
abbrev main_v78 : Ref sig .tc := ⟨.hbm, 104, rfl⟩
abbrev main_c_3 : Ref sig .tc := ⟨.hbm, 105, rfl⟩
abbrev main_v79 : Ref sig .tc := ⟨.hbm, 106, rfl⟩
abbrev main_v80 : Ref sig .tc := ⟨.hbm, 107, rfl⟩
abbrev main_c_4 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_5 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_6 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_call2_cst : Ref sig .tc := ⟨.hbm, 151, rfl⟩
abbrev main_call2_v0 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_7 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_call3_cst : Ref sig .tc := ⟨.hbm, 186, rfl⟩
abbrev main_call3_v0 : Ref sig .tc := ⟨.hbm, 187, rfl⟩
abbrev main_v153 : Ref sig .tc := ⟨.hbm, 188, rfl⟩
abbrev main_c_8 : Ref sig .tc := ⟨.hbm, 189, rfl⟩
abbrev main_v154 : Ref sig .tc := ⟨.hbm, 190, rfl⟩
abbrev main_v155 : Ref sig .tc := ⟨.hbm, 191, rfl⟩
abbrev main_c_9 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_cst_10 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_11 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_call4_cst : Ref sig .tc := ⟨.hbm, 235, rfl⟩
abbrev main_call4_v0 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_cst_12 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_call5_cst : Ref sig .tc := ⟨.hbm, 270, rfl⟩
abbrev main_call5_v0 : Ref sig .tc := ⟨.hbm, 271, rfl⟩
abbrev main_v228 : Ref sig .tc := ⟨.hbm, 272, rfl⟩
abbrev main_cst_13 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  dot_S512x64_S64x128_S512x128_1_0_0_1_n_n_wf : DotDims.WF S512x64 S64x128 S512x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf

class Facts : Prop extends Facts₀ where

variable [Facts]
-- ==== Proof.RefPart0.lean ====
/-
  Statements of the reference's @main, window 0: its 62 host operations as a list (a called function's operations in the
  call's place), the window as the sequence of that list, and every operation on TensorCore references only.
-/
import proofs.«181532_j16295105921239_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsP0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    unary main_arg3 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v15 main_v16 rfl shapeCasts_S1x64x64_S64x64,
    binary main_v14 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S100000x64 ![0, 1] bcast_S1x64_S100000x64_0_1 : (⟨S1x64, .f32⟩ : BufTy).Contents (Elt F) → (⟨S100000x64, .f32⟩ : BufTy).Contents (Elt F)),
    binary main_v17 main_v21 main_v22 (addf : (⟨S100000x64, .f32⟩ : BufTy).Contents (Elt F) → (⟨S100000x64, .f32⟩ : BufTy).Contents (Elt F) → (⟨S100000x64, .f32⟩ : BufTy).Contents (Elt F)),
    unary main_arg5 main_v23 ((extractStridedSlice S1x64 ![0, 0] · slices_S3x64_S1x64_0_0) : (⟨S3x64, .f32⟩ : BufTy).Contents (Elt F) → (⟨S1x64, .f32⟩ : BufTy).Contents (Elt F)),
    reshape main_v23 main_v24 rfl shapeCasts_S1x64_S64,
    unary main_arg6 main_v25 ((extractStridedSlice S1x64 ![0, 0] · slices_S3x64_S1x64_0_0) : (⟨S3x64, .f32⟩ : BufTy).Contents (Elt F) → (⟨S1x64, .f32⟩ : BufTy).Contents (Elt F)),
    reshape main_v25 main_v26 rfl shapeCasts_S1x64_S64,
    unary main_arg7 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_arg8 main_v29 ((extractStridedSlice S1x64 ![0, 0] · slices_S3x64_S1x64_0_0) : (⟨S3x64, .f32⟩ : BufTy).Contents (Elt F) → (⟨S1x64, .f32⟩ : BufTy).Contents (Elt F)),
    reshape main_v29 main_v30 rfl shapeCasts_S1x64_S64,
    unary main_v28 main_v31 (broadcastInDim S1x64 ![1] bcast_S64_S1x64_1 : (⟨S64, .f32⟩ : BufTy).Contents (Elt F) → (⟨S1x64, .f32⟩ : BufTy).Contents (Elt F)),
    unary main_v31 main_v32 (broadcastInDim S100000x64 ![0, 1] bcast_S1x64_S100000x64_0_1 : (⟨S1x64, .f32⟩ : BufTy).Contents (Elt F) → (⟨S100000x64, .f32⟩ : BufTy).Contents (Elt F)),
    binary main_v22 main_v32 main_v33 (subf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3727C5AC#32),
    unary main_cst_1 main_v34 (broadcastInDim S64 ![] bcast_S_S64 : (⟨S_, .f32⟩ : BufTy).Contents (Elt F) → (⟨S64, .f32⟩ : BufTy).Contents (Elt F)),
    binary main_v30 main_v34 main_v35 (addf : (⟨S64, .f32⟩ : BufTy).Contents (Elt F) → (⟨S64, .f32⟩ : BufTy).Contents (Elt F) → (⟨S64, .f32⟩ : BufTy).Contents (Elt F)),
    unary main_v35 main_v36 (Host.rsqrt : (⟨S64, .f32⟩ : BufTy).Contents (Elt F) → (⟨S64, .f32⟩ : BufTy).Contents (Elt F)),
    unary main_v36 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v33 main_v38 main_v39 (mulf : (⟨S100000x64, .f32⟩ : BufTy).Contents (Elt F) → (⟨S100000x64, .f32⟩ : BufTy).Contents (Elt F) → (⟨S100000x64, .f32⟩ : BufTy).Contents (Elt F)),
    unary main_v24 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (mulf : (⟨S100000x64, .f32⟩ : BufTy).Contents (Elt F) → (⟨S100000x64, .f32⟩ : BufTy).Contents (Elt F) → (⟨S100000x64, .f32⟩ : BufTy).Contents (Elt F)),
    unary main_v26 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v45) (TRef.of (T := ⟨S100000x64, .f32⟩) main_call0_v0) (TRef.of (T := ⟨S100000x64, .f32⟩) main_v46) maximumf,
    unary main_arg9 main_v47 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v47 main_v48 rfl shapeCasts_S1x64x64_S64x64,
    binary main_v46 main_v48 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v50 ((extractStridedSlice S1x64 ![0, 0] · slices_S3x64_S1x64_0_0) : (⟨S3x64, .f32⟩ : BufTy).Contents (Elt F) → (⟨S1x64, .f32⟩ : BufTy).Contents (Elt F)),
    reshape main_v50 main_v51 rfl shapeCasts_S1x64_S64,
    unary main_v51 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v49 main_v53 main_v54 (addf : (⟨S100000x64, .f32⟩ : BufTy).Contents (Elt F) → (⟨S100000x64, .f32⟩ : BufTy).Contents (Elt F) → (⟨S100000x64, .f32⟩ : BufTy).Contents (Elt F)),
    unary main_arg11 main_v55 ((extractStridedSlice S1x64 ![0, 0] · slices_S3x64_S1x64_0_0) : (⟨S3x64, .f32⟩ : BufTy).Contents (Elt F) → (⟨S1x64, .f32⟩ : BufTy).Contents (Elt F)) ]

set_option maxRecDepth 8192 in
set_option maxHeartbeats 4000000 in
theorem part0_eq (c : Dev nD) : main_part0 (F := F) c = seq opsP0 := rfl

set_option maxRecDepth 8192 in
theorem sub0 : (opsP0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩

/-! No operation of the window writes an argument. -/

theorem kP0_arg0 (W : Valuation τ sig (Elt F)) : after (opsP0 (F := F)) W (Proc.devRef .tc main_arg0) = W (Proc.devRef .tc main_arg0) := by
  after_results_simp <;> rfl

theorem kP0_arg1 (W : Valuation τ sig (Elt F)) : after (opsP0 (F := F)) W (Proc.devRef .tc main_arg1) = W (Proc.devRef .tc main_arg1) := by
  after_results_simp <;> rfl

theorem kP0_arg2 (W : Valuation τ sig (Elt F)) : after (opsP0 (F := F)) W (Proc.devRef .tc main_arg2) = W (Proc.devRef .tc main_arg2) := by
  after_results_simp <;> rfl

theorem kP0_arg3 (W : Valuation τ sig (Elt F)) : after (opsP0 (F := F)) W (Proc.devRef .tc main_arg3) = W (Proc.devRef .tc main_arg3) := by
  after_results_simp <;> rfl

theorem kP0_arg4 (W : Valuation τ sig (Elt F)) : after (opsP0 (F := F)) W (Proc.devRef .tc main_arg4) = W (Proc.devRef .tc main_arg4) := by
  after_results_simp <;> rfl

theorem kP0_arg5 (W : Valuation τ sig (Elt F)) : after (opsP0 (F := F)) W (Proc.devRef .tc main_arg5) = W (Proc.devRef .tc main_arg5) := by
  after_results_simp <;> rfl

theorem kP0_arg6 (W : Valuation τ sig (Elt F)) : after (opsP0 (F := F)) W (Proc.devRef .tc main_arg6) = W (Proc.devRef .tc main_arg6) := by
  after_results_simp <;> rfl

theorem kP0_arg7 (W : Valuation τ sig (Elt F)) : after (opsP0 (F := F)) W (Proc.devRef .tc main_arg7) = W (Proc.devRef .tc main_arg7) := by
  after_results_simp <;> rfl

theorem kP0_arg8 (W : Valuation τ sig (Elt F)) : after (opsP0 (F := F)) W (Proc.devRef .tc main_arg8) = W (Proc.devRef .tc main_arg8) := by
  after_results_simp <;> rfl

theorem kP0_arg9 (W : Valuation τ sig (Elt F)) : after (opsP0 (F := F)) W (Proc.devRef .tc main_arg9) = W (Proc.devRef .tc main_arg9) := by
  after_results_simp <;> rfl

theorem kP0_arg10 (W : Valuation τ sig (Elt F)) : after (opsP0 (F := F)) W (Proc.devRef .tc main_arg10) = W (Proc.devRef .tc main_arg10) := by
  after_results_simp <;> rfl

theorem kP0_arg11 (W : Valuation τ sig (Elt F)) : after (opsP0 (F := F)) W (Proc.devRef .tc main_arg11) = W (Proc.devRef .tc main_arg11) := by
  after_results_simp <;> rfl

theorem kP0_arg12 (W : Valuation τ sig (Elt F)) : after (opsP0 (F := F)) W (Proc.devRef .tc main_arg12) = W (Proc.devRef .tc main_arg12) := by
  after_results_simp <;> rfl

theorem kP0_arg13 (W : Valuation τ sig (Elt F)) : after (opsP0 (F := F)) W (Proc.devRef .tc main_arg13) = W (Proc.devRef .tc main_arg13) := by
  after_results_simp <;> rfl

theorem kP0_arg14 (W : Valuation τ sig (Elt F)) : after (opsP0 (F := F)) W (Proc.devRef .tc main_arg14) = W (Proc.devRef .tc main_arg14) := by
  after_results_simp <;> rfl

theorem kP0_arg15 (W : Valuation τ sig (Elt F)) : after (opsP0 (F := F)) W (Proc.devRef .tc main_arg15) = W (Proc.devRef .tc main_arg15) := by
  after_results_simp <;> rfl

theorem kP0_arg16 (W : Valuation τ sig (Elt F)) : after (opsP0 (F := F)) W (Proc.devRef .tc main_arg16) = W (Proc.devRef .tc main_arg16) := by
  after_results_simp <;> rfl

end Cert.ReferenceIdeal.ValueP

end
-- ==== Proof.RefPart1.lean ====
/-
  Statements of the reference's @main, window 1: its 62 host operations as a list (a called function's operations in the
  call's place), the window as the sequence of that list, and every operation on TensorCore references only.
-/
import proofs.«181532_j16295105921239_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsP1 : List (HloOp τ sig (Elt F)) :=
  [ reshape main_v55 main_v56 rfl shapeCasts_S1x64_S64,
    unary main_arg12 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    unary main_arg13 main_v59 ((extractStridedSlice S1x64 ![0, 0] · slices_S3x64_S1x64_0_0) : (⟨S3x64, .f32⟩ : BufTy).Contents (Elt F) → (⟨S1x64, .f32⟩ : BufTy).Contents (Elt F)),
    reshape main_v59 main_v60 rfl shapeCasts_S1x64_S64,
    unary main_arg14 main_v61 ((extractStridedSlice S1x64 ![0, 0] · slices_S3x64_S1x64_0_0) : (⟨S3x64, .f32⟩ : BufTy).Contents (Elt F) → (⟨S1x64, .f32⟩ : BufTy).Contents (Elt F)),
    reshape main_v61 main_v62 rfl shapeCasts_S1x64_S64,
    unary main_v60 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v54 main_v64 main_v65 (subf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3727C5AC#32),
    unary main_cst_2 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v65 main_v70 main_v71 (mulf : (⟨S100000x64, .f32⟩ : BufTy).Contents (Elt F) → (⟨S100000x64, .f32⟩ : BufTy).Contents (Elt F) → (⟨S100000x64, .f32⟩ : BufTy).Contents (Elt F)),
    unary main_v56 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (mulf : (⟨S100000x64, .f32⟩ : BufTy).Contents (Elt F) → (⟨S100000x64, .f32⟩ : BufTy).Contents (Elt F) → (⟨S100000x64, .f32⟩ : BufTy).Contents (Elt F)),
    unary main_v58 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v77) (TRef.of (T := ⟨S100000x64, .f32⟩) main_call1_v0) (TRef.of (T := ⟨S100000x64, .f32⟩) main_v78) maximumf,
    nullary main_c_3 (constantI S_ 32 0#32),
    unary main_c_3 main_v79 (broadcastInDim S1600000 ![] bcast_S_S1600000 : (⟨S_, .i32⟩ : BufTy).Contents (Elt F) → (⟨S1600000, .i32⟩ : BufTy).Contents (Elt F)),
    binary main_v1 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v81 (broadcastInDim S1600000 ![] bcast_S_S1600000 : (⟨S_, .i32⟩ : BufTy).Contents (Elt F) → (⟨S1600000, .i32⟩ : BufTy).Contents (Elt F)),
    binary main_v1 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_v1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v78 main_v84 main_v85 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_5 (constant S_ .f32 0x00000000#32),
    unary main_cst_5 main_v86 (broadcastInDim S100000x64 ![] bcast_S_S100000x64 : (⟨S_, .f32⟩ : BufTy).Contents (Elt F) → (⟨S100000x64, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v78 main_v88 main_v89 (addf : (⟨S100000x64, .f32⟩ : BufTy).Contents (Elt F) → (⟨S100000x64, .f32⟩ : BufTy).Contents (Elt F) → (⟨S100000x64, .f32⟩ : BufTy).Contents (Elt F)),
    unary main_arg3 main_v90 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v90 main_v91 rfl shapeCasts_S1x64x64_S64x64,
    binary main_v89 main_v91 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v93 ((extractStridedSlice S1x64 ![1, 0] · slices_S3x64_S1x64_1_0) : (⟨S3x64, .f32⟩ : BufTy).Contents (Elt F) → (⟨S1x64, .f32⟩ : BufTy).Contents (Elt F)),
    reshape main_v93 main_v94 rfl shapeCasts_S1x64_S64,
    unary main_v94 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v92 main_v96 main_v97 (addf : (⟨S100000x64, .f32⟩ : BufTy).Contents (Elt F) → (⟨S100000x64, .f32⟩ : BufTy).Contents (Elt F) → (⟨S100000x64, .f32⟩ : BufTy).Contents (Elt F)),
    unary main_arg5 main_v98 ((extractStridedSlice S1x64 ![1, 0] · slices_S3x64_S1x64_1_0) : (⟨S3x64, .f32⟩ : BufTy).Contents (Elt F) → (⟨S1x64, .f32⟩ : BufTy).Contents (Elt F)),
    reshape main_v98 main_v99 rfl shapeCasts_S1x64_S64,
    unary main_arg6 main_v100 ((extractStridedSlice S1x64 ![1, 0] · slices_S3x64_S1x64_1_0) : (⟨S3x64, .f32⟩ : BufTy).Contents (Elt F) → (⟨S1x64, .f32⟩ : BufTy).Contents (Elt F)),
    reshape main_v100 main_v101 rfl shapeCasts_S1x64_S64,
    unary main_arg7 main_v102 ((extractStridedSlice S1x64 ![1, 0] · slices_S3x64_S1x64_1_0) : (⟨S3x64, .f32⟩ : BufTy).Contents (Elt F) → (⟨S1x64, .f32⟩ : BufTy).Contents (Elt F)),
    reshape main_v102 main_v103 rfl shapeCasts_S1x64_S64,
    unary main_arg8 main_v104 ((extractStridedSlice S1x64 ![1, 0] · slices_S3x64_S1x64_1_0) : (⟨S3x64, .f32⟩ : BufTy).Contents (Elt F) → (⟨S1x64, .f32⟩ : BufTy).Contents (Elt F)),
    reshape main_v104 main_v105 rfl shapeCasts_S1x64_S64,
    unary main_v103 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v97 main_v107 main_v108 (subf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3727C5AC#32),
    unary main_cst_6 main_v109 (broadcastInDim S64 ![] bcast_S_S64 : (⟨S_, .f32⟩ : BufTy).Contents (Elt F) → (⟨S64, .f32⟩ : BufTy).Contents (Elt F)),
    binary main_v105 main_v109 main_v110 (addf : (⟨S64, .f32⟩ : BufTy).Contents (Elt F) → (⟨S64, .f32⟩ : BufTy).Contents (Elt F) → (⟨S64, .f32⟩ : BufTy).Contents (Elt F)) ]

set_option maxRecDepth 8192 in
set_option maxHeartbeats 4000000 in
theorem part1_eq (c : Dev nD) : main_part1 (F := F) c = seq opsP1 := rfl

set_option maxRecDepth 8192 in
theorem sub1 : (opsP1 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub ..⟩

/-! No operation of the window writes an argument. -/

theorem kP1_arg0 (W : Valuation τ sig (Elt F)) : after (opsP1 (F := F)) W (Proc.devRef .tc main_arg0) = W (Proc.devRef .tc main_arg0) := by
  after_results_simp <;> rfl

theorem kP1_arg1 (W : Valuation τ sig (Elt F)) : after (opsP1 (F := F)) W (Proc.devRef .tc main_arg1) = W (Proc.devRef .tc main_arg1) := by
  after_results_simp <;> rfl

theorem kP1_arg2 (W : Valuation τ sig (Elt F)) : after (opsP1 (F := F)) W (Proc.devRef .tc main_arg2) = W (Proc.devRef .tc main_arg2) := by
  after_results_simp <;> rfl

theorem kP1_arg3 (W : Valuation τ sig (Elt F)) : after (opsP1 (F := F)) W (Proc.devRef .tc main_arg3) = W (Proc.devRef .tc main_arg3) := by
  after_results_simp <;> rfl

theorem kP1_arg4 (W : Valuation τ sig (Elt F)) : after (opsP1 (F := F)) W (Proc.devRef .tc main_arg4) = W (Proc.devRef .tc main_arg4) := by
  after_results_simp <;> rfl

theorem kP1_arg5 (W : Valuation τ sig (Elt F)) : after (opsP1 (F := F)) W (Proc.devRef .tc main_arg5) = W (Proc.devRef .tc main_arg5) := by
  after_results_simp <;> rfl

theorem kP1_arg6 (W : Valuation τ sig (Elt F)) : after (opsP1 (F := F)) W (Proc.devRef .tc main_arg6) = W (Proc.devRef .tc main_arg6) := by
  after_results_simp <;> rfl

theorem kP1_arg7 (W : Valuation τ sig (Elt F)) : after (opsP1 (F := F)) W (Proc.devRef .tc main_arg7) = W (Proc.devRef .tc main_arg7) := by
  after_results_simp <;> rfl

theorem kP1_arg8 (W : Valuation τ sig (Elt F)) : after (opsP1 (F := F)) W (Proc.devRef .tc main_arg8) = W (Proc.devRef .tc main_arg8) := by
  after_results_simp <;> rfl

theorem kP1_arg9 (W : Valuation τ sig (Elt F)) : after (opsP1 (F := F)) W (Proc.devRef .tc main_arg9) = W (Proc.devRef .tc main_arg9) := by
  after_results_simp <;> rfl

theorem kP1_arg10 (W : Valuation τ sig (Elt F)) : after (opsP1 (F := F)) W (Proc.devRef .tc main_arg10) = W (Proc.devRef .tc main_arg10) := by
  after_results_simp <;> rfl

theorem kP1_arg11 (W : Valuation τ sig (Elt F)) : after (opsP1 (F := F)) W (Proc.devRef .tc main_arg11) = W (Proc.devRef .tc main_arg11) := by
  after_results_simp <;> rfl

theorem kP1_arg12 (W : Valuation τ sig (Elt F)) : after (opsP1 (F := F)) W (Proc.devRef .tc main_arg12) = W (Proc.devRef .tc main_arg12) := by
  after_results_simp <;> rfl

theorem kP1_arg13 (W : Valuation τ sig (Elt F)) : after (opsP1 (F := F)) W (Proc.devRef .tc main_arg13) = W (Proc.devRef .tc main_arg13) := by
  after_results_simp <;> rfl

theorem kP1_arg14 (W : Valuation τ sig (Elt F)) : after (opsP1 (F := F)) W (Proc.devRef .tc main_arg14) = W (Proc.devRef .tc main_arg14) := by
  after_results_simp <;> rfl

theorem kP1_arg15 (W : Valuation τ sig (Elt F)) : after (opsP1 (F := F)) W (Proc.devRef .tc main_arg15) = W (Proc.devRef .tc main_arg15) := by
  after_results_simp <;> rfl

theorem kP1_arg16 (W : Valuation τ sig (Elt F)) : after (opsP1 (F := F)) W (Proc.devRef .tc main_arg16) = W (Proc.devRef .tc main_arg16) := by
  after_results_simp <;> rfl

end Cert.ReferenceIdeal.ValueP

end
-- ==== Proof.RefPart2.lean ====
/-
  Statements of the reference's @main, window 2: its 64 host operations as a list (a called function's operations in the
  call's place), the window as the sequence of that list, and every operation on TensorCore references only.
-/
import proofs.«181532_j16295105921239_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsP2 : List (HloOp τ sig (Elt F)) :=
  [ unary main_v110 main_v111 (Host.rsqrt : (⟨S64, .f32⟩ : BufTy).Contents (Elt F) → (⟨S64, .f32⟩ : BufTy).Contents (Elt F)),
    unary main_v111 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v108 main_v113 main_v114 (mulf : (⟨S100000x64, .f32⟩ : BufTy).Contents (Elt F) → (⟨S100000x64, .f32⟩ : BufTy).Contents (Elt F) → (⟨S100000x64, .f32⟩ : BufTy).Contents (Elt F)),
    unary main_v99 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (mulf : (⟨S100000x64, .f32⟩ : BufTy).Contents (Elt F) → (⟨S100000x64, .f32⟩ : BufTy).Contents (Elt F) → (⟨S100000x64, .f32⟩ : BufTy).Contents (Elt F)),
    unary main_v101 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v117 main_v119 main_v120 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v120) (TRef.of (T := ⟨S100000x64, .f32⟩) main_call2_v0) (TRef.of (T := ⟨S100000x64, .f32⟩) main_v121) maximumf,
    unary main_arg9 main_v122 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v122 main_v123 rfl shapeCasts_S1x64x64_S64x64,
    binary main_v121 main_v123 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v125 ((extractStridedSlice S1x64 ![1, 0] · slices_S3x64_S1x64_1_0) : (⟨S3x64, .f32⟩ : BufTy).Contents (Elt F) → (⟨S1x64, .f32⟩ : BufTy).Contents (Elt F)),
    reshape main_v125 main_v126 rfl shapeCasts_S1x64_S64,
    unary main_v126 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v124 main_v128 main_v129 (addf : (⟨S100000x64, .f32⟩ : BufTy).Contents (Elt F) → (⟨S100000x64, .f32⟩ : BufTy).Contents (Elt F) → (⟨S100000x64, .f32⟩ : BufTy).Contents (Elt F)),
    unary main_arg11 main_v130 ((extractStridedSlice S1x64 ![1, 0] · slices_S3x64_S1x64_1_0) : (⟨S3x64, .f32⟩ : BufTy).Contents (Elt F) → (⟨S1x64, .f32⟩ : BufTy).Contents (Elt F)),
    reshape main_v130 main_v131 rfl shapeCasts_S1x64_S64,
    unary main_arg12 main_v132 ((extractStridedSlice S1x64 ![1, 0] · slices_S3x64_S1x64_1_0) : (⟨S3x64, .f32⟩ : BufTy).Contents (Elt F) → (⟨S1x64, .f32⟩ : BufTy).Contents (Elt F)),
    reshape main_v132 main_v133 rfl shapeCasts_S1x64_S64,
    unary main_arg13 main_v134 ((extractStridedSlice S1x64 ![1, 0] · slices_S3x64_S1x64_1_0) : (⟨S3x64, .f32⟩ : BufTy).Contents (Elt F) → (⟨S1x64, .f32⟩ : BufTy).Contents (Elt F)),
    reshape main_v134 main_v135 rfl shapeCasts_S1x64_S64,
    unary main_arg14 main_v136 ((extractStridedSlice S1x64 ![1, 0] · slices_S3x64_S1x64_1_0) : (⟨S3x64, .f32⟩ : BufTy).Contents (Elt F) → (⟨S1x64, .f32⟩ : BufTy).Contents (Elt F)),
    reshape main_v136 main_v137 rfl shapeCasts_S1x64_S64,
    unary main_v135 main_v138 (broadcastInDim S1x64 ![1] bcast_S64_S1x64_1 : (⟨S64, .f32⟩ : BufTy).Contents (Elt F) → (⟨S1x64, .f32⟩ : BufTy).Contents (Elt F)),
    unary main_v138 main_v139 (broadcastInDim S100000x64 ![0, 1] bcast_S1x64_S100000x64_0_1 : (⟨S1x64, .f32⟩ : BufTy).Contents (Elt F) → (⟨S100000x64, .f32⟩ : BufTy).Contents (Elt F)),
    binary main_v129 main_v139 main_v140 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v141 (broadcastInDim S64 ![] bcast_S_S64 : (⟨S_, .f32⟩ : BufTy).Contents (Elt F) → (⟨S64, .f32⟩ : BufTy).Contents (Elt F)),
    binary main_v137 main_v141 main_v142 (addf : (⟨S64, .f32⟩ : BufTy).Contents (Elt F) → (⟨S64, .f32⟩ : BufTy).Contents (Elt F) → (⟨S64, .f32⟩ : BufTy).Contents (Elt F)),
    unary main_v142 main_v143 (Host.rsqrt : (⟨S64, .f32⟩ : BufTy).Contents (Elt F) → (⟨S64, .f32⟩ : BufTy).Contents (Elt F)),
    unary main_v143 main_v144 (broadcastInDim S1x64 ![1] bcast_S64_S1x64_1 : (⟨S64, .f32⟩ : BufTy).Contents (Elt F) → (⟨S1x64, .f32⟩ : BufTy).Contents (Elt F)),
    unary main_v144 main_v145 (broadcastInDim S100000x64 ![0, 1] bcast_S1x64_S100000x64_0_1 : (⟨S1x64, .f32⟩ : BufTy).Contents (Elt F) → (⟨S100000x64, .f32⟩ : BufTy).Contents (Elt F)),
    binary main_v140 main_v145 main_v146 (mulf : (⟨S100000x64, .f32⟩ : BufTy).Contents (Elt F) → (⟨S100000x64, .f32⟩ : BufTy).Contents (Elt F) → (⟨S100000x64, .f32⟩ : BufTy).Contents (Elt F)),
    unary main_v131 main_v147 (broadcastInDim S1x64 ![1] bcast_S64_S1x64_1 : (⟨S64, .f32⟩ : BufTy).Contents (Elt F) → (⟨S1x64, .f32⟩ : BufTy).Contents (Elt F)),
    unary main_v147 main_v148 (broadcastInDim S100000x64 ![0, 1] bcast_S1x64_S100000x64_0_1 : (⟨S1x64, .f32⟩ : BufTy).Contents (Elt F) → (⟨S100000x64, .f32⟩ : BufTy).Contents (Elt F)),
    binary main_v146 main_v148 main_v149 (mulf : (⟨S100000x64, .f32⟩ : BufTy).Contents (Elt F) → (⟨S100000x64, .f32⟩ : BufTy).Contents (Elt F) → (⟨S100000x64, .f32⟩ : BufTy).Contents (Elt F)),
    unary main_v133 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v149 main_v151 main_v152 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v152) (TRef.of (T := ⟨S100000x64, .f32⟩) main_call3_v0) (TRef.of (T := ⟨S100000x64, .f32⟩) main_v153) maximumf,
    nullary main_c_8 (constantI S_ 32 0#32),
    unary main_c_8 main_v154 (broadcastInDim S1600000 ![] bcast_S_S1600000 : (⟨S_, .i32⟩ : BufTy).Contents (Elt F) → (⟨S1600000, .i32⟩ : BufTy).Contents (Elt F)),
    binary main_v1 main_v154 main_v155 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v156 (broadcastInDim S1600000 ![] bcast_S_S1600000 : (⟨S_, .i32⟩ : BufTy).Contents (Elt F) → (⟨S1600000, .i32⟩ : BufTy).Contents (Elt F)),
    binary main_v1 main_v156 main_v157 (addi : (⟨S1600000, .i32⟩ : BufTy).Contents (Elt F) → (⟨S1600000, .i32⟩ : BufTy).Contents (Elt F) → (⟨S1600000, .i32⟩ : BufTy).Contents (Elt F)),
    ternary main_v155 main_v157 main_v1 main_v158 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v158 main_v159 (broadcastInDim S1600000x1 ![0] bcast_S1600000_S1600000x1_0 : (⟨S1600000, .i32⟩ : BufTy).Contents (Elt F) → (⟨S1600000x1, .i32⟩ : BufTy).Contents (Elt F)),
    binary main_v153 main_v159 main_v160 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_10 (constant S_ .f32 0x00000000#32),
    unary main_cst_10 main_v161 (broadcastInDim S100000x64 ![] bcast_S_S100000x64 : (⟨S_, .f32⟩ : BufTy).Contents (Elt F) → (⟨S100000x64, .f32⟩ : BufTy).Contents (Elt F)),
    unary main_v3 main_v162 (broadcastInDim S1600000x1 ![0] bcast_S1600000_S1600000x1_0 : (⟨S1600000, .i32⟩ : BufTy).Contents (Elt F) → (⟨S1600000x1, .i32⟩ : BufTy).Contents (Elt F)),
    ternary main_v161 main_v162 main_v160 main_v163 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v153 main_v163 main_v164 (addf : (⟨S100000x64, .f32⟩ : BufTy).Contents (Elt F) → (⟨S100000x64, .f32⟩ : BufTy).Contents (Elt F) → (⟨S100000x64, .f32⟩ : BufTy).Contents (Elt F)),
    unary main_arg3 main_v165 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v165 main_v166 rfl shapeCasts_S1x64x64_S64x64 ]

set_option maxRecDepth 8192 in
set_option maxHeartbeats 4000000 in
theorem part2_eq (c : Dev nD) : main_part2 (F := F) c = seq opsP2 := rfl

set_option maxRecDepth 8192 in
theorem sub2 : (opsP2 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub ..⟩

/-! No operation of the window writes an argument. -/

theorem kP2_arg0 (W : Valuation τ sig (Elt F)) : after (opsP2 (F := F)) W (Proc.devRef .tc main_arg0) = W (Proc.devRef .tc main_arg0) := by
  after_results_simp <;> rfl

theorem kP2_arg1 (W : Valuation τ sig (Elt F)) : after (opsP2 (F := F)) W (Proc.devRef .tc main_arg1) = W (Proc.devRef .tc main_arg1) := by
  after_results_simp <;> rfl

theorem kP2_arg2 (W : Valuation τ sig (Elt F)) : after (opsP2 (F := F)) W (Proc.devRef .tc main_arg2) = W (Proc.devRef .tc main_arg2) := by
  after_results_simp <;> rfl

theorem kP2_arg3 (W : Valuation τ sig (Elt F)) : after (opsP2 (F := F)) W (Proc.devRef .tc main_arg3) = W (Proc.devRef .tc main_arg3) := by
  after_results_simp <;> rfl

theorem kP2_arg4 (W : Valuation τ sig (Elt F)) : after (opsP2 (F := F)) W (Proc.devRef .tc main_arg4) = W (Proc.devRef .tc main_arg4) := by
  after_results_simp <;> rfl

theorem kP2_arg5 (W : Valuation τ sig (Elt F)) : after (opsP2 (F := F)) W (Proc.devRef .tc main_arg5) = W (Proc.devRef .tc main_arg5) := by
  after_results_simp <;> rfl

theorem kP2_arg6 (W : Valuation τ sig (Elt F)) : after (opsP2 (F := F)) W (Proc.devRef .tc main_arg6) = W (Proc.devRef .tc main_arg6) := by
  after_results_simp <;> rfl

theorem kP2_arg7 (W : Valuation τ sig (Elt F)) : after (opsP2 (F := F)) W (Proc.devRef .tc main_arg7) = W (Proc.devRef .tc main_arg7) := by
  after_results_simp <;> rfl

theorem kP2_arg8 (W : Valuation τ sig (Elt F)) : after (opsP2 (F := F)) W (Proc.devRef .tc main_arg8) = W (Proc.devRef .tc main_arg8) := by
  after_results_simp <;> rfl

theorem kP2_arg9 (W : Valuation τ sig (Elt F)) : after (opsP2 (F := F)) W (Proc.devRef .tc main_arg9) = W (Proc.devRef .tc main_arg9) := by
  after_results_simp <;> rfl

theorem kP2_arg10 (W : Valuation τ sig (Elt F)) : after (opsP2 (F := F)) W (Proc.devRef .tc main_arg10) = W (Proc.devRef .tc main_arg10) := by
  after_results_simp <;> rfl

theorem kP2_arg11 (W : Valuation τ sig (Elt F)) : after (opsP2 (F := F)) W (Proc.devRef .tc main_arg11) = W (Proc.devRef .tc main_arg11) := by
  after_results_simp <;> rfl

theorem kP2_arg12 (W : Valuation τ sig (Elt F)) : after (opsP2 (F := F)) W (Proc.devRef .tc main_arg12) = W (Proc.devRef .tc main_arg12) := by
  after_results_simp <;> rfl

theorem kP2_arg13 (W : Valuation τ sig (Elt F)) : after (opsP2 (F := F)) W (Proc.devRef .tc main_arg13) = W (Proc.devRef .tc main_arg13) := by
  after_results_simp <;> rfl

theorem kP2_arg14 (W : Valuation τ sig (Elt F)) : after (opsP2 (F := F)) W (Proc.devRef .tc main_arg14) = W (Proc.devRef .tc main_arg14) := by
  after_results_simp <;> rfl

theorem kP2_arg15 (W : Valuation τ sig (Elt F)) : after (opsP2 (F := F)) W (Proc.devRef .tc main_arg15) = W (Proc.devRef .tc main_arg15) := by
  after_results_simp <;> rfl

theorem kP2_arg16 (W : Valuation τ sig (Elt F)) : after (opsP2 (F := F)) W (Proc.devRef .tc main_arg16) = W (Proc.devRef .tc main_arg16) := by
  after_results_simp <;> rfl

end Cert.ReferenceIdeal.ValueP

end
-- ==== Proof.RefPart3.lean ====
/-
  Statements of the reference's @main, window 3: its 62 host operations as a list (a called function's operations in the
  call's place), the window as the sequence of that list, and every operation on TensorCore references only.
-/
import proofs.«181532_j16295105921239_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsP3 : List (HloOp τ sig (Elt F)) :=
  [ binary main_v164 main_v166 main_v167 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v168 ((extractStridedSlice S1x64 ![2, 0] · slices_S3x64_S1x64_2_0) : (⟨S3x64, .f32⟩ : BufTy).Contents (Elt F) → (⟨S1x64, .f32⟩ : BufTy).Contents (Elt F)),
    reshape main_v168 main_v169 rfl shapeCasts_S1x64_S64,
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S100000x64 ![0, 1] bcast_S1x64_S100000x64_0_1 : (⟨S1x64, .f32⟩ : BufTy).Contents (Elt F) → (⟨S100000x64, .f32⟩ : BufTy).Contents (Elt F)),
    binary main_v167 main_v171 main_v172 (addf : (⟨S100000x64, .f32⟩ : BufTy).Contents (Elt F) → (⟨S100000x64, .f32⟩ : BufTy).Contents (Elt F) → (⟨S100000x64, .f32⟩ : BufTy).Contents (Elt F)),
    unary main_arg5 main_v173 ((extractStridedSlice S1x64 ![2, 0] · slices_S3x64_S1x64_2_0) : (⟨S3x64, .f32⟩ : BufTy).Contents (Elt F) → (⟨S1x64, .f32⟩ : BufTy).Contents (Elt F)),
    reshape main_v173 main_v174 rfl shapeCasts_S1x64_S64,
    unary main_arg6 main_v175 ((extractStridedSlice S1x64 ![2, 0] · slices_S3x64_S1x64_2_0) : (⟨S3x64, .f32⟩ : BufTy).Contents (Elt F) → (⟨S1x64, .f32⟩ : BufTy).Contents (Elt F)),
    reshape main_v175 main_v176 rfl shapeCasts_S1x64_S64,
    unary main_arg7 main_v177 ((extractStridedSlice S1x64 ![2, 0] · slices_S3x64_S1x64_2_0) : (⟨S3x64, .f32⟩ : BufTy).Contents (Elt F) → (⟨S1x64, .f32⟩ : BufTy).Contents (Elt F)),
    reshape main_v177 main_v178 rfl shapeCasts_S1x64_S64,
    unary main_arg8 main_v179 ((extractStridedSlice S1x64 ![2, 0] · slices_S3x64_S1x64_2_0) : (⟨S3x64, .f32⟩ : BufTy).Contents (Elt F) → (⟨S1x64, .f32⟩ : BufTy).Contents (Elt F)),
    reshape main_v179 main_v180 rfl shapeCasts_S1x64_S64,
    unary main_v178 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v172 main_v182 main_v183 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v184 (broadcastInDim S64 ![] bcast_S_S64 : (⟨S_, .f32⟩ : BufTy).Contents (Elt F) → (⟨S64, .f32⟩ : BufTy).Contents (Elt F)),
    binary main_v180 main_v184 main_v185 (addf : (⟨S64, .f32⟩ : BufTy).Contents (Elt F) → (⟨S64, .f32⟩ : BufTy).Contents (Elt F) → (⟨S64, .f32⟩ : BufTy).Contents (Elt F)),
    unary main_v185 main_v186 (Host.rsqrt : (⟨S64, .f32⟩ : BufTy).Contents (Elt F) → (⟨S64, .f32⟩ : BufTy).Contents (Elt F)),
    unary main_v186 main_v187 (broadcastInDim S1x64 ![1] bcast_S64_S1x64_1 : (⟨S64, .f32⟩ : BufTy).Contents (Elt F) → (⟨S1x64, .f32⟩ : BufTy).Contents (Elt F)),
    unary main_v187 main_v188 (broadcastInDim S100000x64 ![0, 1] bcast_S1x64_S100000x64_0_1 : (⟨S1x64, .f32⟩ : BufTy).Contents (Elt F) → (⟨S100000x64, .f32⟩ : BufTy).Contents (Elt F)),
    binary main_v183 main_v188 main_v189 (mulf : (⟨S100000x64, .f32⟩ : BufTy).Contents (Elt F) → (⟨S100000x64, .f32⟩ : BufTy).Contents (Elt F) → (⟨S100000x64, .f32⟩ : BufTy).Contents (Elt F)),
    unary main_v174 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v189 main_v191 main_v192 (mulf : (⟨S100000x64, .f32⟩ : BufTy).Contents (Elt F) → (⟨S100000x64, .f32⟩ : BufTy).Contents (Elt F) → (⟨S100000x64, .f32⟩ : BufTy).Contents (Elt F)),
    unary main_v176 main_v193 (broadcastInDim S1x64 ![1] bcast_S64_S1x64_1 : (⟨S64, .f32⟩ : BufTy).Contents (Elt F) → (⟨S1x64, .f32⟩ : BufTy).Contents (Elt F)),
    unary main_v193 main_v194 (broadcastInDim S100000x64 ![0, 1] bcast_S1x64_S100000x64_0_1 : (⟨S1x64, .f32⟩ : BufTy).Contents (Elt F) → (⟨S100000x64, .f32⟩ : BufTy).Contents (Elt F)),
    binary main_v192 main_v194 main_v195 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v195) (TRef.of (T := ⟨S100000x64, .f32⟩) main_call4_v0) (TRef.of (T := ⟨S100000x64, .f32⟩) main_v196) maximumf,
    unary main_arg9 main_v197 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v197 main_v198 rfl shapeCasts_S1x64x64_S64x64,
    binary main_v196 main_v198 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v200 ((extractStridedSlice S1x64 ![2, 0] · slices_S3x64_S1x64_2_0) : (⟨S3x64, .f32⟩ : BufTy).Contents (Elt F) → (⟨S1x64, .f32⟩ : BufTy).Contents (Elt F)),
    reshape main_v200 main_v201 rfl shapeCasts_S1x64_S64,
    unary main_v201 main_v202 (broadcastInDim S1x64 ![1] bcast_S64_S1x64_1 : (⟨S64, .f32⟩ : BufTy).Contents (Elt F) → (⟨S1x64, .f32⟩ : BufTy).Contents (Elt F)),
    unary main_v202 main_v203 (broadcastInDim S100000x64 ![0, 1] bcast_S1x64_S100000x64_0_1 : (⟨S1x64, .f32⟩ : BufTy).Contents (Elt F) → (⟨S100000x64, .f32⟩ : BufTy).Contents (Elt F)),
    binary main_v199 main_v203 main_v204 (addf : (⟨S100000x64, .f32⟩ : BufTy).Contents (Elt F) → (⟨S100000x64, .f32⟩ : BufTy).Contents (Elt F) → (⟨S100000x64, .f32⟩ : BufTy).Contents (Elt F)),
    unary main_arg11 main_v205 ((extractStridedSlice S1x64 ![2, 0] · slices_S3x64_S1x64_2_0) : (⟨S3x64, .f32⟩ : BufTy).Contents (Elt F) → (⟨S1x64, .f32⟩ : BufTy).Contents (Elt F)),
    reshape main_v205 main_v206 rfl shapeCasts_S1x64_S64,
    unary main_arg12 main_v207 ((extractStridedSlice S1x64 ![2, 0] · slices_S3x64_S1x64_2_0) : (⟨S3x64, .f32⟩ : BufTy).Contents (Elt F) → (⟨S1x64, .f32⟩ : BufTy).Contents (Elt F)),
    reshape main_v207 main_v208 rfl shapeCasts_S1x64_S64,
    unary main_arg13 main_v209 ((extractStridedSlice S1x64 ![2, 0] · slices_S3x64_S1x64_2_0) : (⟨S3x64, .f32⟩ : BufTy).Contents (Elt F) → (⟨S1x64, .f32⟩ : BufTy).Contents (Elt F)),
    reshape main_v209 main_v210 rfl shapeCasts_S1x64_S64,
    unary main_arg14 main_v211 ((extractStridedSlice S1x64 ![2, 0] · slices_S3x64_S1x64_2_0) : (⟨S3x64, .f32⟩ : BufTy).Contents (Elt F) → (⟨S1x64, .f32⟩ : BufTy).Contents (Elt F)),
    reshape main_v211 main_v212 rfl shapeCasts_S1x64_S64,
    unary main_v210 main_v213 (broadcastInDim S1x64 ![1] bcast_S64_S1x64_1 : (⟨S64, .f32⟩ : BufTy).Contents (Elt F) → (⟨S1x64, .f32⟩ : BufTy).Contents (Elt F)),
    unary main_v213 main_v214 (broadcastInDim S100000x64 ![0, 1] bcast_S1x64_S100000x64_0_1 : (⟨S1x64, .f32⟩ : BufTy).Contents (Elt F) → (⟨S100000x64, .f32⟩ : BufTy).Contents (Elt F)),
    binary main_v204 main_v214 main_v215 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v216 (broadcastInDim S64 ![] bcast_S_S64 : (⟨S_, .f32⟩ : BufTy).Contents (Elt F) → (⟨S64, .f32⟩ : BufTy).Contents (Elt F)),
    binary main_v212 main_v216 main_v217 (addf : (⟨S64, .f32⟩ : BufTy).Contents (Elt F) → (⟨S64, .f32⟩ : BufTy).Contents (Elt F) → (⟨S64, .f32⟩ : BufTy).Contents (Elt F)),
    unary main_v217 main_v218 (Host.rsqrt : (⟨S64, .f32⟩ : BufTy).Contents (Elt F) → (⟨S64, .f32⟩ : BufTy).Contents (Elt F)),
    unary main_v218 main_v219 (broadcastInDim S1x64 ![1] bcast_S64_S1x64_1 : (⟨S64, .f32⟩ : BufTy).Contents (Elt F) → (⟨S1x64, .f32⟩ : BufTy).Contents (Elt F)),
    unary main_v219 main_v220 (broadcastInDim S100000x64 ![0, 1] bcast_S1x64_S100000x64_0_1 : (⟨S1x64, .f32⟩ : BufTy).Contents (Elt F) → (⟨S100000x64, .f32⟩ : BufTy).Contents (Elt F)),
    binary main_v215 main_v220 main_v221 (mulf : (⟨S100000x64, .f32⟩ : BufTy).Contents (Elt F) → (⟨S100000x64, .f32⟩ : BufTy).Contents (Elt F) → (⟨S100000x64, .f32⟩ : BufTy).Contents (Elt F)),
    unary main_v206 main_v222 (broadcastInDim S1x64 ![1] bcast_S64_S1x64_1 : (⟨S64, .f32⟩ : BufTy).Contents (Elt F) → (⟨S1x64, .f32⟩ : BufTy).Contents (Elt F)),
    unary main_v222 main_v223 (broadcastInDim S100000x64 ![0, 1] bcast_S1x64_S100000x64_0_1 : (⟨S1x64, .f32⟩ : BufTy).Contents (Elt F) → (⟨S100000x64, .f32⟩ : BufTy).Contents (Elt F)),
    binary main_v221 main_v223 main_v224 (mulf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem part3_eq (c : Dev nD) : main_part3 (F := F) c = seq opsP3 := rfl

set_option maxRecDepth 8192 in
theorem sub3 : (opsP3 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-! No operation of the window writes an argument. -/

theorem kP3_arg0 (W : Valuation τ sig (Elt F)) : after (opsP3 (F := F)) W (Proc.devRef .tc main_arg0) = W (Proc.devRef .tc main_arg0) := by
  after_results_simp <;> rfl

theorem kP3_arg1 (W : Valuation τ sig (Elt F)) : after (opsP3 (F := F)) W (Proc.devRef .tc main_arg1) = W (Proc.devRef .tc main_arg1) := by
  after_results_simp <;> rfl

theorem kP3_arg2 (W : Valuation τ sig (Elt F)) : after (opsP3 (F := F)) W (Proc.devRef .tc main_arg2) = W (Proc.devRef .tc main_arg2) := by
  after_results_simp <;> rfl

theorem kP3_arg3 (W : Valuation τ sig (Elt F)) : after (opsP3 (F := F)) W (Proc.devRef .tc main_arg3) = W (Proc.devRef .tc main_arg3) := by
  after_results_simp <;> rfl

theorem kP3_arg4 (W : Valuation τ sig (Elt F)) : after (opsP3 (F := F)) W (Proc.devRef .tc main_arg4) = W (Proc.devRef .tc main_arg4) := by
  after_results_simp <;> rfl

theorem kP3_arg5 (W : Valuation τ sig (Elt F)) : after (opsP3 (F := F)) W (Proc.devRef .tc main_arg5) = W (Proc.devRef .tc main_arg5) := by
  after_results_simp <;> rfl

theorem kP3_arg6 (W : Valuation τ sig (Elt F)) : after (opsP3 (F := F)) W (Proc.devRef .tc main_arg6) = W (Proc.devRef .tc main_arg6) := by
  after_results_simp <;> rfl

theorem kP3_arg7 (W : Valuation τ sig (Elt F)) : after (opsP3 (F := F)) W (Proc.devRef .tc main_arg7) = W (Proc.devRef .tc main_arg7) := by
  after_results_simp <;> rfl

theorem kP3_arg8 (W : Valuation τ sig (Elt F)) : after (opsP3 (F := F)) W (Proc.devRef .tc main_arg8) = W (Proc.devRef .tc main_arg8) := by
  after_results_simp <;> rfl

theorem kP3_arg9 (W : Valuation τ sig (Elt F)) : after (opsP3 (F := F)) W (Proc.devRef .tc main_arg9) = W (Proc.devRef .tc main_arg9) := by
  after_results_simp <;> rfl

theorem kP3_arg10 (W : Valuation τ sig (Elt F)) : after (opsP3 (F := F)) W (Proc.devRef .tc main_arg10) = W (Proc.devRef .tc main_arg10) := by
  after_results_simp <;> rfl

theorem kP3_arg11 (W : Valuation τ sig (Elt F)) : after (opsP3 (F := F)) W (Proc.devRef .tc main_arg11) = W (Proc.devRef .tc main_arg11) := by
  after_results_simp <;> rfl

theorem kP3_arg12 (W : Valuation τ sig (Elt F)) : after (opsP3 (F := F)) W (Proc.devRef .tc main_arg12) = W (Proc.devRef .tc main_arg12) := by
  after_results_simp <;> rfl

theorem kP3_arg13 (W : Valuation τ sig (Elt F)) : after (opsP3 (F := F)) W (Proc.devRef .tc main_arg13) = W (Proc.devRef .tc main_arg13) := by
  after_results_simp <;> rfl

theorem kP3_arg14 (W : Valuation τ sig (Elt F)) : after (opsP3 (F := F)) W (Proc.devRef .tc main_arg14) = W (Proc.devRef .tc main_arg14) := by
  after_results_simp <;> rfl

theorem kP3_arg15 (W : Valuation τ sig (Elt F)) : after (opsP3 (F := F)) W (Proc.devRef .tc main_arg15) = W (Proc.devRef .tc main_arg15) := by
  after_results_simp <;> rfl

theorem kP3_arg16 (W : Valuation τ sig (Elt F)) : after (opsP3 (F := F)) W (Proc.devRef .tc main_arg16) = W (Proc.devRef .tc main_arg16) := by
  after_results_simp <;> rfl

end Cert.ReferenceIdeal.ValueP

end
-- ==== Proof.RefPart4.lean ====
/-
  Statements of the reference's @main, window 4: its 14 host operations as a list (a called function's operations in the
  call's place), the window as the sequence of that list, and every operation on TensorCore references only.
-/
import proofs.«181532_j16295105921239_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev opsP4 : List (HloOp τ sig (Elt F)) :=
  [ unary main_v208 main_v225 (broadcastInDim S1x64 ![1] bcast_S64_S1x64_1 : (⟨S64, .f32⟩ : BufTy).Contents (Elt F) → (⟨S1x64, .f32⟩ : BufTy).Contents (Elt F)),
    unary main_v225 main_v226 (broadcastInDim S100000x64 ![0, 1] bcast_S1x64_S100000x64_0_1 : (⟨S1x64, .f32⟩ : BufTy).Contents (Elt F) → (⟨S100000x64, .f32⟩ : BufTy).Contents (Elt F)),
    binary main_v224 main_v226 main_v227 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v227) (TRef.of (T := ⟨S100000x64, .f32⟩) main_call5_v0) (TRef.of (T := ⟨S100000x64, .f32⟩) main_v228) maximumf,
    nullary main_cst_13 (constant S_ .f32 0x00000000#32),
    unary main_cst_13 main_v229 (broadcastInDim S512x64 ![] bcast_S_S512x64 : (⟨S_, .f32⟩ : BufTy).Contents (Elt F) → (⟨S512x64, .f32⟩ : BufTy).Contents (Elt F)),
    unary main_arg2 main_v230 (broadcastInDim S100000x1 ![0] bcast_S100000_S100000x1_0 : (⟨S100000, .i32⟩ : BufTy).Contents (Elt F) → (⟨S100000x1, .i32⟩ : BufTy).Contents (Elt F)),
    ternary main_v229 main_v230 main_v228 main_v231 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    binary main_v231 main_arg15 main_v232 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)),
    unary main_arg16 main_v233 (broadcastInDim S1x128 ![1] bcast_S128_S1x128_1 : (⟨S128, .f32⟩ : BufTy).Contents (Elt F) → (⟨S1x128, .f32⟩ : BufTy).Contents (Elt F)),
    unary main_v233 main_v234 (broadcastInDim S512x128 ![0, 1] bcast_S1x128_S512x128_0_1 : (⟨S1x128, .f32⟩ : BufTy).Contents (Elt F) → (⟨S512x128, .f32⟩ : BufTy).Contents (Elt F)),
    binary main_v232 main_v234 main_v235 (addf : (⟨S512x128, .f32⟩ : BufTy).Contents (Elt F) → (⟨S512x128, .f32⟩ : BufTy).Contents (Elt F) → (⟨S512x128, .f32⟩ : BufTy).Contents (Elt F)) ]

set_option maxRecDepth 8192 in
set_option maxHeartbeats 4000000 in
theorem part4_eq (c : Dev nD) : main_part4 (F := F) c = seq opsP4 := rfl

set_option maxRecDepth 8192 in
theorem sub4 : (opsP4 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

/-! No operation of the window writes an argument. -/

theorem kP4_arg0 (W : Valuation τ sig (Elt F)) : after (opsP4 (F := F)) W (Proc.devRef .tc main_arg0) = W (Proc.devRef .tc main_arg0) := by
  after_results_simp <;> rfl

theorem kP4_arg1 (W : Valuation τ sig (Elt F)) : after (opsP4 (F := F)) W (Proc.devRef .tc main_arg1) = W (Proc.devRef .tc main_arg1) := by
  after_results_simp <;> rfl

theorem kP4_arg2 (W : Valuation τ sig (Elt F)) : after (opsP4 (F := F)) W (Proc.devRef .tc main_arg2) = W (Proc.devRef .tc main_arg2) := by
  after_results_simp <;> rfl

theorem kP4_arg3 (W : Valuation τ sig (Elt F)) : after (opsP4 (F := F)) W (Proc.devRef .tc main_arg3) = W (Proc.devRef .tc main_arg3) := by
  after_results_simp <;> rfl

theorem kP4_arg4 (W : Valuation τ sig (Elt F)) : after (opsP4 (F := F)) W (Proc.devRef .tc main_arg4) = W (Proc.devRef .tc main_arg4) := by
  after_results_simp <;> rfl

theorem kP4_arg5 (W : Valuation τ sig (Elt F)) : after (opsP4 (F := F)) W (Proc.devRef .tc main_arg5) = W (Proc.devRef .tc main_arg5) := by
  after_results_simp <;> rfl

theorem kP4_arg6 (W : Valuation τ sig (Elt F)) : after (opsP4 (F := F)) W (Proc.devRef .tc main_arg6) = W (Proc.devRef .tc main_arg6) := by
  after_results_simp <;> rfl

theorem kP4_arg7 (W : Valuation τ sig (Elt F)) : after (opsP4 (F := F)) W (Proc.devRef .tc main_arg7) = W (Proc.devRef .tc main_arg7) := by
  after_results_simp <;> rfl

theorem kP4_arg8 (W : Valuation τ sig (Elt F)) : after (opsP4 (F := F)) W (Proc.devRef .tc main_arg8) = W (Proc.devRef .tc main_arg8) := by
  after_results_simp <;> rfl

theorem kP4_arg9 (W : Valuation τ sig (Elt F)) : after (opsP4 (F := F)) W (Proc.devRef .tc main_arg9) = W (Proc.devRef .tc main_arg9) := by
  after_results_simp <;> rfl

theorem kP4_arg10 (W : Valuation τ sig (Elt F)) : after (opsP4 (F := F)) W (Proc.devRef .tc main_arg10) = W (Proc.devRef .tc main_arg10) := by
  after_results_simp <;> rfl

theorem kP4_arg11 (W : Valuation τ sig (Elt F)) : after (opsP4 (F := F)) W (Proc.devRef .tc main_arg11) = W (Proc.devRef .tc main_arg11) := by
  after_results_simp <;> rfl

theorem kP4_arg12 (W : Valuation τ sig (Elt F)) : after (opsP4 (F := F)) W (Proc.devRef .tc main_arg12) = W (Proc.devRef .tc main_arg12) := by
  after_results_simp <;> rfl

theorem kP4_arg13 (W : Valuation τ sig (Elt F)) : after (opsP4 (F := F)) W (Proc.devRef .tc main_arg13) = W (Proc.devRef .tc main_arg13) := by
  after_results_simp <;> rfl

theorem kP4_arg14 (W : Valuation τ sig (Elt F)) : after (opsP4 (F := F)) W (Proc.devRef .tc main_arg14) = W (Proc.devRef .tc main_arg14) := by
  after_results_simp <;> rfl

theorem kP4_arg15 (W : Valuation τ sig (Elt F)) : after (opsP4 (F := F)) W (Proc.devRef .tc main_arg15) = W (Proc.devRef .tc main_arg15) := by
  after_results_simp <;> rfl

theorem kP4_arg16 (W : Valuation τ sig (Elt F)) : after (opsP4 (F := F)) W (Proc.devRef .tc main_arg16) = W (Proc.devRef .tc main_arg16) := by
  after_results_simp <;> rfl

end Cert.ReferenceIdeal.ValueP

end
-- ==== Proof.RefOps.lean ====
/-
  The reference program's @main as the list of its 264 host operations: the five windows' lists one after the other.
  @main is the sequence of the list, every operation touches TensorCore references only, and the program has no scoped
  buffer or semaphore.
-/
import proofs.«181532_j16295105921239_1_alg».proof.Proof.Gen.ReferenceIdeal
import proofs.«181532_j16295105921239_1_alg».proof.Proof.RefPart0
import proofs.«181532_j16295105921239_1_alg».proof.Proof.RefPart1
import proofs.«181532_j16295105921239_1_alg».proof.Proof.RefPart2
import proofs.«181532_j16295105921239_1_alg».proof.Proof.RefPart3
import proofs.«181532_j16295105921239_1_alg».proof.Proof.RefPart4
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 264 operations, in order. -/
abbrev ops : List (HloOp τ sig (Elt F)) := opsP0 ++ (opsP1 ++ (opsP2 ++ (opsP3 ++ opsP4)))

theorem main_eq (c : Dev nD) : main (F := F) c = seq ops := by
  show main (F := F) c = seq (opsP0 ++ (opsP1 ++ (opsP2 ++ (opsP3 ++ opsP4))))
  unfold main
  rw [part0_eq c, part1_eq c, part2_eq c, part3_eq c, part4_eq c]
  simp only [seq_append]

theorem after_append : ∀ (A B : List (HloOp τ sig (Elt F))) (V : Valuation τ sig (Elt F)), after (A ++ B) V = after B (after A V)
  | [], _, _ => rfl
  | a :: A, B, V => after_append A B (a.result V)

/-- No operation writes an argument: it keeps its launch contents through @main. -/
theorem keep_arg0 (W : Valuation τ sig (Elt F)) : after (ops (F := F)) W (Proc.devRef .tc main_arg0) = W (Proc.devRef .tc main_arg0) := by
  show after (opsP0 ++ (opsP1 ++ (opsP2 ++ (opsP3 ++ opsP4)))) W _ = _
  rw [after_append, after_append, after_append, after_append, kP4_arg0, kP3_arg0, kP2_arg0, kP1_arg0, kP0_arg0]
theorem keep_arg1 (W : Valuation τ sig (Elt F)) : after (ops (F := F)) W (Proc.devRef .tc main_arg1) = W (Proc.devRef .tc main_arg1) := by
  show after (opsP0 ++ (opsP1 ++ (opsP2 ++ (opsP3 ++ opsP4)))) W _ = _
  rw [after_append, after_append, after_append, after_append, kP4_arg1, kP3_arg1, kP2_arg1, kP1_arg1, kP0_arg1]
theorem keep_arg2 (W : Valuation τ sig (Elt F)) : after (ops (F := F)) W (Proc.devRef .tc main_arg2) = W (Proc.devRef .tc main_arg2) := by
  show after (opsP0 ++ (opsP1 ++ (opsP2 ++ (opsP3 ++ opsP4)))) W _ = _
  rw [after_append, after_append, after_append, after_append, kP4_arg2, kP3_arg2, kP2_arg2, kP1_arg2, kP0_arg2]
theorem keep_arg3 (W : Valuation τ sig (Elt F)) : after (ops (F := F)) W (Proc.devRef .tc main_arg3) = W (Proc.devRef .tc main_arg3) := by
  show after (opsP0 ++ (opsP1 ++ (opsP2 ++ (opsP3 ++ opsP4)))) W _ = _
  rw [after_append, after_append, after_append, after_append, kP4_arg3, kP3_arg3, kP2_arg3, kP1_arg3, kP0_arg3]
theorem keep_arg4 (W : Valuation τ sig (Elt F)) : after (ops (F := F)) W (Proc.devRef .tc main_arg4) = W (Proc.devRef .tc main_arg4) := by
  show after (opsP0 ++ (opsP1 ++ (opsP2 ++ (opsP3 ++ opsP4)))) W _ = _
  rw [after_append, after_append, after_append, after_append, kP4_arg4, kP3_arg4, kP2_arg4, kP1_arg4, kP0_arg4]
theorem keep_arg5 (W : Valuation τ sig (Elt F)) : after (ops (F := F)) W (Proc.devRef .tc main_arg5) = W (Proc.devRef .tc main_arg5) := by
  show after (opsP0 ++ (opsP1 ++ (opsP2 ++ (opsP3 ++ opsP4)))) W _ = _
  rw [after_append, after_append, after_append, after_append, kP4_arg5, kP3_arg5, kP2_arg5, kP1_arg5, kP0_arg5]
theorem keep_arg6 (W : Valuation τ sig (Elt F)) : after (ops (F := F)) W (Proc.devRef .tc main_arg6) = W (Proc.devRef .tc main_arg6) := by
  show after (opsP0 ++ (opsP1 ++ (opsP2 ++ (opsP3 ++ opsP4)))) W _ = _
  rw [after_append, after_append, after_append, after_append, kP4_arg6, kP3_arg6, kP2_arg6, kP1_arg6, kP0_arg6]
theorem keep_arg7 (W : Valuation τ sig (Elt F)) : after (ops (F := F)) W (Proc.devRef .tc main_arg7) = W (Proc.devRef .tc main_arg7) := by
  show after (opsP0 ++ (opsP1 ++ (opsP2 ++ (opsP3 ++ opsP4)))) W _ = _
  rw [after_append, after_append, after_append, after_append, kP4_arg7, kP3_arg7, kP2_arg7, kP1_arg7, kP0_arg7]
theorem keep_arg8 (W : Valuation τ sig (Elt F)) : after (ops (F := F)) W (Proc.devRef .tc main_arg8) = W (Proc.devRef .tc main_arg8) := by
  show after (opsP0 ++ (opsP1 ++ (opsP2 ++ (opsP3 ++ opsP4)))) W _ = _
  rw [after_append, after_append, after_append, after_append, kP4_arg8, kP3_arg8, kP2_arg8, kP1_arg8, kP0_arg8]
theorem keep_arg9 (W : Valuation τ sig (Elt F)) : after (ops (F := F)) W (Proc.devRef .tc main_arg9) = W (Proc.devRef .tc main_arg9) := by
  show after (opsP0 ++ (opsP1 ++ (opsP2 ++ (opsP3 ++ opsP4)))) W _ = _
  rw [after_append, after_append, after_append, after_append, kP4_arg9, kP3_arg9, kP2_arg9, kP1_arg9, kP0_arg9]
theorem keep_arg10 (W : Valuation τ sig (Elt F)) : after (ops (F := F)) W (Proc.devRef .tc main_arg10) = W (Proc.devRef .tc main_arg10) := by
  show after (opsP0 ++ (opsP1 ++ (opsP2 ++ (opsP3 ++ opsP4)))) W _ = _
  rw [after_append, after_append, after_append, after_append, kP4_arg10, kP3_arg10, kP2_arg10, kP1_arg10, kP0_arg10]
theorem keep_arg11 (W : Valuation τ sig (Elt F)) : after (ops (F := F)) W (Proc.devRef .tc main_arg11) = W (Proc.devRef .tc main_arg11) := by
  show after (opsP0 ++ (opsP1 ++ (opsP2 ++ (opsP3 ++ opsP4)))) W _ = _
  rw [after_append, after_append, after_append, after_append, kP4_arg11, kP3_arg11, kP2_arg11, kP1_arg11, kP0_arg11]
theorem keep_arg12 (W : Valuation τ sig (Elt F)) : after (ops (F := F)) W (Proc.devRef .tc main_arg12) = W (Proc.devRef .tc main_arg12) := by
  show after (opsP0 ++ (opsP1 ++ (opsP2 ++ (opsP3 ++ opsP4)))) W _ = _
  rw [after_append, after_append, after_append, after_append, kP4_arg12, kP3_arg12, kP2_arg12, kP1_arg12, kP0_arg12]
theorem keep_arg13 (W : Valuation τ sig (Elt F)) : after (ops (F := F)) W (Proc.devRef .tc main_arg13) = W (Proc.devRef .tc main_arg13) := by
  show after (opsP0 ++ (opsP1 ++ (opsP2 ++ (opsP3 ++ opsP4)))) W _ = _
  rw [after_append, after_append, after_append, after_append, kP4_arg13, kP3_arg13, kP2_arg13, kP1_arg13, kP0_arg13]
theorem keep_arg14 (W : Valuation τ sig (Elt F)) : after (ops (F := F)) W (Proc.devRef .tc main_arg14) = W (Proc.devRef .tc main_arg14) := by
  show after (opsP0 ++ (opsP1 ++ (opsP2 ++ (opsP3 ++ opsP4)))) W _ = _
  rw [after_append, after_append, after_append, after_append, kP4_arg14, kP3_arg14, kP2_arg14, kP1_arg14, kP0_arg14]
theorem keep_arg15 (W : Valuation τ sig (Elt F)) : after (ops (F := F)) W (Proc.devRef .tc main_arg15) = W (Proc.devRef .tc main_arg15) := by
  show after (opsP0 ++ (opsP1 ++ (opsP2 ++ (opsP3 ++ opsP4)))) W _ = _
  rw [after_append, after_append, after_append, after_append, kP4_arg15, kP3_arg15, kP2_arg15, kP1_arg15, kP0_arg15]
theorem keep_arg16 (W : Valuation τ sig (Elt F)) : after (ops (F := F)) W (Proc.devRef .tc main_arg16) = W (Proc.devRef .tc main_arg16) := by
  show after (opsP0 ++ (opsP1 ++ (opsP2 ++ (opsP3 ++ opsP4)))) W _ = _
  rw [after_append, after_append, after_append, after_append, kP4_arg16, kP3_arg16, kP2_arg16, kP1_arg16, kP0_arg16]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  show (opsP0 ++ (opsP1 ++ (opsP2 ++ (opsP3 ++ opsP4)))).Forall _
  simp only [List.forall_append]
  exact ⟨sub0, sub1, sub2, sub3, sub4⟩

end Cert.ReferenceIdeal.ValueP

end
-- ==== Proof.RefSegA.lean ====
/-
  The reference's first 88 host operations (layer 0), read back: from any contents, the segment leaves the source and
  target node vectors and the first layer's features as the stages of the arguments it starts from, and writes no
  argument.
-/
import proofs.«181532_j16295105921239_1_alg».proof.Proof.Gen.ReferenceIdeal
import proofs.«181532_j16295105921239_1_alg».proof.Proof.RefReadP
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    unary main_arg3 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v15 main_v16 rfl shapeCasts_S1x64x64_S64x64,
    binary main_v14 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S100000x64 ![0, 1] bcast_S1x64_S100000x64_0_1 : (⟨S1x64, .f32⟩ : BufTy).Contents (Elt F) → (⟨S100000x64, .f32⟩ : BufTy).Contents (Elt F)),
    binary main_v17 main_v21 main_v22 (addf : (⟨S100000x64, .f32⟩ : BufTy).Contents (Elt F) → (⟨S100000x64, .f32⟩ : BufTy).Contents (Elt F) → (⟨S100000x64, .f32⟩ : BufTy).Contents (Elt F)),
    unary main_arg5 main_v23 ((extractStridedSlice S1x64 ![0, 0] · slices_S3x64_S1x64_0_0) : (⟨S3x64, .f32⟩ : BufTy).Contents (Elt F) → (⟨S1x64, .f32⟩ : BufTy).Contents (Elt F)),
    reshape main_v23 main_v24 rfl shapeCasts_S1x64_S64,
    unary main_arg6 main_v25 ((extractStridedSlice S1x64 ![0, 0] · slices_S3x64_S1x64_0_0) : (⟨S3x64, .f32⟩ : BufTy).Contents (Elt F) → (⟨S1x64, .f32⟩ : BufTy).Contents (Elt F)),
    reshape main_v25 main_v26 rfl shapeCasts_S1x64_S64,
    unary main_arg7 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_arg8 main_v29 ((extractStridedSlice S1x64 ![0, 0] · slices_S3x64_S1x64_0_0) : (⟨S3x64, .f32⟩ : BufTy).Contents (Elt F) → (⟨S1x64, .f32⟩ : BufTy).Contents (Elt F)),
    reshape main_v29 main_v30 rfl shapeCasts_S1x64_S64,
    unary main_v28 main_v31 (broadcastInDim S1x64 ![1] bcast_S64_S1x64_1 : (⟨S64, .f32⟩ : BufTy).Contents (Elt F) → (⟨S1x64, .f32⟩ : BufTy).Contents (Elt F)),
    unary main_v31 main_v32 (broadcastInDim S100000x64 ![0, 1] bcast_S1x64_S100000x64_0_1 : (⟨S1x64, .f32⟩ : BufTy).Contents (Elt F) → (⟨S100000x64, .f32⟩ : BufTy).Contents (Elt F)),
    binary main_v22 main_v32 main_v33 (subf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3727C5AC#32),
    unary main_cst_1 main_v34 (broadcastInDim S64 ![] bcast_S_S64 : (⟨S_, .f32⟩ : BufTy).Contents (Elt F) → (⟨S64, .f32⟩ : BufTy).Contents (Elt F)),
    binary main_v30 main_v34 main_v35 (addf : (⟨S64, .f32⟩ : BufTy).Contents (Elt F) → (⟨S64, .f32⟩ : BufTy).Contents (Elt F) → (⟨S64, .f32⟩ : BufTy).Contents (Elt F)),
    unary main_v35 main_v36 (Host.rsqrt : (⟨S64, .f32⟩ : BufTy).Contents (Elt F) → (⟨S64, .f32⟩ : BufTy).Contents (Elt F)),
    unary main_v36 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v33 main_v38 main_v39 (mulf : (⟨S100000x64, .f32⟩ : BufTy).Contents (Elt F) → (⟨S100000x64, .f32⟩ : BufTy).Contents (Elt F) → (⟨S100000x64, .f32⟩ : BufTy).Contents (Elt F)),
    unary main_v24 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (mulf : (⟨S100000x64, .f32⟩ : BufTy).Contents (Elt F) → (⟨S100000x64, .f32⟩ : BufTy).Contents (Elt F) → (⟨S100000x64, .f32⟩ : BufTy).Contents (Elt F)),
    unary main_v26 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v45) (TRef.of (T := ⟨S100000x64, .f32⟩) main_call0_v0) (TRef.of (T := ⟨S100000x64, .f32⟩) main_v46) maximumf,
    unary main_arg9 main_v47 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v47 main_v48 rfl shapeCasts_S1x64x64_S64x64,
    binary main_v46 main_v48 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v50 ((extractStridedSlice S1x64 ![0, 0] · slices_S3x64_S1x64_0_0) : (⟨S3x64, .f32⟩ : BufTy).Contents (Elt F) → (⟨S1x64, .f32⟩ : BufTy).Contents (Elt F)),
    reshape main_v50 main_v51 rfl shapeCasts_S1x64_S64,
    unary main_v51 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v49 main_v53 main_v54 (addf : (⟨S100000x64, .f32⟩ : BufTy).Contents (Elt F) → (⟨S100000x64, .f32⟩ : BufTy).Contents (Elt F) → (⟨S100000x64, .f32⟩ : BufTy).Contents (Elt F)),
    unary main_arg11 main_v55 ((extractStridedSlice S1x64 ![0, 0] · slices_S3x64_S1x64_0_0) : (⟨S3x64, .f32⟩ : BufTy).Contents (Elt F) → (⟨S1x64, .f32⟩ : BufTy).Contents (Elt F)),
    reshape main_v55 main_v56 rfl shapeCasts_S1x64_S64,
    unary main_arg12 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    unary main_arg13 main_v59 ((extractStridedSlice S1x64 ![0, 0] · slices_S3x64_S1x64_0_0) : (⟨S3x64, .f32⟩ : BufTy).Contents (Elt F) → (⟨S1x64, .f32⟩ : BufTy).Contents (Elt F)),
    reshape main_v59 main_v60 rfl shapeCasts_S1x64_S64,
    unary main_arg14 main_v61 ((extractStridedSlice S1x64 ![0, 0] · slices_S3x64_S1x64_0_0) : (⟨S3x64, .f32⟩ : BufTy).Contents (Elt F) → (⟨S1x64, .f32⟩ : BufTy).Contents (Elt F)),
    reshape main_v61 main_v62 rfl shapeCasts_S1x64_S64,
    unary main_v60 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v54 main_v64 main_v65 (subf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3727C5AC#32),
    unary main_cst_2 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.rsqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v65 main_v70 main_v71 (mulf : (⟨S100000x64, .f32⟩ : BufTy).Contents (Elt F) → (⟨S100000x64, .f32⟩ : BufTy).Contents (Elt F) → (⟨S100000x64, .f32⟩ : BufTy).Contents (Elt F)),
    unary main_v56 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (mulf : (⟨S100000x64, .f32⟩ : BufTy).Contents (Elt F) → (⟨S100000x64, .f32⟩ : BufTy).Contents (Elt F) → (⟨S100000x64, .f32⟩ : BufTy).Contents (Elt F)),
    unary main_v58 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v77) (TRef.of (T := ⟨S100000x64, .f32⟩) main_call1_v0) (TRef.of (T := ⟨S100000x64, .f32⟩) main_v78) maximumf ]

set_option maxHeartbeats 16000000 in
set_option maxRecDepth 8192 in
theorem A_v78 (W : Valuation τ sig (Elt F)) :
    after (opsA (F := F)) W (Proc.devRef .tc main_v78) = val_main_v78 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  after_results_simp <;> rfl

theorem A_v1 (W : Valuation τ sig (Elt F)) : after (opsA (F := F)) W (Proc.devRef .tc main_v1) = val_main_v1 (F := F) (W (Proc.devRef .tc main_arg1)) := by
  after_results_simp <;> rfl

theorem A_v3 (W : Valuation τ sig (Elt F)) : after (opsA (F := F)) W (Proc.devRef .tc main_v3) = val_main_v3 (F := F) (W (Proc.devRef .tc main_arg1)) := by
  after_results_simp <;> rfl

theorem kA_arg2 (W : Valuation τ sig (Elt F)) : after (opsA (F := F)) W (Proc.devRef .tc main_arg2) = W (Proc.devRef .tc main_arg2) := by
  after_results_simp <;> rfl

theorem kA_arg3 (W : Valuation τ sig (Elt F)) : after (opsA (F := F)) W (Proc.devRef .tc main_arg3) = W (Proc.devRef .tc main_arg3) := by
  after_results_simp <;> rfl

theorem kA_arg4 (W : Valuation τ sig (Elt F)) : after (opsA (F := F)) W (Proc.devRef .tc main_arg4) = W (Proc.devRef .tc main_arg4) := by
  after_results_simp <;> rfl

theorem kA_arg5 (W : Valuation τ sig (Elt F)) : after (opsA (F := F)) W (Proc.devRef .tc main_arg5) = W (Proc.devRef .tc main_arg5) := by
  after_results_simp <;> rfl

theorem kA_arg6 (W : Valuation τ sig (Elt F)) : after (opsA (F := F)) W (Proc.devRef .tc main_arg6) = W (Proc.devRef .tc main_arg6) := by
  after_results_simp <;> rfl

theorem kA_arg7 (W : Valuation τ sig (Elt F)) : after (opsA (F := F)) W (Proc.devRef .tc main_arg7) = W (Proc.devRef .tc main_arg7) := by
  after_results_simp <;> rfl

theorem kA_arg8 (W : Valuation τ sig (Elt F)) : after (opsA (F := F)) W (Proc.devRef .tc main_arg8) = W (Proc.devRef .tc main_arg8) := by
  after_results_simp <;> rfl

theorem kA_arg9 (W : Valuation τ sig (Elt F)) : after (opsA (F := F)) W (Proc.devRef .tc main_arg9) = W (Proc.devRef .tc main_arg9) := by
  after_results_simp <;> rfl

theorem kA_arg10 (W : Valuation τ sig (Elt F)) : after (opsA (F := F)) W (Proc.devRef .tc main_arg10) = W (Proc.devRef .tc main_arg10) := by
  after_results_simp <;> rfl

theorem kA_arg11 (W : Valuation τ sig (Elt F)) : after (opsA (F := F)) W (Proc.devRef .tc main_arg11) = W (Proc.devRef .tc main_arg11) := by
  after_results_simp <;> rfl

theorem kA_arg12 (W : Valuation τ sig (Elt F)) : after (opsA (F := F)) W (Proc.devRef .tc main_arg12) = W (Proc.devRef .tc main_arg12) := by
  after_results_simp <;> rfl

theorem kA_arg13 (W : Valuation τ sig (Elt F)) : after (opsA (F := F)) W (Proc.devRef .tc main_arg13) = W (Proc.devRef .tc main_arg13) := by
  after_results_simp <;> rfl

theorem kA_arg14 (W : Valuation τ sig (Elt F)) : after (opsA (F := F)) W (Proc.devRef .tc main_arg14) = W (Proc.devRef .tc main_arg14) := by
  after_results_simp <;> rfl

theorem kA_arg15 (W : Valuation τ sig (Elt F)) : after (opsA (F := F)) W (Proc.devRef .tc main_arg15) = W (Proc.devRef .tc main_arg15) := by
  after_results_simp <;> rfl

theorem kA_arg16 (W : Valuation τ sig (Elt F)) : after (opsA (F := F)) W (Proc.devRef .tc main_arg16) = W (Proc.devRef .tc main_arg16) := by
  after_results_simp <;> rfl

end Cert.ReferenceIdeal.ValueP

end
-- ==== Proof.RefSegB.lean ====
/-
  The reference's next 84 host operations (layer 1), read back: from contents holding the first layer's features, the
  node vectors and the parameter stacks, the segment leaves the second layer's features, and writes none of them.
-/
import proofs.«181532_j16295105921239_1_alg».proof.Proof.Gen.ReferenceIdeal
import proofs.«181532_j16295105921239_1_alg».proof.Proof.RefReadP
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsB : List (HloOp τ sig (Elt F)) :=
  [ nullary main_c_3 (constantI S_ 32 0#32),
    unary main_c_3 main_v79 (broadcastInDim S1600000 ![] bcast_S_S1600000 : (⟨S_, .i32⟩ : BufTy).Contents (Elt F) → (⟨S1600000, .i32⟩ : BufTy).Contents (Elt F)),
    binary main_v1 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v81 (broadcastInDim S1600000 ![] bcast_S_S1600000 : (⟨S_, .i32⟩ : BufTy).Contents (Elt F) → (⟨S1600000, .i32⟩ : BufTy).Contents (Elt F)),
    binary main_v1 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_v1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v78 main_v84 main_v85 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_5 (constant S_ .f32 0x00000000#32),
    unary main_cst_5 main_v86 (broadcastInDim S100000x64 ![] bcast_S_S100000x64 : (⟨S_, .f32⟩ : BufTy).Contents (Elt F) → (⟨S100000x64, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v78 main_v88 main_v89 (addf : (⟨S100000x64, .f32⟩ : BufTy).Contents (Elt F) → (⟨S100000x64, .f32⟩ : BufTy).Contents (Elt F) → (⟨S100000x64, .f32⟩ : BufTy).Contents (Elt F)),
    unary main_arg3 main_v90 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v90 main_v91 rfl shapeCasts_S1x64x64_S64x64,
    binary main_v89 main_v91 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v93 ((extractStridedSlice S1x64 ![1, 0] · slices_S3x64_S1x64_1_0) : (⟨S3x64, .f32⟩ : BufTy).Contents (Elt F) → (⟨S1x64, .f32⟩ : BufTy).Contents (Elt F)),
    reshape main_v93 main_v94 rfl shapeCasts_S1x64_S64,
    unary main_v94 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v92 main_v96 main_v97 (addf : (⟨S100000x64, .f32⟩ : BufTy).Contents (Elt F) → (⟨S100000x64, .f32⟩ : BufTy).Contents (Elt F) → (⟨S100000x64, .f32⟩ : BufTy).Contents (Elt F)),
    unary main_arg5 main_v98 ((extractStridedSlice S1x64 ![1, 0] · slices_S3x64_S1x64_1_0) : (⟨S3x64, .f32⟩ : BufTy).Contents (Elt F) → (⟨S1x64, .f32⟩ : BufTy).Contents (Elt F)),
    reshape main_v98 main_v99 rfl shapeCasts_S1x64_S64,
    unary main_arg6 main_v100 ((extractStridedSlice S1x64 ![1, 0] · slices_S3x64_S1x64_1_0) : (⟨S3x64, .f32⟩ : BufTy).Contents (Elt F) → (⟨S1x64, .f32⟩ : BufTy).Contents (Elt F)),
    reshape main_v100 main_v101 rfl shapeCasts_S1x64_S64,
    unary main_arg7 main_v102 ((extractStridedSlice S1x64 ![1, 0] · slices_S3x64_S1x64_1_0) : (⟨S3x64, .f32⟩ : BufTy).Contents (Elt F) → (⟨S1x64, .f32⟩ : BufTy).Contents (Elt F)),
    reshape main_v102 main_v103 rfl shapeCasts_S1x64_S64,
    unary main_arg8 main_v104 ((extractStridedSlice S1x64 ![1, 0] · slices_S3x64_S1x64_1_0) : (⟨S3x64, .f32⟩ : BufTy).Contents (Elt F) → (⟨S1x64, .f32⟩ : BufTy).Contents (Elt F)),
    reshape main_v104 main_v105 rfl shapeCasts_S1x64_S64,
    unary main_v103 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v97 main_v107 main_v108 (subf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3727C5AC#32),
    unary main_cst_6 main_v109 (broadcastInDim S64 ![] bcast_S_S64 : (⟨S_, .f32⟩ : BufTy).Contents (Elt F) → (⟨S64, .f32⟩ : BufTy).Contents (Elt F)),
    binary main_v105 main_v109 main_v110 (addf : (⟨S64, .f32⟩ : BufTy).Contents (Elt F) → (⟨S64, .f32⟩ : BufTy).Contents (Elt F) → (⟨S64, .f32⟩ : BufTy).Contents (Elt F)),
    unary main_v110 main_v111 (Host.rsqrt : (⟨S64, .f32⟩ : BufTy).Contents (Elt F) → (⟨S64, .f32⟩ : BufTy).Contents (Elt F)),
    unary main_v111 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v108 main_v113 main_v114 (mulf : (⟨S100000x64, .f32⟩ : BufTy).Contents (Elt F) → (⟨S100000x64, .f32⟩ : BufTy).Contents (Elt F) → (⟨S100000x64, .f32⟩ : BufTy).Contents (Elt F)),
    unary main_v99 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (mulf : (⟨S100000x64, .f32⟩ : BufTy).Contents (Elt F) → (⟨S100000x64, .f32⟩ : BufTy).Contents (Elt F) → (⟨S100000x64, .f32⟩ : BufTy).Contents (Elt F)),
    unary main_v101 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v117 main_v119 main_v120 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v120) (TRef.of (T := ⟨S100000x64, .f32⟩) main_call2_v0) (TRef.of (T := ⟨S100000x64, .f32⟩) main_v121) maximumf,
    unary main_arg9 main_v122 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v122 main_v123 rfl shapeCasts_S1x64x64_S64x64,
    binary main_v121 main_v123 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v125 ((extractStridedSlice S1x64 ![1, 0] · slices_S3x64_S1x64_1_0) : (⟨S3x64, .f32⟩ : BufTy).Contents (Elt F) → (⟨S1x64, .f32⟩ : BufTy).Contents (Elt F)),
    reshape main_v125 main_v126 rfl shapeCasts_S1x64_S64,
    unary main_v126 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v124 main_v128 main_v129 (addf : (⟨S100000x64, .f32⟩ : BufTy).Contents (Elt F) → (⟨S100000x64, .f32⟩ : BufTy).Contents (Elt F) → (⟨S100000x64, .f32⟩ : BufTy).Contents (Elt F)),
    unary main_arg11 main_v130 ((extractStridedSlice S1x64 ![1, 0] · slices_S3x64_S1x64_1_0) : (⟨S3x64, .f32⟩ : BufTy).Contents (Elt F) → (⟨S1x64, .f32⟩ : BufTy).Contents (Elt F)),
    reshape main_v130 main_v131 rfl shapeCasts_S1x64_S64,
    unary main_arg12 main_v132 ((extractStridedSlice S1x64 ![1, 0] · slices_S3x64_S1x64_1_0) : (⟨S3x64, .f32⟩ : BufTy).Contents (Elt F) → (⟨S1x64, .f32⟩ : BufTy).Contents (Elt F)),
    reshape main_v132 main_v133 rfl shapeCasts_S1x64_S64,
    unary main_arg13 main_v134 ((extractStridedSlice S1x64 ![1, 0] · slices_S3x64_S1x64_1_0) : (⟨S3x64, .f32⟩ : BufTy).Contents (Elt F) → (⟨S1x64, .f32⟩ : BufTy).Contents (Elt F)),
    reshape main_v134 main_v135 rfl shapeCasts_S1x64_S64,
    unary main_arg14 main_v136 ((extractStridedSlice S1x64 ![1, 0] · slices_S3x64_S1x64_1_0) : (⟨S3x64, .f32⟩ : BufTy).Contents (Elt F) → (⟨S1x64, .f32⟩ : BufTy).Contents (Elt F)),
    reshape main_v136 main_v137 rfl shapeCasts_S1x64_S64,
    unary main_v135 main_v138 (broadcastInDim S1x64 ![1] bcast_S64_S1x64_1 : (⟨S64, .f32⟩ : BufTy).Contents (Elt F) → (⟨S1x64, .f32⟩ : BufTy).Contents (Elt F)),
    unary main_v138 main_v139 (broadcastInDim S100000x64 ![0, 1] bcast_S1x64_S100000x64_0_1 : (⟨S1x64, .f32⟩ : BufTy).Contents (Elt F) → (⟨S100000x64, .f32⟩ : BufTy).Contents (Elt F)),
    binary main_v129 main_v139 main_v140 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v141 (broadcastInDim S64 ![] bcast_S_S64 : (⟨S_, .f32⟩ : BufTy).Contents (Elt F) → (⟨S64, .f32⟩ : BufTy).Contents (Elt F)),
    binary main_v137 main_v141 main_v142 (addf : (⟨S64, .f32⟩ : BufTy).Contents (Elt F) → (⟨S64, .f32⟩ : BufTy).Contents (Elt F) → (⟨S64, .f32⟩ : BufTy).Contents (Elt F)),
    unary main_v142 main_v143 (Host.rsqrt : (⟨S64, .f32⟩ : BufTy).Contents (Elt F) → (⟨S64, .f32⟩ : BufTy).Contents (Elt F)),
    unary main_v143 main_v144 (broadcastInDim S1x64 ![1] bcast_S64_S1x64_1 : (⟨S64, .f32⟩ : BufTy).Contents (Elt F) → (⟨S1x64, .f32⟩ : BufTy).Contents (Elt F)),
    unary main_v144 main_v145 (broadcastInDim S100000x64 ![0, 1] bcast_S1x64_S100000x64_0_1 : (⟨S1x64, .f32⟩ : BufTy).Contents (Elt F) → (⟨S100000x64, .f32⟩ : BufTy).Contents (Elt F)),
    binary main_v140 main_v145 main_v146 (mulf : (⟨S100000x64, .f32⟩ : BufTy).Contents (Elt F) → (⟨S100000x64, .f32⟩ : BufTy).Contents (Elt F) → (⟨S100000x64, .f32⟩ : BufTy).Contents (Elt F)),
    unary main_v131 main_v147 (broadcastInDim S1x64 ![1] bcast_S64_S1x64_1 : (⟨S64, .f32⟩ : BufTy).Contents (Elt F) → (⟨S1x64, .f32⟩ : BufTy).Contents (Elt F)),
    unary main_v147 main_v148 (broadcastInDim S100000x64 ![0, 1] bcast_S1x64_S100000x64_0_1 : (⟨S1x64, .f32⟩ : BufTy).Contents (Elt F) → (⟨S100000x64, .f32⟩ : BufTy).Contents (Elt F)),
    binary main_v146 main_v148 main_v149 (mulf : (⟨S100000x64, .f32⟩ : BufTy).Contents (Elt F) → (⟨S100000x64, .f32⟩ : BufTy).Contents (Elt F) → (⟨S100000x64, .f32⟩ : BufTy).Contents (Elt F)),
    unary main_v133 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v149 main_v151 main_v152 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v152) (TRef.of (T := ⟨S100000x64, .f32⟩) main_call3_v0) (TRef.of (T := ⟨S100000x64, .f32⟩) main_v153) maximumf ]

set_option maxHeartbeats 16000000 in
set_option maxRecDepth 8192 in
/-- Layer segment B: from contents holding the previous features, the node vectors and the parameter stacks, the
    segment leaves the next features. -/
theorem B_v153 (x0 : (⟨S100000x64, .f32⟩ : BufTy).Contents (Elt F)) (x1 : (⟨S2x1600000, .i32⟩ : BufTy).Contents (Elt F)) (x3 : (⟨S3x64x64, .f32⟩ : BufTy).Contents (Elt F)) (x4 : (⟨S3x64, .f32⟩ : BufTy).Contents (Elt F)) (x5 : (⟨S3x64, .f32⟩ : BufTy).Contents (Elt F)) (x6 : (⟨S3x64, .f32⟩ : BufTy).Contents (Elt F)) (x7 : (⟨S3x64, .f32⟩ : BufTy).Contents (Elt F)) (x8 : (⟨S3x64, .f32⟩ : BufTy).Contents (Elt F)) (x9 : (⟨S3x64x64, .f32⟩ : BufTy).Contents (Elt F)) (x10 : (⟨S3x64, .f32⟩ : BufTy).Contents (Elt F)) (x11 : (⟨S3x64, .f32⟩ : BufTy).Contents (Elt F)) (x12 : (⟨S3x64, .f32⟩ : BufTy).Contents (Elt F)) (x13 : (⟨S3x64, .f32⟩ : BufTy).Contents (Elt F)) (x14 : (⟨S3x64, .f32⟩ : BufTy).Contents (Elt F)) (WA : Valuation τ sig (Elt F))
    (h78 : WA (Proc.devRef .tc main_v78) = val_main_v78 (F := F) x0 x1 x3 x4 x5 x6 x7 x8 x9 x10 x11 x12 x13 x14) (h1 : WA (Proc.devRef .tc main_v1) = val_main_v1 (F := F) x1) (h3 : WA (Proc.devRef .tc main_v3) = val_main_v3 (F := F) x1)
    (a3 : WA (Proc.devRef .tc main_arg3) = x3) (a4 : WA (Proc.devRef .tc main_arg4) = x4) (a5 : WA (Proc.devRef .tc main_arg5) = x5) (a6 : WA (Proc.devRef .tc main_arg6) = x6) (a7 : WA (Proc.devRef .tc main_arg7) = x7) (a8 : WA (Proc.devRef .tc main_arg8) = x8) (a9 : WA (Proc.devRef .tc main_arg9) = x9) (a10 : WA (Proc.devRef .tc main_arg10) = x10) (a11 : WA (Proc.devRef .tc main_arg11) = x11) (a12 : WA (Proc.devRef .tc main_arg12) = x12) (a13 : WA (Proc.devRef .tc main_arg13) = x13) (a14 : WA (Proc.devRef .tc main_arg14) = x14) :
    after (opsB (F := F)) WA (Proc.devRef .tc main_v153) = val_main_v153 (F := F) x0 x1 x3 x4 x5 x6 x7 x8 x9 x10 x11 x12 x13 x14 := by
  after_results_simp
  simp only [h78, h1, h3, a3, a4, a5, a6, a7, a8, a9, a10, a11, a12, a13, a14]
  rfl

theorem kB_v1 (W : Valuation τ sig (Elt F)) : after (opsB (F := F)) W (Proc.devRef .tc main_v1) = W (Proc.devRef .tc main_v1) := by
  after_results_simp <;> rfl

theorem kB_v3 (W : Valuation τ sig (Elt F)) : after (opsB (F := F)) W (Proc.devRef .tc main_v3) = W (Proc.devRef .tc main_v3) := by
  after_results_simp <;> rfl

theorem kB_arg2 (W : Valuation τ sig (Elt F)) : after (opsB (F := F)) W (Proc.devRef .tc main_arg2) = W (Proc.devRef .tc main_arg2) := by
  after_results_simp <;> rfl

theorem kB_arg3 (W : Valuation τ sig (Elt F)) : after (opsB (F := F)) W (Proc.devRef .tc main_arg3) = W (Proc.devRef .tc main_arg3) := by
  after_results_simp <;> rfl

theorem kB_arg4 (W : Valuation τ sig (Elt F)) : after (opsB (F := F)) W (Proc.devRef .tc main_arg4) = W (Proc.devRef .tc main_arg4) := by
  after_results_simp <;> rfl

theorem kB_arg5 (W : Valuation τ sig (Elt F)) : after (opsB (F := F)) W (Proc.devRef .tc main_arg5) = W (Proc.devRef .tc main_arg5) := by
  after_results_simp <;> rfl

theorem kB_arg6 (W : Valuation τ sig (Elt F)) : after (opsB (F := F)) W (Proc.devRef .tc main_arg6) = W (Proc.devRef .tc main_arg6) := by
  after_results_simp <;> rfl

theorem kB_arg7 (W : Valuation τ sig (Elt F)) : after (opsB (F := F)) W (Proc.devRef .tc main_arg7) = W (Proc.devRef .tc main_arg7) := by
  after_results_simp <;> rfl

theorem kB_arg8 (W : Valuation τ sig (Elt F)) : after (opsB (F := F)) W (Proc.devRef .tc main_arg8) = W (Proc.devRef .tc main_arg8) := by
  after_results_simp <;> rfl

theorem kB_arg9 (W : Valuation τ sig (Elt F)) : after (opsB (F := F)) W (Proc.devRef .tc main_arg9) = W (Proc.devRef .tc main_arg9) := by
  after_results_simp <;> rfl

theorem kB_arg10 (W : Valuation τ sig (Elt F)) : after (opsB (F := F)) W (Proc.devRef .tc main_arg10) = W (Proc.devRef .tc main_arg10) := by
  after_results_simp <;> rfl

theorem kB_arg11 (W : Valuation τ sig (Elt F)) : after (opsB (F := F)) W (Proc.devRef .tc main_arg11) = W (Proc.devRef .tc main_arg11) := by
  after_results_simp <;> rfl

theorem kB_arg12 (W : Valuation τ sig (Elt F)) : after (opsB (F := F)) W (Proc.devRef .tc main_arg12) = W (Proc.devRef .tc main_arg12) := by
  after_results_simp <;> rfl

theorem kB_arg13 (W : Valuation τ sig (Elt F)) : after (opsB (F := F)) W (Proc.devRef .tc main_arg13) = W (Proc.devRef .tc main_arg13) := by
  after_results_simp <;> rfl

theorem kB_arg14 (W : Valuation τ sig (Elt F)) : after (opsB (F := F)) W (Proc.devRef .tc main_arg14) = W (Proc.devRef .tc main_arg14) := by
  after_results_simp <;> rfl

theorem kB_arg15 (W : Valuation τ sig (Elt F)) : after (opsB (F := F)) W (Proc.devRef .tc main_arg15) = W (Proc.devRef .tc main_arg15) := by
  after_results_simp <;> rfl

theorem kB_arg16 (W : Valuation τ sig (Elt F)) : after (opsB (F := F)) W (Proc.devRef .tc main_arg16) = W (Proc.devRef .tc main_arg16) := by
  after_results_simp <;> rfl

end Cert.ReferenceIdeal.ValueP

end
-- ==== Proof.RefSegC.lean ====
/-
  The reference's next 84 host operations (layer 2), read back: from contents holding the second layer's features, the
  node vectors and the parameter stacks, the segment leaves the third layer's features.
-/
import proofs.«181532_j16295105921239_1_alg».proof.Proof.Gen.ReferenceIdeal
import proofs.«181532_j16295105921239_1_alg».proof.Proof.RefReadP
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsC : List (HloOp τ sig (Elt F)) :=
  [ nullary main_c_8 (constantI S_ 32 0#32),
    unary main_c_8 main_v154 (broadcastInDim S1600000 ![] bcast_S_S1600000 : (⟨S_, .i32⟩ : BufTy).Contents (Elt F) → (⟨S1600000, .i32⟩ : BufTy).Contents (Elt F)),
    binary main_v1 main_v154 main_v155 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v156 (broadcastInDim S1600000 ![] bcast_S_S1600000 : (⟨S_, .i32⟩ : BufTy).Contents (Elt F) → (⟨S1600000, .i32⟩ : BufTy).Contents (Elt F)),
    binary main_v1 main_v156 main_v157 (addi : (⟨S1600000, .i32⟩ : BufTy).Contents (Elt F) → (⟨S1600000, .i32⟩ : BufTy).Contents (Elt F) → (⟨S1600000, .i32⟩ : BufTy).Contents (Elt F)),
    ternary main_v155 main_v157 main_v1 main_v158 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v158 main_v159 (broadcastInDim S1600000x1 ![0] bcast_S1600000_S1600000x1_0 : (⟨S1600000, .i32⟩ : BufTy).Contents (Elt F) → (⟨S1600000x1, .i32⟩ : BufTy).Contents (Elt F)),
    binary main_v153 main_v159 main_v160 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_10 (constant S_ .f32 0x00000000#32),
    unary main_cst_10 main_v161 (broadcastInDim S100000x64 ![] bcast_S_S100000x64 : (⟨S_, .f32⟩ : BufTy).Contents (Elt F) → (⟨S100000x64, .f32⟩ : BufTy).Contents (Elt F)),
    unary main_v3 main_v162 (broadcastInDim S1600000x1 ![0] bcast_S1600000_S1600000x1_0 : (⟨S1600000, .i32⟩ : BufTy).Contents (Elt F) → (⟨S1600000x1, .i32⟩ : BufTy).Contents (Elt F)),
    ternary main_v161 main_v162 main_v160 main_v163 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v153 main_v163 main_v164 (addf : (⟨S100000x64, .f32⟩ : BufTy).Contents (Elt F) → (⟨S100000x64, .f32⟩ : BufTy).Contents (Elt F) → (⟨S100000x64, .f32⟩ : BufTy).Contents (Elt F)),
    unary main_arg3 main_v165 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v165 main_v166 rfl shapeCasts_S1x64x64_S64x64,
    binary main_v164 main_v166 main_v167 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v168 ((extractStridedSlice S1x64 ![2, 0] · slices_S3x64_S1x64_2_0) : (⟨S3x64, .f32⟩ : BufTy).Contents (Elt F) → (⟨S1x64, .f32⟩ : BufTy).Contents (Elt F)),
    reshape main_v168 main_v169 rfl shapeCasts_S1x64_S64,
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S100000x64 ![0, 1] bcast_S1x64_S100000x64_0_1 : (⟨S1x64, .f32⟩ : BufTy).Contents (Elt F) → (⟨S100000x64, .f32⟩ : BufTy).Contents (Elt F)),
    binary main_v167 main_v171 main_v172 (addf : (⟨S100000x64, .f32⟩ : BufTy).Contents (Elt F) → (⟨S100000x64, .f32⟩ : BufTy).Contents (Elt F) → (⟨S100000x64, .f32⟩ : BufTy).Contents (Elt F)),
    unary main_arg5 main_v173 ((extractStridedSlice S1x64 ![2, 0] · slices_S3x64_S1x64_2_0) : (⟨S3x64, .f32⟩ : BufTy).Contents (Elt F) → (⟨S1x64, .f32⟩ : BufTy).Contents (Elt F)),
    reshape main_v173 main_v174 rfl shapeCasts_S1x64_S64,
    unary main_arg6 main_v175 ((extractStridedSlice S1x64 ![2, 0] · slices_S3x64_S1x64_2_0) : (⟨S3x64, .f32⟩ : BufTy).Contents (Elt F) → (⟨S1x64, .f32⟩ : BufTy).Contents (Elt F)),
    reshape main_v175 main_v176 rfl shapeCasts_S1x64_S64,
    unary main_arg7 main_v177 ((extractStridedSlice S1x64 ![2, 0] · slices_S3x64_S1x64_2_0) : (⟨S3x64, .f32⟩ : BufTy).Contents (Elt F) → (⟨S1x64, .f32⟩ : BufTy).Contents (Elt F)),
    reshape main_v177 main_v178 rfl shapeCasts_S1x64_S64,
    unary main_arg8 main_v179 ((extractStridedSlice S1x64 ![2, 0] · slices_S3x64_S1x64_2_0) : (⟨S3x64, .f32⟩ : BufTy).Contents (Elt F) → (⟨S1x64, .f32⟩ : BufTy).Contents (Elt F)),
    reshape main_v179 main_v180 rfl shapeCasts_S1x64_S64,
    unary main_v178 main_v181 (broadcastInDim S1x64 ![1] bcast_S64_S1x64_1 : (⟨S64, .f32⟩ : BufTy).Contents (Elt F) → (⟨S1x64, .f32⟩ : BufTy).Contents (Elt F)),
    unary main_v181 main_v182 (broadcastInDim S100000x64 ![0, 1] bcast_S1x64_S100000x64_0_1 : (⟨S1x64, .f32⟩ : BufTy).Contents (Elt F) → (⟨S100000x64, .f32⟩ : BufTy).Contents (Elt F)),
    binary main_v172 main_v182 main_v183 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v184 (broadcastInDim S64 ![] bcast_S_S64 : (⟨S_, .f32⟩ : BufTy).Contents (Elt F) → (⟨S64, .f32⟩ : BufTy).Contents (Elt F)),
    binary main_v180 main_v184 main_v185 (addf : (⟨S64, .f32⟩ : BufTy).Contents (Elt F) → (⟨S64, .f32⟩ : BufTy).Contents (Elt F) → (⟨S64, .f32⟩ : BufTy).Contents (Elt F)),
    unary main_v185 main_v186 (Host.rsqrt : (⟨S64, .f32⟩ : BufTy).Contents (Elt F) → (⟨S64, .f32⟩ : BufTy).Contents (Elt F)),
    unary main_v186 main_v187 (broadcastInDim S1x64 ![1] bcast_S64_S1x64_1 : (⟨S64, .f32⟩ : BufTy).Contents (Elt F) → (⟨S1x64, .f32⟩ : BufTy).Contents (Elt F)),
    unary main_v187 main_v188 (broadcastInDim S100000x64 ![0, 1] bcast_S1x64_S100000x64_0_1 : (⟨S1x64, .f32⟩ : BufTy).Contents (Elt F) → (⟨S100000x64, .f32⟩ : BufTy).Contents (Elt F)),
    binary main_v183 main_v188 main_v189 (mulf : (⟨S100000x64, .f32⟩ : BufTy).Contents (Elt F) → (⟨S100000x64, .f32⟩ : BufTy).Contents (Elt F) → (⟨S100000x64, .f32⟩ : BufTy).Contents (Elt F)),
    unary main_v174 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v189 main_v191 main_v192 (mulf : (⟨S100000x64, .f32⟩ : BufTy).Contents (Elt F) → (⟨S100000x64, .f32⟩ : BufTy).Contents (Elt F) → (⟨S100000x64, .f32⟩ : BufTy).Contents (Elt F)),
    unary main_v176 main_v193 (broadcastInDim S1x64 ![1] bcast_S64_S1x64_1 : (⟨S64, .f32⟩ : BufTy).Contents (Elt F) → (⟨S1x64, .f32⟩ : BufTy).Contents (Elt F)),
    unary main_v193 main_v194 (broadcastInDim S100000x64 ![0, 1] bcast_S1x64_S100000x64_0_1 : (⟨S1x64, .f32⟩ : BufTy).Contents (Elt F) → (⟨S100000x64, .f32⟩ : BufTy).Contents (Elt F)),
    binary main_v192 main_v194 main_v195 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v195) (TRef.of (T := ⟨S100000x64, .f32⟩) main_call4_v0) (TRef.of (T := ⟨S100000x64, .f32⟩) main_v196) maximumf,
    unary main_arg9 main_v197 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v197 main_v198 rfl shapeCasts_S1x64x64_S64x64,
    binary main_v196 main_v198 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg10 main_v200 ((extractStridedSlice S1x64 ![2, 0] · slices_S3x64_S1x64_2_0) : (⟨S3x64, .f32⟩ : BufTy).Contents (Elt F) → (⟨S1x64, .f32⟩ : BufTy).Contents (Elt F)),
    reshape main_v200 main_v201 rfl shapeCasts_S1x64_S64,
    unary main_v201 main_v202 (broadcastInDim S1x64 ![1] bcast_S64_S1x64_1 : (⟨S64, .f32⟩ : BufTy).Contents (Elt F) → (⟨S1x64, .f32⟩ : BufTy).Contents (Elt F)),
    unary main_v202 main_v203 (broadcastInDim S100000x64 ![0, 1] bcast_S1x64_S100000x64_0_1 : (⟨S1x64, .f32⟩ : BufTy).Contents (Elt F) → (⟨S100000x64, .f32⟩ : BufTy).Contents (Elt F)),
    binary main_v199 main_v203 main_v204 (addf : (⟨S100000x64, .f32⟩ : BufTy).Contents (Elt F) → (⟨S100000x64, .f32⟩ : BufTy).Contents (Elt F) → (⟨S100000x64, .f32⟩ : BufTy).Contents (Elt F)),
    unary main_arg11 main_v205 ((extractStridedSlice S1x64 ![2, 0] · slices_S3x64_S1x64_2_0) : (⟨S3x64, .f32⟩ : BufTy).Contents (Elt F) → (⟨S1x64, .f32⟩ : BufTy).Contents (Elt F)),
    reshape main_v205 main_v206 rfl shapeCasts_S1x64_S64,
    unary main_arg12 main_v207 ((extractStridedSlice S1x64 ![2, 0] · slices_S3x64_S1x64_2_0) : (⟨S3x64, .f32⟩ : BufTy).Contents (Elt F) → (⟨S1x64, .f32⟩ : BufTy).Contents (Elt F)),
    reshape main_v207 main_v208 rfl shapeCasts_S1x64_S64,
    unary main_arg13 main_v209 ((extractStridedSlice S1x64 ![2, 0] · slices_S3x64_S1x64_2_0) : (⟨S3x64, .f32⟩ : BufTy).Contents (Elt F) → (⟨S1x64, .f32⟩ : BufTy).Contents (Elt F)),
    reshape main_v209 main_v210 rfl shapeCasts_S1x64_S64,
    unary main_arg14 main_v211 ((extractStridedSlice S1x64 ![2, 0] · slices_S3x64_S1x64_2_0) : (⟨S3x64, .f32⟩ : BufTy).Contents (Elt F) → (⟨S1x64, .f32⟩ : BufTy).Contents (Elt F)),
    reshape main_v211 main_v212 rfl shapeCasts_S1x64_S64,
    unary main_v210 main_v213 (broadcastInDim S1x64 ![1] bcast_S64_S1x64_1 : (⟨S64, .f32⟩ : BufTy).Contents (Elt F) → (⟨S1x64, .f32⟩ : BufTy).Contents (Elt F)),
    unary main_v213 main_v214 (broadcastInDim S100000x64 ![0, 1] bcast_S1x64_S100000x64_0_1 : (⟨S1x64, .f32⟩ : BufTy).Contents (Elt F) → (⟨S100000x64, .f32⟩ : BufTy).Contents (Elt F)),
    binary main_v204 main_v214 main_v215 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v216 (broadcastInDim S64 ![] bcast_S_S64 : (⟨S_, .f32⟩ : BufTy).Contents (Elt F) → (⟨S64, .f32⟩ : BufTy).Contents (Elt F)),
    binary main_v212 main_v216 main_v217 (addf : (⟨S64, .f32⟩ : BufTy).Contents (Elt F) → (⟨S64, .f32⟩ : BufTy).Contents (Elt F) → (⟨S64, .f32⟩ : BufTy).Contents (Elt F)),
    unary main_v217 main_v218 (Host.rsqrt : (⟨S64, .f32⟩ : BufTy).Contents (Elt F) → (⟨S64, .f32⟩ : BufTy).Contents (Elt F)),
    unary main_v218 main_v219 (broadcastInDim S1x64 ![1] bcast_S64_S1x64_1 : (⟨S64, .f32⟩ : BufTy).Contents (Elt F) → (⟨S1x64, .f32⟩ : BufTy).Contents (Elt F)),
    unary main_v219 main_v220 (broadcastInDim S100000x64 ![0, 1] bcast_S1x64_S100000x64_0_1 : (⟨S1x64, .f32⟩ : BufTy).Contents (Elt F) → (⟨S100000x64, .f32⟩ : BufTy).Contents (Elt F)),
    binary main_v215 main_v220 main_v221 (mulf : (⟨S100000x64, .f32⟩ : BufTy).Contents (Elt F) → (⟨S100000x64, .f32⟩ : BufTy).Contents (Elt F) → (⟨S100000x64, .f32⟩ : BufTy).Contents (Elt F)),
    unary main_v206 main_v222 (broadcastInDim S1x64 ![1] bcast_S64_S1x64_1 : (⟨S64, .f32⟩ : BufTy).Contents (Elt F) → (⟨S1x64, .f32⟩ : BufTy).Contents (Elt F)),
    unary main_v222 main_v223 (broadcastInDim S100000x64 ![0, 1] bcast_S1x64_S100000x64_0_1 : (⟨S1x64, .f32⟩ : BufTy).Contents (Elt F) → (⟨S100000x64, .f32⟩ : BufTy).Contents (Elt F)),
    binary main_v221 main_v223 main_v224 (mulf : (⟨S100000x64, .f32⟩ : BufTy).Contents (Elt F) → (⟨S100000x64, .f32⟩ : BufTy).Contents (Elt F) → (⟨S100000x64, .f32⟩ : BufTy).Contents (Elt F)),
    unary main_v208 main_v225 (broadcastInDim S1x64 ![1] bcast_S64_S1x64_1 : (⟨S64, .f32⟩ : BufTy).Contents (Elt F) → (⟨S1x64, .f32⟩ : BufTy).Contents (Elt F)),
    unary main_v225 main_v226 (broadcastInDim S100000x64 ![0, 1] bcast_S1x64_S100000x64_0_1 : (⟨S1x64, .f32⟩ : BufTy).Contents (Elt F) → (⟨S100000x64, .f32⟩ : BufTy).Contents (Elt F)),
    binary main_v224 main_v226 main_v227 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v227) (TRef.of (T := ⟨S100000x64, .f32⟩) main_call5_v0) (TRef.of (T := ⟨S100000x64, .f32⟩) main_v228) maximumf ]

set_option maxHeartbeats 16000000 in
set_option maxRecDepth 8192 in
/-- Layer segment C: from contents holding the previous features, the node vectors and the parameter stacks, the
    segment leaves the next features. -/
theorem C_v228 (x0 : (⟨S100000x64, .f32⟩ : BufTy).Contents (Elt F)) (x1 : (⟨S2x1600000, .i32⟩ : BufTy).Contents (Elt F)) (x3 : (⟨S3x64x64, .f32⟩ : BufTy).Contents (Elt F)) (x4 : (⟨S3x64, .f32⟩ : BufTy).Contents (Elt F)) (x5 : (⟨S3x64, .f32⟩ : BufTy).Contents (Elt F)) (x6 : (⟨S3x64, .f32⟩ : BufTy).Contents (Elt F)) (x7 : (⟨S3x64, .f32⟩ : BufTy).Contents (Elt F)) (x8 : (⟨S3x64, .f32⟩ : BufTy).Contents (Elt F)) (x9 : (⟨S3x64x64, .f32⟩ : BufTy).Contents (Elt F)) (x10 : (⟨S3x64, .f32⟩ : BufTy).Contents (Elt F)) (x11 : (⟨S3x64, .f32⟩ : BufTy).Contents (Elt F)) (x12 : (⟨S3x64, .f32⟩ : BufTy).Contents (Elt F)) (x13 : (⟨S3x64, .f32⟩ : BufTy).Contents (Elt F)) (x14 : (⟨S3x64, .f32⟩ : BufTy).Contents (Elt F)) (WA : Valuation τ sig (Elt F))
    (h153 : WA (Proc.devRef .tc main_v153) = val_main_v153 (F := F) x0 x1 x3 x4 x5 x6 x7 x8 x9 x10 x11 x12 x13 x14) (h1 : WA (Proc.devRef .tc main_v1) = val_main_v1 (F := F) x1) (h3 : WA (Proc.devRef .tc main_v3) = val_main_v3 (F := F) x1)
    (a3 : WA (Proc.devRef .tc main_arg3) = x3) (a4 : WA (Proc.devRef .tc main_arg4) = x4) (a5 : WA (Proc.devRef .tc main_arg5) = x5) (a6 : WA (Proc.devRef .tc main_arg6) = x6) (a7 : WA (Proc.devRef .tc main_arg7) = x7) (a8 : WA (Proc.devRef .tc main_arg8) = x8) (a9 : WA (Proc.devRef .tc main_arg9) = x9) (a10 : WA (Proc.devRef .tc main_arg10) = x10) (a11 : WA (Proc.devRef .tc main_arg11) = x11) (a12 : WA (Proc.devRef .tc main_arg12) = x12) (a13 : WA (Proc.devRef .tc main_arg13) = x13) (a14 : WA (Proc.devRef .tc main_arg14) = x14) :
    after (opsC (F := F)) WA (Proc.devRef .tc main_v228) = val_main_v228 (F := F) x0 x1 x3 x4 x5 x6 x7 x8 x9 x10 x11 x12 x13 x14 := by
  after_results_simp
  simp only [h153, h1, h3, a3, a4, a5, a6, a7, a8, a9, a10, a11, a12, a13, a14]
  rfl

theorem kC_arg2 (W : Valuation τ sig (Elt F)) : after (opsC (F := F)) W (Proc.devRef .tc main_arg2) = W (Proc.devRef .tc main_arg2) := by
  after_results_simp <;> rfl

theorem kC_arg15 (W : Valuation τ sig (Elt F)) : after (opsC (F := F)) W (Proc.devRef .tc main_arg15) = W (Proc.devRef .tc main_arg15) := by
  after_results_simp <;> rfl

theorem kC_arg16 (W : Valuation τ sig (Elt F)) : after (opsC (F := F)) W (Proc.devRef .tc main_arg16) = W (Proc.devRef .tc main_arg16) := by
  after_results_simp <;> rfl

end Cert.ReferenceIdeal.ValueP

end
-- ==== Proof.RefSegD.lean ====
/-
  The reference's last 8 host operations, read back: the per-graph sums of the third layer's features and the read-out.
-/
import proofs.«181532_j16295105921239_1_alg».proof.Proof.Gen.ReferenceIdeal
import proofs.«181532_j16295105921239_1_alg».proof.Proof.RefReadP
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsD : List (HloOp τ sig (Elt F)) :=
  [ nullary main_cst_13 (constant S_ .f32 0x00000000#32),
    unary main_cst_13 main_v229 (broadcastInDim S512x64 ![] bcast_S_S512x64 : (⟨S_, .f32⟩ : BufTy).Contents (Elt F) → (⟨S512x64, .f32⟩ : BufTy).Contents (Elt F)),
    unary main_arg2 main_v230 (broadcastInDim S100000x1 ![0] bcast_S100000_S100000x1_0 : (⟨S100000, .i32⟩ : BufTy).Contents (Elt F) → (⟨S100000x1, .i32⟩ : BufTy).Contents (Elt F)),
    ternary main_v229 main_v230 main_v228 main_v231 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    binary main_v231 main_arg15 main_v232 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)),
    unary main_arg16 main_v233 (broadcastInDim S1x128 ![1] bcast_S128_S1x128_1 : (⟨S128, .f32⟩ : BufTy).Contents (Elt F) → (⟨S1x128, .f32⟩ : BufTy).Contents (Elt F)),
    unary main_v233 main_v234 (broadcastInDim S512x128 ![0, 1] bcast_S1x128_S512x128_0_1 : (⟨S1x128, .f32⟩ : BufTy).Contents (Elt F) → (⟨S512x128, .f32⟩ : BufTy).Contents (Elt F)),
    binary main_v232 main_v234 main_v235 (addf : (⟨S512x128, .f32⟩ : BufTy).Contents (Elt F) → (⟨S512x128, .f32⟩ : BufTy).Contents (Elt F) → (⟨S512x128, .f32⟩ : BufTy).Contents (Elt F)) ]

set_option maxHeartbeats 16000000 in
set_option maxRecDepth 8192 in
theorem D_v235 (x0 : (⟨S100000x64, .f32⟩ : BufTy).Contents (Elt F)) (x1 : (⟨S2x1600000, .i32⟩ : BufTy).Contents (Elt F)) (x2 : (⟨S100000, .i32⟩ : BufTy).Contents (Elt F)) (x3 : (⟨S3x64x64, .f32⟩ : BufTy).Contents (Elt F)) (x4 : (⟨S3x64, .f32⟩ : BufTy).Contents (Elt F)) (x5 : (⟨S3x64, .f32⟩ : BufTy).Contents (Elt F)) (x6 : (⟨S3x64, .f32⟩ : BufTy).Contents (Elt F)) (x7 : (⟨S3x64, .f32⟩ : BufTy).Contents (Elt F)) (x8 : (⟨S3x64, .f32⟩ : BufTy).Contents (Elt F)) (x9 : (⟨S3x64x64, .f32⟩ : BufTy).Contents (Elt F)) (x10 : (⟨S3x64, .f32⟩ : BufTy).Contents (Elt F)) (x11 : (⟨S3x64, .f32⟩ : BufTy).Contents (Elt F)) (x12 : (⟨S3x64, .f32⟩ : BufTy).Contents (Elt F)) (x13 : (⟨S3x64, .f32⟩ : BufTy).Contents (Elt F)) (x14 : (⟨S3x64, .f32⟩ : BufTy).Contents (Elt F)) (x15 : (⟨S64x128, .f32⟩ : BufTy).Contents (Elt F)) (x16 : (⟨S128, .f32⟩ : BufTy).Contents (Elt F)) (WA : Valuation τ sig (Elt F))
    (h228 : WA (Proc.devRef .tc main_v228) = val_main_v228 (F := F) x0 x1 x3 x4 x5 x6 x7 x8 x9 x10 x11 x12 x13 x14) (a2 : WA (Proc.devRef .tc main_arg2) = x2)
    (a15 : WA (Proc.devRef .tc main_arg15) = x15) (a16 : WA (Proc.devRef .tc main_arg16) = x16) :
    after (opsD (F := F)) WA (Proc.devRef .tc main_v235) = val_main_v235 (F := F) x0 x1 x2 x3 x4 x5 x6 x7 x8 x9 x10 x11 x12 x13 x14 x15 x16 := by
  after_results_simp
  simp only [h228, a2, a15, a16]
  rfl

end Cert.ReferenceIdeal.ValueP

end
-- ==== Proof.RefRunP.lean ====
/-
  The reference program's run, read back.

  @main is a straight line of 264 host operations. Run from any memory, every weakly fair execution terminates with each
  buffer at the fold of the operations over the launch contents. The fold is cut in four segments — layer 0 (88
  operations), layer 1 (84), layer 2 (84), the per-graph sums and the read-out (8) — and each segment's result buffer is
  read from the contents the segment starts from: given the previous features, the source and target node vectors and
  the parameter stacks there, the segment leaves the next stage of the arguments. A buffer a segment does not write
  keeps its contents through it. Chained, the result buffer ends at the last stage, `val_main_v235`, of the arguments,
  and no operation writes an argument.
-/
import proofs.«181532_j16295105921239_1_alg».proof.Proof.RefOps
import proofs.«181532_j16295105921239_1_alg».proof.Proof.RefSegA
import proofs.«181532_j16295105921239_1_alg».proof.Proof.RefSegB
import proofs.«181532_j16295105921239_1_alg».proof.Proof.RefSegC
import proofs.«181532_j16295105921239_1_alg».proof.Proof.RefSegD

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
theorem ops_split : (ops : List (HloOp τ sig (Elt F))) = opsA ++ (opsB ++ (opsC ++ opsD)) := rfl

/-! ## The result, and the run -/

/-- The result buffer after @main's operations: the last stage of the arguments. -/
theorem result_eq (W : Valuation τ sig (Elt F)) :
    after (ops (F := F)) W (Proc.devRef .tc main_v235)
      = val_main_v235 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  rw [ops_split, after_append, after_append, after_append]
  exact D_v235 _ _ _ _ _ _ _ _ _ _ _ _ _ _ _ _ _ (after opsC (after opsB (after opsA W)))
    (C_v228 _ _ _ _ _ _ _ _ _ _ _ _ _ _ (after opsB (after opsA W))
      (B_v153 _ _ _ _ _ _ _ _ _ _ _ _ _ _ (after opsA W) (A_v78 W) (A_v1 W) (A_v3 W)
        (kA_arg3 W) (kA_arg4 W) (kA_arg5 W) (kA_arg6 W) (kA_arg7 W) (kA_arg8 W) (kA_arg9 W) (kA_arg10 W) (kA_arg11 W) (kA_arg12 W) (kA_arg13 W) (kA_arg14 W))
      ((kB_v1 _).trans (A_v1 W)) ((kB_v3 _).trans (A_v3 W))
      ((kB_arg3 _).trans (kA_arg3 W)) ((kB_arg4 _).trans (kA_arg4 W)) ((kB_arg5 _).trans (kA_arg5 W)) ((kB_arg6 _).trans (kA_arg6 W)) ((kB_arg7 _).trans (kA_arg7 W)) ((kB_arg8 _).trans (kA_arg8 W)) ((kB_arg9 _).trans (kA_arg9 W)) ((kB_arg10 _).trans (kA_arg10 W)) ((kB_arg11 _).trans (kA_arg11 W)) ((kB_arg12 _).trans (kA_arg12 W)) ((kB_arg13 _).trans (kA_arg13 W)) ((kB_arg14 _).trans (kA_arg14 W)))
    ((kC_arg2 _).trans ((kB_arg2 _).trans (kA_arg2 W)))
    ((kC_arg15 _).trans ((kB_arg15 _).trans (kA_arg15 W)))
    ((kC_arg16 _).trans ((kB_arg16 _).trans (kA_arg16 W)))

set_option maxRecDepth 8192 in
set_option maxHeartbeats 105600000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v235) = val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v235).trans (result_eq _),
      (h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _),
      (h c main_arg6).trans (keep_arg6 _),
      (h c main_arg7).trans (keep_arg7 _),
      (h c main_arg8).trans (keep_arg8 _),
      (h c main_arg9).trans (keep_arg9 _),
      (h c main_arg10).trans (keep_arg10 _),
      (h c main_arg11).trans (keep_arg11 _),
      (h c main_arg12).trans (keep_arg12 _),
      (h c main_arg13).trans (keep_arg13 _),
      (h c main_arg14).trans (keep_arg14 _),
      (h c main_arg15).trans (keep_arg15 _),
      (h c main_arg16).trans (keep_arg16 _)⟩)
    (run_seq scopedRefs_eq scopedSems_eq defs main (fun _ => ops) main_eq (fun _ => ops_sub) m ρ)

end Cert.ReferenceIdeal.ValueP

end
-- ==== Proof.KernelRun.lean ====
/-
  The idealized kernel's run with its result named.

  The program is four kernel regions among stretches of host operations. The generated frame folds the buffer
  contents through these eight segments (the valuations `W0 … W8`) and states that the arguments end as launched;
  the same launch theorem, asked in addition for the result buffer, says that it ends at `W8`'s contents there.
-/
import proofs.«181532_j16295105921239_1_alg».proof.Proof.Gen.KernelIdeal.Frame

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last fold's contents and
    the argument arrays as launched. -/
theorem run : θ_run defs (onTc (τ := τ) (main (F := F))) ⟨m, fun _ => 0, ρ⟩ (fun r => ∀ c : Dev nD,
      r.2.mem ((c.tc : Thread nD τ).loc main_v143) = W8 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v143 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Net

end
-- ==== Proof.Spec.lean ====
/-
  The network both programs compute, written once over coordinates.

  A graph-isomorphism layer takes the node features `x` (100000 nodes, 64 channels) and the neighbour sums
  `agg`, and applies twice the map "dense layer, batch normalisation with running statistics, rectifier":
  for a row `h` of 64 numbers, a 64 × 64 matrix `W` and five parameter rows,
      half h W b rm rv g bt q = max ((((Σ_k h k · W k q) + b q − rm q) · rsqrt (rv q + ε)) · g q + bt q) 0 ,
  with ε the single-precision word nearest 1e-5, kept as its bit pattern. The read-out head is one more
  dense layer without normalisation. Three layers are chained; between them the neighbour sums are recomputed
  from the previous layer's output by a gather along the source nodes and an accumulating scatter along the
  target nodes, and after the last one the rows are summed per graph. Those two index-dependent maps are the
  same host operations in both programs, so the composition below takes them as parameters.
-/
import Idealize.ShloMosaic.PureOps.Ideal
import Idealize.ShloMosaic.Lib.ValueIdx

noncomputable section

namespace Cert.Gin

open Idealize.ShloMosaic Idealize.ShloMosaic.ValueIdx

/-- Dense layer, batch normalisation by running mean `rm` and variance `rv`, scale `g`, shift `bt`, rectifier:
    entry `q` of the image of the row `h`. -/
def half (h : Fin 64 → EReal) (W : Fin 64 → Fin 64 → EReal) (b rm rv g bt : Fin 64 → EReal) (q : Fin 64) : EReal :=
  max (((((∑ k : Fin 64, h k * W k q) + b q) - rm q) * Ideal.rsqrt (rv q + Ideal.ofBits .f32 0x3727C5AC#32)) * g q + bt q)
    (Ideal.ofBits .f32 0x00000000#32)

/-- One layer at node `n`, channel `q`: the two halves applied to the row `x n + agg n`. -/
def layerAt (x agg : Fin 100000 → Fin 64 → EReal)
    (W1 : Fin 64 → Fin 64 → EReal) (b1 rm1 rv1 g1 bt1 : Fin 64 → EReal)
    (W2 : Fin 64 → Fin 64 → EReal) (b2 rm2 rv2 g2 bt2 : Fin 64 → EReal) (n : Fin 100000) (q : Fin 64) : EReal :=
  half (fun k => half (fun k' => x n k' + agg n k') W1 b1 rm1 rv1 g1 bt1 k) W2 b2 rm2 rv2 g2 bt2 q

/-- The read-out head at graph `r`, output channel `j`. -/
def headAt (P : Fin 512 → Fin 64 → EReal) (W : Fin 64 → Fin 128 → EReal) (b : Fin 128 → EReal) (r : Fin 512) (j : Fin 128) : EReal :=
  (∑ k : Fin 64, P r k * W k j) + b j

abbrev Nodes : Shape := ⟨2, ![100000, 64]⟩
abbrev Mats : Shape := ⟨3, ![3, 64, 64]⟩
abbrev Rows : Shape := ⟨2, ![3, 64]⟩

/-- The stacked parameters of the three layers: two weight stacks and ten stacks of rows. -/
structure Params where
  W1 : Mats.Idx → EReal
  b1 : Rows.Idx → EReal
  g1 : Rows.Idx → EReal
  bt1 : Rows.Idx → EReal
  rm1 : Rows.Idx → EReal
  rv1 : Rows.Idx → EReal
  W2 : Mats.Idx → EReal
  b2 : Rows.Idx → EReal
  g2 : Rows.Idx → EReal
  bt2 : Rows.Idx → EReal
  rm2 : Rows.Idx → EReal
  rv2 : Rows.Idx → EReal

/-- Layer `l` as a map of whole arrays: its parameters are slice `l` of each stack. -/
def layer (P : Params) (l : Fin 3) (x agg : Nodes.Idx → EReal) : Nodes.Idx → EReal := fun i =>
  layerAt (fun n k => x (ix2 n k)) (fun n k => agg (ix2 n k))
    (fun a b => P.W1 (ix3 l a b)) (fun k => P.b1 (ix2 l k)) (fun k => P.rm1 (ix2 l k)) (fun k => P.rv1 (ix2 l k))
    (fun k => P.g1 (ix2 l k)) (fun k => P.bt1 (ix2 l k))
    (fun a b => P.W2 (ix3 l a b)) (fun k => P.b2 (ix2 l k)) (fun k => P.rm2 (ix2 l k)) (fun k => P.rv2 (ix2 l k))
    (fun k => P.g2 (ix2 l k)) (fun k => P.bt2 (ix2 l k)) (i 0) (i 1)

/-- The head as a map of whole arrays. -/
def head (pooled : (⟨2, ![512, 64]⟩ : Shape).Idx → EReal) (W : (⟨2, ![64, 128]⟩ : Shape).Idx → EReal)
    (b : (⟨1, ![128]⟩ : Shape).Idx → EReal) : (⟨2, ![512, 128]⟩ : Shape).Idx → EReal := fun i =>
  headAt (fun r k => pooled (ix2 r k)) (fun k j => W (ix2 k j)) (fun j => b (ix1 j)) (i 0) (i 1)

/-- The whole network: `agg` recomputes the neighbour sums from the current features, `pool` sums the rows per graph. -/
def net (agg : (Nodes.Idx → EReal) → (Nodes.Idx → EReal)) (pool : (Nodes.Idx → EReal) → ((⟨2, ![512, 64]⟩ : Shape).Idx → EReal))
    (P : Params) (W : (⟨2, ![64, 128]⟩ : Shape).Idx → EReal) (b : (⟨1, ![128]⟩ : Shape).Idx → EReal)
    (x : Nodes.Idx → EReal) : (⟨2, ![512, 128]⟩ : Shape).Idx → EReal :=
  let x1 := layer P 0 x (agg x)
  let x2 := layer P 1 x1 (agg x1)
  let x3 := layer P 2 x2 (agg x2)
  head (pool x3) W b

theorem layer_apply (P : Params) (l : Fin 3) (x agg : Nodes.Idx → EReal) (n : Fin 100000) (q : Fin 64) :
    layer P l x agg (ix2 n q) = layerAt (fun n k => x (ix2 n k)) (fun n k => agg (ix2 n k))
    (fun a b => P.W1 (ix3 l a b)) (fun k => P.b1 (ix2 l k)) (fun k => P.rm1 (ix2 l k)) (fun k => P.rv1 (ix2 l k))
    (fun k => P.g1 (ix2 l k)) (fun k => P.bt1 (ix2 l k))
    (fun a b => P.W2 (ix3 l a b)) (fun k => P.b2 (ix2 l k)) (fun k => P.rm2 (ix2 l k)) (fun k => P.rv2 (ix2 l k))
    (fun k => P.g2 (ix2 l k)) (fun k => P.bt2 (ix2 l k)) n q := rfl

theorem head_apply (pooled : (⟨2, ![512, 64]⟩ : Shape).Idx → EReal) (W : (⟨2, ![64, 128]⟩ : Shape).Idx → EReal)
    (b : (⟨1, ![128]⟩ : Shape).Idx → EReal) (r : Fin 512) (j : Fin 128) :
    head pooled W b (ix2 r j) = headAt (fun r k => pooled (ix2 r k)) (fun k j => W (ix2 k j)) (fun j => b (ix1 j)) r j := rfl

end Cert.Gin

end
-- ==== Proof.LayerOf.lean ====
/-
  One layer with its parameters given as separate arrays: two 64 × 64 matrices and ten one-row matrices
  (the form in which they reach a kernel's windows), as a map of whole arrays.
-/
import proofs.«181532_j16295105921239_1_alg».proof.Proof.Spec

noncomputable section

namespace Cert.Gin

open Idealize.ShloMosaic Idealize.ShloMosaic.ValueIdx

abbrev Mat : Shape := ⟨2, ![64, 64]⟩
abbrev Row : Shape := ⟨2, ![1, 64]⟩

/-- The layer of `layerAt` with matrix `w1`, rows `b1 g1 bt1 rm1 rv1`, matrix `w2`, rows `b2 g2 bt2 rm2 rv2`. -/
def layerOf (x agg : Nodes.Idx → EReal) (w1 : Mat.Idx → EReal) (b1 g1 bt1 rm1 rv1 : Row.Idx → EReal)
    (w2 : Mat.Idx → EReal) (b2 g2 bt2 rm2 rv2 : Row.Idx → EReal) : Nodes.Idx → EReal := fun i =>
  layerAt (fun n k => x (ix2 n k)) (fun n k => agg (ix2 n k))
    (fun a b => w1 (ix2 a b)) (fun k => b1 (ix2 (0 : Fin 1) k)) (fun k => rm1 (ix2 (0 : Fin 1) k)) (fun k => rv1 (ix2 (0 : Fin 1) k))
    (fun k => g1 (ix2 (0 : Fin 1) k)) (fun k => bt1 (ix2 (0 : Fin 1) k))
    (fun a b => w2 (ix2 a b)) (fun k => b2 (ix2 (0 : Fin 1) k)) (fun k => rm2 (ix2 (0 : Fin 1) k)) (fun k => rv2 (ix2 (0 : Fin 1) k))
    (fun k => g2 (ix2 (0 : Fin 1) k)) (fun k => bt2 (ix2 (0 : Fin 1) k)) (i 0) (i 1)

theorem layerOf_apply (x agg : Nodes.Idx → EReal) (w1 : Mat.Idx → EReal) (b1 g1 bt1 rm1 rv1 : Row.Idx → EReal)
    (w2 : Mat.Idx → EReal) (b2 g2 bt2 rm2 rv2 : Row.Idx → EReal) (n : Fin 100000) (q : Fin 64) :
    layerOf x agg w1 b1 g1 bt1 rm1 rv1 w2 b2 g2 bt2 rm2 rv2 (ix2 n q)
      = half (fun k => half (fun k' => x (ix2 n k') + agg (ix2 n k')) (fun a b => w1 (ix2 a b)) (fun k => b1 (ix2 (0 : Fin 1) k))
            (fun k => rm1 (ix2 (0 : Fin 1) k)) (fun k => rv1 (ix2 (0 : Fin 1) k)) (fun k => g1 (ix2 (0 : Fin 1) k)) (fun k => bt1 (ix2 (0 : Fin 1) k)) k)
          (fun a b => w2 (ix2 a b)) (fun k => b2 (ix2 (0 : Fin 1) k)) (fun k => rm2 (ix2 (0 : Fin 1) k)) (fun k => rv2 (ix2 (0 : Fin 1) k))
          (fun k => g2 (ix2 (0 : Fin 1) k)) (fun k => bt2 (ix2 (0 : Fin 1) k)) q := rfl

/-- When the matrices and rows are member `l` of the stacks, `layerOf` is layer `l`. -/
theorem layerOf_eq_layer (P : Params) (l : Fin 3) (x agg : Nodes.Idx → EReal) (w1 : Mat.Idx → EReal) (b1 g1 bt1 rm1 rv1 : Row.Idx → EReal)
    (w2 : Mat.Idx → EReal) (b2 g2 bt2 rm2 rv2 : Row.Idx → EReal)
    (hw1 : ∀ a b, w1 (ix2 a b) = P.W1 (ix3 l a b)) (hb1 : ∀ k, b1 (ix2 (0 : Fin 1) k) = P.b1 (ix2 l k))
    (hg1 : ∀ k, g1 (ix2 (0 : Fin 1) k) = P.g1 (ix2 l k)) (hbt1 : ∀ k, bt1 (ix2 (0 : Fin 1) k) = P.bt1 (ix2 l k))
    (hrm1 : ∀ k, rm1 (ix2 (0 : Fin 1) k) = P.rm1 (ix2 l k)) (hrv1 : ∀ k, rv1 (ix2 (0 : Fin 1) k) = P.rv1 (ix2 l k))
    (hw2 : ∀ a b, w2 (ix2 a b) = P.W2 (ix3 l a b)) (hb2 : ∀ k, b2 (ix2 (0 : Fin 1) k) = P.b2 (ix2 l k))
    (hg2 : ∀ k, g2 (ix2 (0 : Fin 1) k) = P.g2 (ix2 l k)) (hbt2 : ∀ k, bt2 (ix2 (0 : Fin 1) k) = P.bt2 (ix2 l k))
    (hrm2 : ∀ k, rm2 (ix2 (0 : Fin 1) k) = P.rm2 (ix2 l k)) (hrv2 : ∀ k, rv2 (ix2 (0 : Fin 1) k) = P.rv2 (ix2 l k)) :
    layerOf x agg w1 b1 g1 bt1 rm1 rv1 w2 b2 g2 bt2 rm2 rv2 = layer P l x agg := by
  funext i
  unfold layerOf layer
  simp only [hw1, hb1, hg1, hbt1, hrm1, hrv1, hw2, hb2, hg2, hbt2, hrm2, hrv2]

end Cert.Gin

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.Region0.lean ====
/-
  Layer kernel 0 as a map of whole arrays.

  The grid has 50 points; point t stages rows 2000·t … 2000·t + 1999 of the features and of the neighbour sums,
  the whole of every parameter array, and writes back rows 2000·t … 2000·t + 1999 of the output. The body's block
  at (p, q) depends on row p of its two row blocks only, so every written block is the restriction of one function of
  the arrays as the region finds them: the layer. The 50 blocks tile the 100000 rows, so the output array ends
  holding that function.
-/
import proofs.«181532_j16295105921239_1_alg».proof.Proof.Gen.KernelIdeal.Frame
import proofs.«181532_j16295105921239_1_alg».proof.Proof.LayerOf
import proofs.«181532_j16295105921239_1_alg».proof.Proof.LibPlainDot
import Idealize.ShloMosaic.Lib.ValueLayout
import Idealize.ShloMosaic.Lib.Pipeline.Value

set_option maxRecDepth 16384

noncomputable section

namespace Cert.KernelIdeal.Region0

open Idealize.ShloMosaic Idealize.ShloMosaic.TcCoe Idealize.ShloMosaic.ValueIdx Idealize.ShloMosaic.Pipeline Idealize.SL.Sem Cert.KernelIdeal Cert.KernelIdeal.Gen

/-! ## The body on one block, at an index -/

theorem rsqrt_apply {s : Shape} {φ : FTy} (x : FVec Ideal s φ) (i : s.Idx) : rsqrt x i = Ideal.rsqrt (x i) := rfl

/-- The second half-layer's payload at row `p`, channel `q`. -/
theorem second_apply (h : FVec Ideal S2000x64 .bf16) (w : FVec Ideal S64x64 .bf16) (b rm rv g bt : Vec Ideal S1x64 .f32)
    (p : Fin 2000) (q : Fin 64) :
    k0_pay1 (F := Ideal) h w b rm rv g bt (ix2 p q)
      = Cert.Gin.half (fun k => h (ix2 p k)) (fun a c => w (ix2 a c)) (fun k => b (ix2 (0 : Fin 1) k)) (fun k => rm (ix2 (0 : Fin 1) k))
          (fun k => rv (ix2 (0 : Fin 1) k)) (fun k => g (ix2 (0 : Fin 1) k)) (fun k => bt (ix2 (0 : Fin 1) k)) q := by
  unfold k0_pay1 Cert.Gin.half
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  simp only [shapeCast_self]
  rw [show dot_S2000x64_S64x64_S2000x64_1_0_0_1_n_n = DotDims.plain 2000 64 64 from rfl, PlainDot.matmul_zero_apply]
  rfl

/-- The first half-layer's payload (of the sum of the two row blocks) at row `p`, channel `q`. -/
theorem first_apply (x a : Vec Ideal S2000x64 .f32) (w : Vec Ideal S64x64 .f32) (b rm rv g bt : Vec Ideal S1x64 .f32)
    (p : Fin 2000) (q : Fin 64) :
    k0_pay2 (F := Ideal) x a w b rm rv g bt (ix2 p q)
      = Cert.Gin.half (fun k => x (ix2 p k) + a (ix2 p k)) (fun c d => w (ix2 c d)) (fun k => b (ix2 (0 : Fin 1) k)) (fun k => rm (ix2 (0 : Fin 1) k))
          (fun k => rv (ix2 (0 : Fin 1) k)) (fun k => g (ix2 (0 : Fin 1) k)) (fun k => bt (ix2 (0 : Fin 1) k)) q := by
  unfold k0_pay2 Cert.Gin.half
  rw [truncf_apply, maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  simp only [shapeCast_self]
  rw [show dot_S2000x64_S64x64_S2000x64_1_0_0_1_n_n = DotDims.plain 2000 64 64 from rfl, PlainDot.matmul_zero_apply]
  rfl

/-- The second weight matrix passes through a cast to its own shape and a change of format: unchanged. -/
theorem third_apply (w : Vec Ideal S64x64 .f32) (i : S64x64.Idx) : k0_pay3 (F := Ideal) w i = w i := by
  (unfold k0_pay3; simp only [shapeCast_self]) <;> rfl

theorem hz2 : (![0, 0] : Fin 2 → Nat) = fun _ => 0 := funext fun a => by fin_cases a <;> rfl

/-- What the body leaves in the output block, at row `p`, channel `q`: the two half-layers of row `p`. -/
theorem out_apply (x0 : Vec Ideal S2000x64 .f32) (x1 : Vec Ideal S2000x64 .f32) (x2 : Vec Ideal S64x64 .f32) (x3 : Vec Ideal S1x64 .f32) (x4 : Vec Ideal S1x64 .f32) (x5 : Vec Ideal S1x64 .f32) (x6 : Vec Ideal S1x64 .f32) (x7 : Vec Ideal S1x64 .f32) (x8 : Vec Ideal S64x64 .f32) (x9 : Vec Ideal S1x64 .f32) (x10 : Vec Ideal S1x64 .f32) (x11 : Vec Ideal S1x64 .f32) (x12 : Vec Ideal S1x64 .f32) (x13 : Vec Ideal S1x64 .f32)
    (p : Fin 2000) (q : Fin 64) :
    out0_14 (F := Ideal) x0 x1 x2 x3 x4 x5 x6 x7 x8 x9 x10 x11 x12 x13 (ix2 p q)
      = Cert.Gin.half (fun k => Cert.Gin.half (fun k' => x0 (ix2 p k') + x1 (ix2 p k')) (fun a b => x2 (ix2 a b)) (fun k => x3 (ix2 (0 : Fin 1) k))
            (fun k => x6 (ix2 (0 : Fin 1) k)) (fun k => x7 (ix2 (0 : Fin 1) k)) (fun k => x4 (ix2 (0 : Fin 1) k)) (fun k => x5 (ix2 (0 : Fin 1) k)) k)
          (fun a b => x8 (ix2 a b)) (fun k => x9 (ix2 (0 : Fin 1) k)) (fun k => x12 (ix2 (0 : Fin 1) k)) (fun k => x13 (ix2 (0 : Fin 1) k))
          (fun k => x10 (ix2 (0 : Fin 1) k)) (fun k => x11 (ix2 (0 : Fin 1) k)) q := by
  unfold out0_14
  rw [View.canon_unit_zero hz2]
  simp only [View.ld_unit_zero (S := S2000x64) hz2, View.ld_unit_zero (S := S64x64) hz2, View.ld_unit_zero (S := S1x64) hz2]
  rw [second_apply]
  simp only [first_apply, third_apply]

/-! ## The blocks of the arrays -/

variable (V : (c : Dev nD) → (b : Ref sig .tc) → Buf (Elt Ideal) ((c : Thread nD τ).loc b))

theorem hN : cfg0.N = 50 := rfl

/-- The printed index maps over the grid: the three row windows move with the point, every parameter window stays. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_14.index t (0 : Fin 2) = t.val
    ∧ win0_14.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

theorem emb_0 (t : Fin cfg0.N) (p : Fin 2000) (n : Fin 100000) (hn : n.val = t.val * 2000 + p.val) (k : Fin 64) :
    ((cfg0.win 0).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_0.index t (0 : Fin 2) * 2000 + 1 * p.val = n.val; omega
  | ⟨1, _⟩ => show win0_0.index t (1 : Fin 2) * 64 + 1 * k.val = k.val; omega

theorem emb_1 (t : Fin cfg0.N) (p : Fin 2000) (n : Fin 100000) (hn : n.val = t.val * 2000 + p.val) (k : Fin 64) :
    ((cfg0.win 1).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_1.index t (0 : Fin 2) * 2000 + 1 * p.val = n.val; omega
  | ⟨1, _⟩ => show win0_1.index t (1 : Fin 2) * 64 + 1 * k.val = k.val; omega

theorem emb_14 (t : Fin cfg0.N) (p : Fin 2000) (n : Fin 100000) (hn : n.val = t.val * 2000 + p.val) (k : Fin 64) :
    ((cfg0.win 14).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_14.index t (0 : Fin 2) * 2000 + 1 * p.val = n.val; omega
  | ⟨1, _⟩ => show win0_14.index t (1 : Fin 2) * 64 + 1 * k.val = k.val; omega

theorem emb_2 (t : Fin cfg0.N) (a b : Fin 64) : ((cfg0.win 2).blk t).view.emb (ix2 a b) = ix2 a b := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_2.index t (0 : Fin 2) * 64 + 1 * a.val = a.val; omega
  | ⟨1, _⟩ => show win0_2.index t (1 : Fin 2) * 64 + 1 * b.val = b.val; omega

theorem emb_3 (t : Fin cfg0.N) (u : Fin 1) (k : Fin 64) : ((cfg0.win 3).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_3.index t (0 : Fin 2) * 1 + 1 * u.val = u.val; omega
  | ⟨1, _⟩ => show win0_3.index t (1 : Fin 2) * 64 + 1 * k.val = k.val; omega

theorem emb_4 (t : Fin cfg0.N) (u : Fin 1) (k : Fin 64) : ((cfg0.win 4).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_4.index t (0 : Fin 2) * 1 + 1 * u.val = u.val; omega
  | ⟨1, _⟩ => show win0_4.index t (1 : Fin 2) * 64 + 1 * k.val = k.val; omega

theorem emb_5 (t : Fin cfg0.N) (u : Fin 1) (k : Fin 64) : ((cfg0.win 5).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_5.index t (0 : Fin 2) * 1 + 1 * u.val = u.val; omega
  | ⟨1, _⟩ => show win0_5.index t (1 : Fin 2) * 64 + 1 * k.val = k.val; omega

theorem emb_6 (t : Fin cfg0.N) (u : Fin 1) (k : Fin 64) : ((cfg0.win 6).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_6.index t (0 : Fin 2) * 1 + 1 * u.val = u.val; omega
  | ⟨1, _⟩ => show win0_6.index t (1 : Fin 2) * 64 + 1 * k.val = k.val; omega

theorem emb_7 (t : Fin cfg0.N) (u : Fin 1) (k : Fin 64) : ((cfg0.win 7).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_7.index t (0 : Fin 2) * 1 + 1 * u.val = u.val; omega
  | ⟨1, _⟩ => show win0_7.index t (1 : Fin 2) * 64 + 1 * k.val = k.val; omega

theorem emb_8 (t : Fin cfg0.N) (a b : Fin 64) : ((cfg0.win 8).blk t).view.emb (ix2 a b) = ix2 a b := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_8.index t (0 : Fin 2) * 64 + 1 * a.val = a.val; omega
  | ⟨1, _⟩ => show win0_8.index t (1 : Fin 2) * 64 + 1 * b.val = b.val; omega

theorem emb_9 (t : Fin cfg0.N) (u : Fin 1) (k : Fin 64) : ((cfg0.win 9).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_9.index t (0 : Fin 2) * 1 + 1 * u.val = u.val; omega
  | ⟨1, _⟩ => show win0_9.index t (1 : Fin 2) * 64 + 1 * k.val = k.val; omega

theorem emb_10 (t : Fin cfg0.N) (u : Fin 1) (k : Fin 64) : ((cfg0.win 10).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_10.index t (0 : Fin 2) * 1 + 1 * u.val = u.val; omega
  | ⟨1, _⟩ => show win0_10.index t (1 : Fin 2) * 64 + 1 * k.val = k.val; omega

theorem emb_11 (t : Fin cfg0.N) (u : Fin 1) (k : Fin 64) : ((cfg0.win 11).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_11.index t (0 : Fin 2) * 1 + 1 * u.val = u.val; omega
  | ⟨1, _⟩ => show win0_11.index t (1 : Fin 2) * 64 + 1 * k.val = k.val; omega

theorem emb_12 (t : Fin cfg0.N) (u : Fin 1) (k : Fin 64) : ((cfg0.win 12).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_12.index t (0 : Fin 2) * 1 + 1 * u.val = u.val; omega
  | ⟨1, _⟩ => show win0_12.index t (1 : Fin 2) * 64 + 1 * k.val = k.val; omega

theorem emb_13 (t : Fin cfg0.N) (u : Fin 1) (k : Fin 64) : ((cfg0.win 13).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win0_13.index t (0 : Fin 2) * 1 + 1 * u.val = u.val; omega
  | ⟨1, _⟩ => show win0_13.index t (1 : Fin 2) * 64 + 1 * k.val = k.val; omega

/-! ## The staged blocks, read at coordinates -/

theorem blk_0 (c : Dev nD) (t : Fin cfg0.N) (p : Fin 2000) (n : Fin 100000) (hn : n.val = t.val * 2000 + p.val) (k : Fin 64) :
    iblk0 V c 0 t (ix2 p k) = V c main_arg0 (ix2 n k) := by
  show V c main_arg0 (((cfg0.win 0).blk t).view.emb (ix2 p k)) = _
  rw [emb_0 t p n hn k]

theorem blk_1 (c : Dev nD) (t : Fin cfg0.N) (p : Fin 2000) (n : Fin 100000) (hn : n.val = t.val * 2000 + p.val) (k : Fin 64) :
    iblk0 V c 1 t (ix2 p k) = V c main_v13 (ix2 n k) := by
  show V c main_v13 (((cfg0.win 1).blk t).view.emb (ix2 p k)) = _
  rw [emb_1 t p n hn k]

theorem blk_2 (c : Dev nD) (t : Fin cfg0.N) (a b : Fin 64) : iblk0 V c 2 t (ix2 a b) = V c main_v15 (ix2 a b) := by
  show V c main_v15 (((cfg0.win 2).blk t).view.emb (ix2 a b)) = _
  rw [emb_2 t a b]

theorem blk_3 (c : Dev nD) (t : Fin cfg0.N) (u : Fin 1) (k : Fin 64) : iblk0 V c 3 t (ix2 u k) = V c main_v38 (ix2 u k) := by
  show V c main_v38 (((cfg0.win 3).blk t).view.emb (ix2 u k)) = _
  rw [emb_3 t u k]

theorem blk_4 (c : Dev nD) (t : Fin cfg0.N) (u : Fin 1) (k : Fin 64) : iblk0 V c 4 t (ix2 u k) = V c main_v39 (ix2 u k) := by
  show V c main_v39 (((cfg0.win 4).blk t).view.emb (ix2 u k)) = _
  rw [emb_4 t u k]

theorem blk_5 (c : Dev nD) (t : Fin cfg0.N) (u : Fin 1) (k : Fin 64) : iblk0 V c 5 t (ix2 u k) = V c main_v40 (ix2 u k) := by
  show V c main_v40 (((cfg0.win 5).blk t).view.emb (ix2 u k)) = _
  rw [emb_5 t u k]

theorem blk_6 (c : Dev nD) (t : Fin cfg0.N) (u : Fin 1) (k : Fin 64) : iblk0 V c 6 t (ix2 u k) = V c main_v41 (ix2 u k) := by
  show V c main_v41 (((cfg0.win 6).blk t).view.emb (ix2 u k)) = _
  rw [emb_6 t u k]

theorem blk_7 (c : Dev nD) (t : Fin cfg0.N) (u : Fin 1) (k : Fin 64) : iblk0 V c 7 t (ix2 u k) = V c main_v42 (ix2 u k) := by
  show V c main_v42 (((cfg0.win 7).blk t).view.emb (ix2 u k)) = _
  rw [emb_7 t u k]

theorem blk_8 (c : Dev nD) (t : Fin cfg0.N) (a b : Fin 64) : iblk0 V c 8 t (ix2 a b) = V c main_v27 (ix2 a b) := by
  show V c main_v27 (((cfg0.win 8).blk t).view.emb (ix2 a b)) = _
  rw [emb_8 t a b]

theorem blk_9 (c : Dev nD) (t : Fin cfg0.N) (u : Fin 1) (k : Fin 64) : iblk0 V c 9 t (ix2 u k) = V c main_v43 (ix2 u k) := by
  show V c main_v43 (((cfg0.win 9).blk t).view.emb (ix2 u k)) = _
  rw [emb_9 t u k]

theorem blk_10 (c : Dev nD) (t : Fin cfg0.N) (u : Fin 1) (k : Fin 64) : iblk0 V c 10 t (ix2 u k) = V c main_v44 (ix2 u k) := by
  show V c main_v44 (((cfg0.win 10).blk t).view.emb (ix2 u k)) = _
  rw [emb_10 t u k]

theorem blk_11 (c : Dev nD) (t : Fin cfg0.N) (u : Fin 1) (k : Fin 64) : iblk0 V c 11 t (ix2 u k) = V c main_v45 (ix2 u k) := by
  show V c main_v45 (((cfg0.win 11).blk t).view.emb (ix2 u k)) = _
  rw [emb_11 t u k]

theorem blk_12 (c : Dev nD) (t : Fin cfg0.N) (u : Fin 1) (k : Fin 64) : iblk0 V c 12 t (ix2 u k) = V c main_v46 (ix2 u k) := by
  show V c main_v46 (((cfg0.win 12).blk t).view.emb (ix2 u k)) = _
  rw [emb_12 t u k]

theorem blk_13 (c : Dev nD) (t : Fin cfg0.N) (u : Fin 1) (k : Fin 64) : iblk0 V c 13 t (ix2 u k) = V c main_v47 (ix2 u k) := by
  show V c main_v47 (((cfg0.win 13).blk t).view.emb (ix2 u k)) = _
  rw [emb_13 t u k]

/-- WHAT POINT `t` WRITES BACK is block `t` of the layer of the arrays as the region finds them. -/
theorem flushed_eq (c : Dev nD) (t : Fin cfg0.N) :
    (dat0 (F := Ideal) V c).flushed 14 t = ((cfg0.win 14).blk t).view.read (Elt Ideal)
      (Cert.Gin.layerOf (V c main_arg0) (V c main_v13) (V c main_v15) (V c main_v38) (V c main_v39) (V c main_v40) (V c main_v41) (V c main_v42) (V c main_v27) (V c main_v43) (V c main_v44) (V c main_v45) (V c main_v46) (V c main_v47)) := by
  show (cfg0.win 14).cut (grid0.coords t) ((dat0 V c).after 14 t) = _
  rw [after0_14]
  funext j
  obtain ⟨p, q, rfl⟩ : ∃ (p : Fin 2000) (q : Fin 64), j = ix2 p q := ⟨j 0, j 1, eq_ix2 j⟩
  have ht : t.val < 50 := t.isLt
  have hp : p.val < 2000 := p.isLt
  show out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (ix2 p q)
    = Cert.Gin.layerOf (V c main_arg0) (V c main_v13) (V c main_v15) (V c main_v38) (V c main_v39) (V c main_v40) (V c main_v41) (V c main_v42) (V c main_v27) (V c main_v43) (V c main_v44) (V c main_v45) (V c main_v46) (V c main_v47) (((cfg0.win 14).blk t).view.emb (ix2 p q))
  rw [emb_14 t p ⟨t.val * 2000 + p.val, by omega⟩ rfl q, Cert.Gin.layerOf_apply]
  refine (out_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) p q).trans ?_
  simp only [blk_0 V c t p ⟨t.val * 2000 + p.val, by omega⟩ rfl, blk_1 V c t p ⟨t.val * 2000 + p.val, by omega⟩ rfl,
    blk_2 V c t, blk_3 V c t, blk_4 V c t, blk_5 V c t, blk_6 V c t, blk_7 V c t, blk_8 V c t, blk_9 V c t, blk_10 V c t, blk_11 V c t, blk_12 V c t, blk_13 V c t]

/-- An index of the array is in point `t`'s block iff each coordinate is in the block's range on its axis. -/
theorem mem_blk (t : Fin cfg0.N) (i : S100000x64.Idx) :
    i ∈ ((cfg0.win 14).blk t).view.set ↔ ∀ a : Fin 2, win0_14.index t a * S2000x64.size a ≤ (i a).val ∧ (i a).val < win0_14.index t a * S2000x64.size a + S2000x64.size a := by
  show i ∈ ((View.whole main_v48).slice (win0_14.rect t)).set ↔ _
  rw [View.set_slice_whole, Rect.mem_set_unit]
  exact Iff.rfl

/-- Row `n` lies in the block of point `n / 2000`. -/
theorem cover (i : S100000x64.Idx) : ∃ t : Fin cfg0.N, (cfg0.win 14).flush t = true ∧ i ∈ ((cfg0.win 14).blk t).view.set := by
  have hi0 : (i 0).val < 100000 := (i 0).isLt
  have hi1 : (i 1).val < 64 := (i 1).isLt
  have ht : (i 0).val / 2000 < cfg0.N := by rw [hN]; omega
  have h := idx_facts ⟨(i 0).val / 2000, ht⟩
  obtain ⟨e0, e1, e2, e3, e4, e5, e6, e7, e8, e9, e10, e11, e12, e13, e14, e15, e16, e17, e18, e19, e20, e21, e22, e23, e24, e25, e26, e27, e28, e29⟩ := h
  refine ⟨⟨(i 0).val / 2000, ht⟩, flush0_14 _, ?_⟩
  rw [mem_blk]
  intro a
  match a with
  | ⟨0, _⟩ =>
    show win0_14.index ⟨(i 0).val / 2000, ht⟩ (0 : Fin 2) * 2000 ≤ (i 0).val ∧ (i 0).val < win0_14.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_14.index ⟨(i 0).val / 2000, ht⟩ (1 : Fin 2) * 64 ≤ (i 1).val ∧ (i 1).val < win0_14.index ⟨(i 0).val / 2000, ht⟩ (1 : Fin 2) * 64 + 64
    rw [e5]; omega

/-- THE OUTPUT ARRAY after the region: the layer of the arrays as the region finds them. -/
theorem final (c : Dev nD) :
    (dat0 (F := Ideal) V c).arrAt 14 cfg0.N = Cert.Gin.layerOf (V c main_arg0) (V c main_v13) (V c main_v15) (V c main_v38) (V c main_v39) (V c main_v40) (V c main_v41) (V c main_v42) (V c main_v27) (V c main_v43) (V c main_v44) (V c main_v45) (V c main_v46) (V c main_v47) :=
  (dat0 V c).arrAt_eq_of_cover 14 _ (fun t _ => flushed_eq V c t) cover

end Cert.KernelIdeal.Region0

end
-- ==== Proof.Region1.lean ====
/-
  Layer kernel 1 as a map of whole arrays.

  The grid has 50 points; point t stages rows 2000·t … 2000·t + 1999 of the features and of the neighbour sums,
  the whole of every parameter array, and writes back rows 2000·t … 2000·t + 1999 of the output. The body's block
  at (p, q) depends on row p of its two row blocks only, so every written block is the restriction of one function of
  the arrays as the region finds them: the layer. The 50 blocks tile the 100000 rows, so the output array ends
  holding that function.
-/
import proofs.«181532_j16295105921239_1_alg».proof.Proof.Gen.KernelIdeal.Frame
import proofs.«181532_j16295105921239_1_alg».proof.Proof.LayerOf
import proofs.«181532_j16295105921239_1_alg».proof.Proof.LibPlainDot
import Idealize.ShloMosaic.Lib.ValueLayout
import Idealize.ShloMosaic.Lib.Pipeline.Value

set_option maxRecDepth 16384

noncomputable section

namespace Cert.KernelIdeal.Region1

open Idealize.ShloMosaic Idealize.ShloMosaic.TcCoe Idealize.ShloMosaic.ValueIdx Idealize.ShloMosaic.Pipeline Idealize.SL.Sem Cert.KernelIdeal Cert.KernelIdeal.Gen

/-! ## The body on one block, at an index -/

theorem rsqrt_apply {s : Shape} {φ : FTy} (x : FVec Ideal s φ) (i : s.Idx) : rsqrt x i = Ideal.rsqrt (x i) := rfl

/-- The second half-layer's payload at row `p`, channel `q`. -/
theorem second_apply (h : FVec Ideal S2000x64 .bf16) (w : FVec Ideal S64x64 .f32) (b rm rv g bt : Vec Ideal S1x64 .f32)
    (p : Fin 2000) (q : Fin 64) :
    k1_pay1 (F := Ideal) h w b rm rv g bt (ix2 p q)
      = Cert.Gin.half (fun k => h (ix2 p k)) (fun a c => w (ix2 a c)) (fun k => b (ix2 (0 : Fin 1) k)) (fun k => rm (ix2 (0 : Fin 1) k))
          (fun k => rv (ix2 (0 : Fin 1) k)) (fun k => g (ix2 (0 : Fin 1) k)) (fun k => bt (ix2 (0 : Fin 1) k)) q := by
  unfold k1_pay1 Cert.Gin.half
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  simp only [shapeCast_self]
  rw [show dot_S2000x64_S64x64_S2000x64_1_0_0_1_n_n = DotDims.plain 2000 64 64 from rfl, PlainDot.matmul_zero_apply]
  rfl

/-- The first half-layer's payload (of the sum of the two row blocks) at row `p`, channel `q`. -/
theorem first_apply (x a : Vec Ideal S2000x64 .f32) (w : Vec Ideal S64x64 .f32) (b rm rv g bt : Vec Ideal S1x64 .f32)
    (p : Fin 2000) (q : Fin 64) :
    k1_pay2 (F := Ideal) x a w b rm rv g bt (ix2 p q)
      = Cert.Gin.half (fun k => x (ix2 p k) + a (ix2 p k)) (fun c d => w (ix2 c d)) (fun k => b (ix2 (0 : Fin 1) k)) (fun k => rm (ix2 (0 : Fin 1) k))
          (fun k => rv (ix2 (0 : Fin 1) k)) (fun k => g (ix2 (0 : Fin 1) k)) (fun k => bt (ix2 (0 : Fin 1) k)) q := by
  unfold k1_pay2 Cert.Gin.half
  rw [truncf_apply, maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  simp only [shapeCast_self]
  rw [show dot_S2000x64_S64x64_S2000x64_1_0_0_1_n_n = DotDims.plain 2000 64 64 from rfl, PlainDot.matmul_zero_apply]
  rfl

/-- The second weight matrix passes through a cast to its own shape and a change of format: unchanged. -/
theorem third_apply (w : Vec Ideal S64x64 .f32) (i : S64x64.Idx) : k1_pay3 (F := Ideal) w i = w i := by
  (unfold k1_pay3; simp only [shapeCast_self]) <;> rfl

theorem hz2 : (![0, 0] : Fin 2 → Nat) = fun _ => 0 := funext fun a => by fin_cases a <;> rfl

/-- What the body leaves in the output block, at row `p`, channel `q`: the two half-layers of row `p`. -/
theorem out_apply (x0 : Vec Ideal S2000x64 .f32) (x1 : Vec Ideal S2000x64 .f32) (x2 : Vec Ideal S64x64 .f32) (x3 : Vec Ideal S1x64 .f32) (x4 : Vec Ideal S1x64 .f32) (x5 : Vec Ideal S1x64 .f32) (x6 : Vec Ideal S1x64 .f32) (x7 : Vec Ideal S1x64 .f32) (x8 : Vec Ideal S64x64 .f32) (x9 : Vec Ideal S1x64 .f32) (x10 : Vec Ideal S1x64 .f32) (x11 : Vec Ideal S1x64 .f32) (x12 : Vec Ideal S1x64 .f32) (x13 : Vec Ideal S1x64 .f32)
    (p : Fin 2000) (q : Fin 64) :
    out1_14 (F := Ideal) x0 x1 x2 x3 x4 x5 x6 x7 x8 x9 x10 x11 x12 x13 (ix2 p q)
      = Cert.Gin.half (fun k => Cert.Gin.half (fun k' => x0 (ix2 p k') + x1 (ix2 p k')) (fun a b => x2 (ix2 a b)) (fun k => x3 (ix2 (0 : Fin 1) k))
            (fun k => x6 (ix2 (0 : Fin 1) k)) (fun k => x7 (ix2 (0 : Fin 1) k)) (fun k => x4 (ix2 (0 : Fin 1) k)) (fun k => x5 (ix2 (0 : Fin 1) k)) k)
          (fun a b => x8 (ix2 a b)) (fun k => x9 (ix2 (0 : Fin 1) k)) (fun k => x12 (ix2 (0 : Fin 1) k)) (fun k => x13 (ix2 (0 : Fin 1) k))
          (fun k => x10 (ix2 (0 : Fin 1) k)) (fun k => x11 (ix2 (0 : Fin 1) k)) q := by
  unfold out1_14
  rw [View.canon_unit_zero hz2]
  simp only [View.ld_unit_zero (S := S2000x64) hz2, View.ld_unit_zero (S := S64x64) hz2, View.ld_unit_zero (S := S1x64) hz2]
  rw [second_apply]
  simp only [first_apply, third_apply]

/-! ## The blocks of the arrays -/

variable (V : (c : Dev nD) → (b : Ref sig .tc) → Buf (Elt Ideal) ((c : Thread nD τ).loc b))

theorem hN : cfg1.N = 50 := rfl

/-- The printed index maps over the grid: the three row windows move with the point, every parameter window stays. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_14.index t (0 : Fin 2) = t.val
    ∧ win1_14.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0 :=
  (by decide +kernel : ∀ t : Fin grid1.N, _)

theorem emb_0 (t : Fin cfg1.N) (p : Fin 2000) (n : Fin 100000) (hn : n.val = t.val * 2000 + p.val) (k : Fin 64) :
    ((cfg1.win 0).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_0.index t (0 : Fin 2) * 2000 + 1 * p.val = n.val; omega
  | ⟨1, _⟩ => show win1_0.index t (1 : Fin 2) * 64 + 1 * k.val = k.val; omega

theorem emb_1 (t : Fin cfg1.N) (p : Fin 2000) (n : Fin 100000) (hn : n.val = t.val * 2000 + p.val) (k : Fin 64) :
    ((cfg1.win 1).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_1.index t (0 : Fin 2) * 2000 + 1 * p.val = n.val; omega
  | ⟨1, _⟩ => show win1_1.index t (1 : Fin 2) * 64 + 1 * k.val = k.val; omega

theorem emb_14 (t : Fin cfg1.N) (p : Fin 2000) (n : Fin 100000) (hn : n.val = t.val * 2000 + p.val) (k : Fin 64) :
    ((cfg1.win 14).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_14.index t (0 : Fin 2) * 2000 + 1 * p.val = n.val; omega
  | ⟨1, _⟩ => show win1_14.index t (1 : Fin 2) * 64 + 1 * k.val = k.val; omega

theorem emb_2 (t : Fin cfg1.N) (a b : Fin 64) : ((cfg1.win 2).blk t).view.emb (ix2 a b) = ix2 a b := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_2.index t (0 : Fin 2) * 64 + 1 * a.val = a.val; omega
  | ⟨1, _⟩ => show win1_2.index t (1 : Fin 2) * 64 + 1 * b.val = b.val; omega

theorem emb_3 (t : Fin cfg1.N) (u : Fin 1) (k : Fin 64) : ((cfg1.win 3).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_3.index t (0 : Fin 2) * 1 + 1 * u.val = u.val; omega
  | ⟨1, _⟩ => show win1_3.index t (1 : Fin 2) * 64 + 1 * k.val = k.val; omega

theorem emb_4 (t : Fin cfg1.N) (u : Fin 1) (k : Fin 64) : ((cfg1.win 4).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_4.index t (0 : Fin 2) * 1 + 1 * u.val = u.val; omega
  | ⟨1, _⟩ => show win1_4.index t (1 : Fin 2) * 64 + 1 * k.val = k.val; omega

theorem emb_5 (t : Fin cfg1.N) (u : Fin 1) (k : Fin 64) : ((cfg1.win 5).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_5.index t (0 : Fin 2) * 1 + 1 * u.val = u.val; omega
  | ⟨1, _⟩ => show win1_5.index t (1 : Fin 2) * 64 + 1 * k.val = k.val; omega

theorem emb_6 (t : Fin cfg1.N) (u : Fin 1) (k : Fin 64) : ((cfg1.win 6).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_6.index t (0 : Fin 2) * 1 + 1 * u.val = u.val; omega
  | ⟨1, _⟩ => show win1_6.index t (1 : Fin 2) * 64 + 1 * k.val = k.val; omega

theorem emb_7 (t : Fin cfg1.N) (u : Fin 1) (k : Fin 64) : ((cfg1.win 7).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_7.index t (0 : Fin 2) * 1 + 1 * u.val = u.val; omega
  | ⟨1, _⟩ => show win1_7.index t (1 : Fin 2) * 64 + 1 * k.val = k.val; omega

theorem emb_8 (t : Fin cfg1.N) (a b : Fin 64) : ((cfg1.win 8).blk t).view.emb (ix2 a b) = ix2 a b := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_8.index t (0 : Fin 2) * 64 + 1 * a.val = a.val; omega
  | ⟨1, _⟩ => show win1_8.index t (1 : Fin 2) * 64 + 1 * b.val = b.val; omega

theorem emb_9 (t : Fin cfg1.N) (u : Fin 1) (k : Fin 64) : ((cfg1.win 9).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_9.index t (0 : Fin 2) * 1 + 1 * u.val = u.val; omega
  | ⟨1, _⟩ => show win1_9.index t (1 : Fin 2) * 64 + 1 * k.val = k.val; omega

theorem emb_10 (t : Fin cfg1.N) (u : Fin 1) (k : Fin 64) : ((cfg1.win 10).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_10.index t (0 : Fin 2) * 1 + 1 * u.val = u.val; omega
  | ⟨1, _⟩ => show win1_10.index t (1 : Fin 2) * 64 + 1 * k.val = k.val; omega

theorem emb_11 (t : Fin cfg1.N) (u : Fin 1) (k : Fin 64) : ((cfg1.win 11).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_11.index t (0 : Fin 2) * 1 + 1 * u.val = u.val; omega
  | ⟨1, _⟩ => show win1_11.index t (1 : Fin 2) * 64 + 1 * k.val = k.val; omega

theorem emb_12 (t : Fin cfg1.N) (u : Fin 1) (k : Fin 64) : ((cfg1.win 12).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_12.index t (0 : Fin 2) * 1 + 1 * u.val = u.val; omega
  | ⟨1, _⟩ => show win1_12.index t (1 : Fin 2) * 64 + 1 * k.val = k.val; omega

theorem emb_13 (t : Fin cfg1.N) (u : Fin 1) (k : Fin 64) : ((cfg1.win 13).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win1_13.index t (0 : Fin 2) * 1 + 1 * u.val = u.val; omega
  | ⟨1, _⟩ => show win1_13.index t (1 : Fin 2) * 64 + 1 * k.val = k.val; omega

/-! ## The staged blocks, read at coordinates -/

theorem blk_0 (c : Dev nD) (t : Fin cfg1.N) (p : Fin 2000) (n : Fin 100000) (hn : n.val = t.val * 2000 + p.val) (k : Fin 64) :
    iblk1 V c 0 t (ix2 p k) = V c main_v48 (ix2 n k) := by
  show V c main_v48 (((cfg1.win 0).blk t).view.emb (ix2 p k)) = _
  rw [emb_0 t p n hn k]

theorem blk_1 (c : Dev nD) (t : Fin cfg1.N) (p : Fin 2000) (n : Fin 100000) (hn : n.val = t.val * 2000 + p.val) (k : Fin 64) :
    iblk1 V c 1 t (ix2 p k) = V c main_v58 (ix2 n k) := by
  show V c main_v58 (((cfg1.win 1).blk t).view.emb (ix2 p k)) = _
  rw [emb_1 t p n hn k]

theorem blk_2 (c : Dev nD) (t : Fin cfg1.N) (a b : Fin 64) : iblk1 V c 2 t (ix2 a b) = V c main_v60 (ix2 a b) := by
  show V c main_v60 (((cfg1.win 2).blk t).view.emb (ix2 a b)) = _
  rw [emb_2 t a b]

theorem blk_3 (c : Dev nD) (t : Fin cfg1.N) (u : Fin 1) (k : Fin 64) : iblk1 V c 3 t (ix2 u k) = V c main_v83 (ix2 u k) := by
  show V c main_v83 (((cfg1.win 3).blk t).view.emb (ix2 u k)) = _
  rw [emb_3 t u k]

theorem blk_4 (c : Dev nD) (t : Fin cfg1.N) (u : Fin 1) (k : Fin 64) : iblk1 V c 4 t (ix2 u k) = V c main_v84 (ix2 u k) := by
  show V c main_v84 (((cfg1.win 4).blk t).view.emb (ix2 u k)) = _
  rw [emb_4 t u k]

theorem blk_5 (c : Dev nD) (t : Fin cfg1.N) (u : Fin 1) (k : Fin 64) : iblk1 V c 5 t (ix2 u k) = V c main_v85 (ix2 u k) := by
  show V c main_v85 (((cfg1.win 5).blk t).view.emb (ix2 u k)) = _
  rw [emb_5 t u k]

theorem blk_6 (c : Dev nD) (t : Fin cfg1.N) (u : Fin 1) (k : Fin 64) : iblk1 V c 6 t (ix2 u k) = V c main_v86 (ix2 u k) := by
  show V c main_v86 (((cfg1.win 6).blk t).view.emb (ix2 u k)) = _
  rw [emb_6 t u k]

theorem blk_7 (c : Dev nD) (t : Fin cfg1.N) (u : Fin 1) (k : Fin 64) : iblk1 V c 7 t (ix2 u k) = V c main_v87 (ix2 u k) := by
  show V c main_v87 (((cfg1.win 7).blk t).view.emb (ix2 u k)) = _
  rw [emb_7 t u k]

theorem blk_8 (c : Dev nD) (t : Fin cfg1.N) (a b : Fin 64) : iblk1 V c 8 t (ix2 a b) = V c main_v72 (ix2 a b) := by
  show V c main_v72 (((cfg1.win 8).blk t).view.emb (ix2 a b)) = _
  rw [emb_8 t a b]

theorem blk_9 (c : Dev nD) (t : Fin cfg1.N) (u : Fin 1) (k : Fin 64) : iblk1 V c 9 t (ix2 u k) = V c main_v88 (ix2 u k) := by
  show V c main_v88 (((cfg1.win 9).blk t).view.emb (ix2 u k)) = _
  rw [emb_9 t u k]

theorem blk_10 (c : Dev nD) (t : Fin cfg1.N) (u : Fin 1) (k : Fin 64) : iblk1 V c 10 t (ix2 u k) = V c main_v89 (ix2 u k) := by
  show V c main_v89 (((cfg1.win 10).blk t).view.emb (ix2 u k)) = _
  rw [emb_10 t u k]

theorem blk_11 (c : Dev nD) (t : Fin cfg1.N) (u : Fin 1) (k : Fin 64) : iblk1 V c 11 t (ix2 u k) = V c main_v90 (ix2 u k) := by
  show V c main_v90 (((cfg1.win 11).blk t).view.emb (ix2 u k)) = _
  rw [emb_11 t u k]

theorem blk_12 (c : Dev nD) (t : Fin cfg1.N) (u : Fin 1) (k : Fin 64) : iblk1 V c 12 t (ix2 u k) = V c main_v91 (ix2 u k) := by
  show V c main_v91 (((cfg1.win 12).blk t).view.emb (ix2 u k)) = _
  rw [emb_12 t u k]

theorem blk_13 (c : Dev nD) (t : Fin cfg1.N) (u : Fin 1) (k : Fin 64) : iblk1 V c 13 t (ix2 u k) = V c main_v92 (ix2 u k) := by
  show V c main_v92 (((cfg1.win 13).blk t).view.emb (ix2 u k)) = _
  rw [emb_13 t u k]

/-- WHAT POINT `t` WRITES BACK is block `t` of the layer of the arrays as the region finds them. -/
theorem flushed_eq (c : Dev nD) (t : Fin cfg1.N) :
    (dat1 (F := Ideal) V c).flushed 14 t = ((cfg1.win 14).blk t).view.read (Elt Ideal)
      (Cert.Gin.layerOf (V c main_v48) (V c main_v58) (V c main_v60) (V c main_v83) (V c main_v84) (V c main_v85) (V c main_v86) (V c main_v87) (V c main_v72) (V c main_v88) (V c main_v89) (V c main_v90) (V c main_v91) (V c main_v92)) := by
  show (cfg1.win 14).cut (grid1.coords t) ((dat1 V c).after 14 t) = _
  rw [after1_14]
  funext j
  obtain ⟨p, q, rfl⟩ : ∃ (p : Fin 2000) (q : Fin 64), j = ix2 p q := ⟨j 0, j 1, eq_ix2 j⟩
  have ht : t.val < 50 := t.isLt
  have hp : p.val < 2000 := p.isLt
  show out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (ix2 p q)
    = Cert.Gin.layerOf (V c main_v48) (V c main_v58) (V c main_v60) (V c main_v83) (V c main_v84) (V c main_v85) (V c main_v86) (V c main_v87) (V c main_v72) (V c main_v88) (V c main_v89) (V c main_v90) (V c main_v91) (V c main_v92) (((cfg1.win 14).blk t).view.emb (ix2 p q))
  rw [emb_14 t p ⟨t.val * 2000 + p.val, by omega⟩ rfl q, Cert.Gin.layerOf_apply]
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p q).trans ?_
  simp only [blk_0 V c t p ⟨t.val * 2000 + p.val, by omega⟩ rfl, blk_1 V c t p ⟨t.val * 2000 + p.val, by omega⟩ rfl,
    blk_2 V c t, blk_3 V c t, blk_4 V c t, blk_5 V c t, blk_6 V c t, blk_7 V c t, blk_8 V c t, blk_9 V c t, blk_10 V c t, blk_11 V c t, blk_12 V c t, blk_13 V c t]

/-- An index of the array is in point `t`'s block iff each coordinate is in the block's range on its axis. -/
theorem mem_blk (t : Fin cfg1.N) (i : S100000x64.Idx) :
    i ∈ ((cfg1.win 14).blk t).view.set ↔ ∀ a : Fin 2, win1_14.index t a * S2000x64.size a ≤ (i a).val ∧ (i a).val < win1_14.index t a * S2000x64.size a + S2000x64.size a := by
  show i ∈ ((View.whole main_v93).slice (win1_14.rect t)).set ↔ _
  rw [View.set_slice_whole, Rect.mem_set_unit]
  exact Iff.rfl

/-- Row `n` lies in the block of point `n / 2000`. -/
theorem cover (i : S100000x64.Idx) : ∃ t : Fin cfg1.N, (cfg1.win 14).flush t = true ∧ i ∈ ((cfg1.win 14).blk t).view.set := by
  have hi0 : (i 0).val < 100000 := (i 0).isLt
  have hi1 : (i 1).val < 64 := (i 1).isLt
  have ht : (i 0).val / 2000 < cfg1.N := by rw [hN]; omega
  have h := idx_facts ⟨(i 0).val / 2000, ht⟩
  obtain ⟨e0, e1, e2, e3, e4, e5, e6, e7, e8, e9, e10, e11, e12, e13, e14, e15, e16, e17, e18, e19, e20, e21, e22, e23, e24, e25, e26, e27, e28, e29⟩ := h
  refine ⟨⟨(i 0).val / 2000, ht⟩, flush1_14 _, ?_⟩
  rw [mem_blk]
  intro a
  match a with
  | ⟨0, _⟩ =>
    show win1_14.index ⟨(i 0).val / 2000, ht⟩ (0 : Fin 2) * 2000 ≤ (i 0).val ∧ (i 0).val < win1_14.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_14.index ⟨(i 0).val / 2000, ht⟩ (1 : Fin 2) * 64 ≤ (i 1).val ∧ (i 1).val < win1_14.index ⟨(i 0).val / 2000, ht⟩ (1 : Fin 2) * 64 + 64
    rw [e5]; omega

/-- THE OUTPUT ARRAY after the region: the layer of the arrays as the region finds them. -/
theorem final (c : Dev nD) :
    (dat1 (F := Ideal) V c).arrAt 14 cfg1.N = Cert.Gin.layerOf (V c main_v48) (V c main_v58) (V c main_v60) (V c main_v83) (V c main_v84) (V c main_v85) (V c main_v86) (V c main_v87) (V c main_v72) (V c main_v88) (V c main_v89) (V c main_v90) (V c main_v91) (V c main_v92) :=
  (dat1 V c).arrAt_eq_of_cover 14 _ (fun t _ => flushed_eq V c t) cover

end Cert.KernelIdeal.Region1

end
-- ==== Proof.Region2.lean ====
/-
  Layer kernel 2 as a map of whole arrays.

  The grid has 50 points; point t stages rows 2000·t … 2000·t + 1999 of the features and of the neighbour sums,
  the whole of every parameter array, and writes back rows 2000·t … 2000·t + 1999 of the output. The body's block
  at (p, q) depends on row p of its two row blocks only, so every written block is the restriction of one function of
  the arrays as the region finds them: the layer. The 50 blocks tile the 100000 rows, so the output array ends
  holding that function.
-/
import proofs.«181532_j16295105921239_1_alg».proof.Proof.Gen.KernelIdeal.Frame
import proofs.«181532_j16295105921239_1_alg».proof.Proof.LayerOf
import proofs.«181532_j16295105921239_1_alg».proof.Proof.LibPlainDot
import Idealize.ShloMosaic.Lib.ValueLayout
import Idealize.ShloMosaic.Lib.Pipeline.Value

set_option maxRecDepth 16384

noncomputable section

namespace Cert.KernelIdeal.Region2

open Idealize.ShloMosaic Idealize.ShloMosaic.TcCoe Idealize.ShloMosaic.ValueIdx Idealize.ShloMosaic.Pipeline Idealize.SL.Sem Cert.KernelIdeal Cert.KernelIdeal.Gen

/-! ## The body on one block, at an index -/

theorem rsqrt_apply {s : Shape} {φ : FTy} (x : FVec Ideal s φ) (i : s.Idx) : rsqrt x i = Ideal.rsqrt (x i) := rfl

/-- The second half-layer's payload at row `p`, channel `q`. -/
theorem second_apply (h : FVec Ideal S2000x64 .bf16) (w : FVec Ideal S64x64 .f32) (b rm rv g bt : Vec Ideal S1x64 .f32)
    (p : Fin 2000) (q : Fin 64) :
    k2_pay1 (F := Ideal) h w b rm rv g bt (ix2 p q)
      = Cert.Gin.half (fun k => h (ix2 p k)) (fun a c => w (ix2 a c)) (fun k => b (ix2 (0 : Fin 1) k)) (fun k => rm (ix2 (0 : Fin 1) k))
          (fun k => rv (ix2 (0 : Fin 1) k)) (fun k => g (ix2 (0 : Fin 1) k)) (fun k => bt (ix2 (0 : Fin 1) k)) q := by
  unfold k2_pay1 Cert.Gin.half
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  simp only [shapeCast_self]
  rw [show dot_S2000x64_S64x64_S2000x64_1_0_0_1_n_n = DotDims.plain 2000 64 64 from rfl, PlainDot.matmul_zero_apply]
  rfl

/-- The first half-layer's payload (of the sum of the two row blocks) at row `p`, channel `q`. -/
theorem first_apply (x a : Vec Ideal S2000x64 .f32) (w : Vec Ideal S64x64 .f32) (b rm rv g bt : Vec Ideal S1x64 .f32)
    (p : Fin 2000) (q : Fin 64) :
    k2_pay2 (F := Ideal) x a w b rm rv g bt (ix2 p q)
      = Cert.Gin.half (fun k => x (ix2 p k) + a (ix2 p k)) (fun c d => w (ix2 c d)) (fun k => b (ix2 (0 : Fin 1) k)) (fun k => rm (ix2 (0 : Fin 1) k))
          (fun k => rv (ix2 (0 : Fin 1) k)) (fun k => g (ix2 (0 : Fin 1) k)) (fun k => bt (ix2 (0 : Fin 1) k)) q := by
  unfold k2_pay2 Cert.Gin.half
  rw [truncf_apply, maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  simp only [shapeCast_self]
  rw [show dot_S2000x64_S64x64_S2000x64_1_0_0_1_n_n = DotDims.plain 2000 64 64 from rfl, PlainDot.matmul_zero_apply]
  rfl

/-- The second weight matrix passes through a cast to its own shape and a change of format: unchanged. -/
theorem third_apply (w : Vec Ideal S64x64 .f32) (i : S64x64.Idx) : k2_pay3 (F := Ideal) w i = w i := by
  (unfold k2_pay3; simp only [shapeCast_self]) <;> rfl

theorem hz2 : (![0, 0] : Fin 2 → Nat) = fun _ => 0 := funext fun a => by fin_cases a <;> rfl

/-- What the body leaves in the output block, at row `p`, channel `q`: the two half-layers of row `p`. -/
theorem out_apply (x0 : Vec Ideal S2000x64 .f32) (x1 : Vec Ideal S2000x64 .f32) (x2 : Vec Ideal S64x64 .f32) (x3 : Vec Ideal S1x64 .f32) (x4 : Vec Ideal S1x64 .f32) (x5 : Vec Ideal S1x64 .f32) (x6 : Vec Ideal S1x64 .f32) (x7 : Vec Ideal S1x64 .f32) (x8 : Vec Ideal S64x64 .f32) (x9 : Vec Ideal S1x64 .f32) (x10 : Vec Ideal S1x64 .f32) (x11 : Vec Ideal S1x64 .f32) (x12 : Vec Ideal S1x64 .f32) (x13 : Vec Ideal S1x64 .f32)
    (p : Fin 2000) (q : Fin 64) :
    out2_14 (F := Ideal) x0 x1 x2 x3 x4 x5 x6 x7 x8 x9 x10 x11 x12 x13 (ix2 p q)
      = Cert.Gin.half (fun k => Cert.Gin.half (fun k' => x0 (ix2 p k') + x1 (ix2 p k')) (fun a b => x2 (ix2 a b)) (fun k => x3 (ix2 (0 : Fin 1) k))
            (fun k => x6 (ix2 (0 : Fin 1) k)) (fun k => x7 (ix2 (0 : Fin 1) k)) (fun k => x4 (ix2 (0 : Fin 1) k)) (fun k => x5 (ix2 (0 : Fin 1) k)) k)
          (fun a b => x8 (ix2 a b)) (fun k => x9 (ix2 (0 : Fin 1) k)) (fun k => x12 (ix2 (0 : Fin 1) k)) (fun k => x13 (ix2 (0 : Fin 1) k))
          (fun k => x10 (ix2 (0 : Fin 1) k)) (fun k => x11 (ix2 (0 : Fin 1) k)) q := by
  unfold out2_14
  rw [View.canon_unit_zero hz2]
  simp only [View.ld_unit_zero (S := S2000x64) hz2, View.ld_unit_zero (S := S64x64) hz2, View.ld_unit_zero (S := S1x64) hz2]
  rw [second_apply]
  simp only [first_apply, third_apply]

/-! ## The blocks of the arrays -/

variable (V : (c : Dev nD) → (b : Ref sig .tc) → Buf (Elt Ideal) ((c : Thread nD τ).loc b))

theorem hN : cfg2.N = 50 := rfl

/-- The printed index maps over the grid: the three row windows move with the point, every parameter window stays. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_14.index t (0 : Fin 2) = t.val
    ∧ win2_14.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0 :=
  (by decide +kernel : ∀ t : Fin grid2.N, _)

theorem emb_0 (t : Fin cfg2.N) (p : Fin 2000) (n : Fin 100000) (hn : n.val = t.val * 2000 + p.val) (k : Fin 64) :
    ((cfg2.win 0).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_0.index t (0 : Fin 2) * 2000 + 1 * p.val = n.val; omega
  | ⟨1, _⟩ => show win2_0.index t (1 : Fin 2) * 64 + 1 * k.val = k.val; omega

theorem emb_1 (t : Fin cfg2.N) (p : Fin 2000) (n : Fin 100000) (hn : n.val = t.val * 2000 + p.val) (k : Fin 64) :
    ((cfg2.win 1).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_1.index t (0 : Fin 2) * 2000 + 1 * p.val = n.val; omega
  | ⟨1, _⟩ => show win2_1.index t (1 : Fin 2) * 64 + 1 * k.val = k.val; omega

theorem emb_14 (t : Fin cfg2.N) (p : Fin 2000) (n : Fin 100000) (hn : n.val = t.val * 2000 + p.val) (k : Fin 64) :
    ((cfg2.win 14).blk t).view.emb (ix2 p k) = ix2 n k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_14.index t (0 : Fin 2) * 2000 + 1 * p.val = n.val; omega
  | ⟨1, _⟩ => show win2_14.index t (1 : Fin 2) * 64 + 1 * k.val = k.val; omega

theorem emb_2 (t : Fin cfg2.N) (a b : Fin 64) : ((cfg2.win 2).blk t).view.emb (ix2 a b) = ix2 a b := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_2.index t (0 : Fin 2) * 64 + 1 * a.val = a.val; omega
  | ⟨1, _⟩ => show win2_2.index t (1 : Fin 2) * 64 + 1 * b.val = b.val; omega

theorem emb_3 (t : Fin cfg2.N) (u : Fin 1) (k : Fin 64) : ((cfg2.win 3).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_3.index t (0 : Fin 2) * 1 + 1 * u.val = u.val; omega
  | ⟨1, _⟩ => show win2_3.index t (1 : Fin 2) * 64 + 1 * k.val = k.val; omega

theorem emb_4 (t : Fin cfg2.N) (u : Fin 1) (k : Fin 64) : ((cfg2.win 4).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_4.index t (0 : Fin 2) * 1 + 1 * u.val = u.val; omega
  | ⟨1, _⟩ => show win2_4.index t (1 : Fin 2) * 64 + 1 * k.val = k.val; omega

theorem emb_5 (t : Fin cfg2.N) (u : Fin 1) (k : Fin 64) : ((cfg2.win 5).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_5.index t (0 : Fin 2) * 1 + 1 * u.val = u.val; omega
  | ⟨1, _⟩ => show win2_5.index t (1 : Fin 2) * 64 + 1 * k.val = k.val; omega

theorem emb_6 (t : Fin cfg2.N) (u : Fin 1) (k : Fin 64) : ((cfg2.win 6).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_6.index t (0 : Fin 2) * 1 + 1 * u.val = u.val; omega
  | ⟨1, _⟩ => show win2_6.index t (1 : Fin 2) * 64 + 1 * k.val = k.val; omega

theorem emb_7 (t : Fin cfg2.N) (u : Fin 1) (k : Fin 64) : ((cfg2.win 7).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_7.index t (0 : Fin 2) * 1 + 1 * u.val = u.val; omega
  | ⟨1, _⟩ => show win2_7.index t (1 : Fin 2) * 64 + 1 * k.val = k.val; omega

theorem emb_8 (t : Fin cfg2.N) (a b : Fin 64) : ((cfg2.win 8).blk t).view.emb (ix2 a b) = ix2 a b := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_8.index t (0 : Fin 2) * 64 + 1 * a.val = a.val; omega
  | ⟨1, _⟩ => show win2_8.index t (1 : Fin 2) * 64 + 1 * b.val = b.val; omega

theorem emb_9 (t : Fin cfg2.N) (u : Fin 1) (k : Fin 64) : ((cfg2.win 9).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_9.index t (0 : Fin 2) * 1 + 1 * u.val = u.val; omega
  | ⟨1, _⟩ => show win2_9.index t (1 : Fin 2) * 64 + 1 * k.val = k.val; omega

theorem emb_10 (t : Fin cfg2.N) (u : Fin 1) (k : Fin 64) : ((cfg2.win 10).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_10.index t (0 : Fin 2) * 1 + 1 * u.val = u.val; omega
  | ⟨1, _⟩ => show win2_10.index t (1 : Fin 2) * 64 + 1 * k.val = k.val; omega

theorem emb_11 (t : Fin cfg2.N) (u : Fin 1) (k : Fin 64) : ((cfg2.win 11).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_11.index t (0 : Fin 2) * 1 + 1 * u.val = u.val; omega
  | ⟨1, _⟩ => show win2_11.index t (1 : Fin 2) * 64 + 1 * k.val = k.val; omega

theorem emb_12 (t : Fin cfg2.N) (u : Fin 1) (k : Fin 64) : ((cfg2.win 12).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_12.index t (0 : Fin 2) * 1 + 1 * u.val = u.val; omega
  | ⟨1, _⟩ => show win2_12.index t (1 : Fin 2) * 64 + 1 * k.val = k.val; omega

theorem emb_13 (t : Fin cfg2.N) (u : Fin 1) (k : Fin 64) : ((cfg2.win 13).blk t).view.emb (ix2 u k) = ix2 u k := by
  have h := idx_facts t
  obtain ⟨e0, e1, e2, e3, e4, e5, e6, e7, e8, e9, e10, e11, e12, e13, e14, e15, e16, e17, e18, e19, e20, e21, e22, e23, e24, e25, e26, e27, e28, e29⟩ := h
  funext ax; apply Fin.ext
  match ax with
  | ⟨0, _⟩ => show win2_13.index t (0 : Fin 2) * 1 + 1 * u.val = u.val; omega
  | ⟨1, _⟩ => show win2_13.index t (1 : Fin 2) * 64 + 1 * k.val = k.val; omega

/-! ## The staged blocks, read at coordinates -/

theorem blk_0 (c : Dev nD) (t : Fin cfg2.N) (p : Fin 2000) (n : Fin 100000) (hn : n.val = t.val * 2000 + p.val) (k : Fin 64) :
    iblk2 V c 0 t (ix2 p k) = V c main_v93 (ix2 n k) := by
  show V c main_v93 (((cfg2.win 0).blk t).view.emb (ix2 p k)) = _
  rw [emb_0 t p n hn k]

theorem blk_1 (c : Dev nD) (t : Fin cfg2.N) (p : Fin 2000) (n : Fin 100000) (hn : n.val = t.val * 2000 + p.val) (k : Fin 64) :
    iblk2 V c 1 t (ix2 p k) = V c main_v103 (ix2 n k) := by
  show V c main_v103 (((cfg2.win 1).blk t).view.emb (ix2 p k)) = _
  rw [emb_1 t p n hn k]

theorem blk_2 (c : Dev nD) (t : Fin cfg2.N) (a b : Fin 64) : iblk2 V c 2 t (ix2 a b) = V c main_v105 (ix2 a b) := by
  show V c main_v105 (((cfg2.win 2).blk t).view.emb (ix2 a b)) = _
  rw [emb_2 t a b]

theorem blk_3 (c : Dev nD) (t : Fin cfg2.N) (u : Fin 1) (k : Fin 64) : iblk2 V c 3 t (ix2 u k) = V c main_v128 (ix2 u k) := by
  show V c main_v128 (((cfg2.win 3).blk t).view.emb (ix2 u k)) = _
  rw [emb_3 t u k]

theorem blk_4 (c : Dev nD) (t : Fin cfg2.N) (u : Fin 1) (k : Fin 64) : iblk2 V c 4 t (ix2 u k) = V c main_v129 (ix2 u k) := by
  show V c main_v129 (((cfg2.win 4).blk t).view.emb (ix2 u k)) = _
  rw [emb_4 t u k]

theorem blk_5 (c : Dev nD) (t : Fin cfg2.N) (u : Fin 1) (k : Fin 64) : iblk2 V c 5 t (ix2 u k) = V c main_v130 (ix2 u k) := by
  show V c main_v130 (((cfg2.win 5).blk t).view.emb (ix2 u k)) = _
  rw [emb_5 t u k]

theorem blk_6 (c : Dev nD) (t : Fin cfg2.N) (u : Fin 1) (k : Fin 64) : iblk2 V c 6 t (ix2 u k) = V c main_v131 (ix2 u k) := by
  show V c main_v131 (((cfg2.win 6).blk t).view.emb (ix2 u k)) = _
  rw [emb_6 t u k]

theorem blk_7 (c : Dev nD) (t : Fin cfg2.N) (u : Fin 1) (k : Fin 64) : iblk2 V c 7 t (ix2 u k) = V c main_v132 (ix2 u k) := by
  show V c main_v132 (((cfg2.win 7).blk t).view.emb (ix2 u k)) = _
  rw [emb_7 t u k]

theorem blk_8 (c : Dev nD) (t : Fin cfg2.N) (a b : Fin 64) : iblk2 V c 8 t (ix2 a b) = V c main_v117 (ix2 a b) := by
  show V c main_v117 (((cfg2.win 8).blk t).view.emb (ix2 a b)) = _
  rw [emb_8 t a b]

theorem blk_9 (c : Dev nD) (t : Fin cfg2.N) (u : Fin 1) (k : Fin 64) : iblk2 V c 9 t (ix2 u k) = V c main_v133 (ix2 u k) := by
  show V c main_v133 (((cfg2.win 9).blk t).view.emb (ix2 u k)) = _
  rw [emb_9 t u k]

theorem blk_10 (c : Dev nD) (t : Fin cfg2.N) (u : Fin 1) (k : Fin 64) : iblk2 V c 10 t (ix2 u k) = V c main_v134 (ix2 u k) := by
  show V c main_v134 (((cfg2.win 10).blk t).view.emb (ix2 u k)) = _
  rw [emb_10 t u k]

theorem blk_11 (c : Dev nD) (t : Fin cfg2.N) (u : Fin 1) (k : Fin 64) : iblk2 V c 11 t (ix2 u k) = V c main_v135 (ix2 u k) := by
  show V c main_v135 (((cfg2.win 11).blk t).view.emb (ix2 u k)) = _
  rw [emb_11 t u k]

theorem blk_12 (c : Dev nD) (t : Fin cfg2.N) (u : Fin 1) (k : Fin 64) : iblk2 V c 12 t (ix2 u k) = V c main_v136 (ix2 u k) := by
  show V c main_v136 (((cfg2.win 12).blk t).view.emb (ix2 u k)) = _
  rw [emb_12 t u k]

theorem blk_13 (c : Dev nD) (t : Fin cfg2.N) (u : Fin 1) (k : Fin 64) : iblk2 V c 13 t (ix2 u k) = V c main_v137 (ix2 u k) := by
  show V c main_v137 (((cfg2.win 13).blk t).view.emb (ix2 u k)) = _
  rw [emb_13 t u k]

/-- WHAT POINT `t` WRITES BACK is block `t` of the layer of the arrays as the region finds them. -/
theorem flushed_eq (c : Dev nD) (t : Fin cfg2.N) :
    (dat2 (F := Ideal) V c).flushed 14 t = ((cfg2.win 14).blk t).view.read (Elt Ideal)
      (Cert.Gin.layerOf (V c main_v93) (V c main_v103) (V c main_v105) (V c main_v128) (V c main_v129) (V c main_v130) (V c main_v131) (V c main_v132) (V c main_v117) (V c main_v133) (V c main_v134) (V c main_v135) (V c main_v136) (V c main_v137)) := by
  show (cfg2.win 14).cut (grid2.coords t) ((dat2 V c).after 14 t) = _
  rw [after2_14]
  funext j
  obtain ⟨p, q, rfl⟩ : ∃ (p : Fin 2000) (q : Fin 64), j = ix2 p q := ⟨j 0, j 1, eq_ix2 j⟩
  have ht : t.val < 50 := t.isLt
  have hp : p.val < 2000 := p.isLt
  show out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 p q)
    = Cert.Gin.layerOf (V c main_v93) (V c main_v103) (V c main_v105) (V c main_v128) (V c main_v129) (V c main_v130) (V c main_v131) (V c main_v132) (V c main_v117) (V c main_v133) (V c main_v134) (V c main_v135) (V c main_v136) (V c main_v137) (((cfg2.win 14).blk t).view.emb (ix2 p q))
  rw [emb_14 t p ⟨t.val * 2000 + p.val, by omega⟩ rfl q, Cert.Gin.layerOf_apply]
  refine (out_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) p q).trans ?_
  simp only [blk_0 V c t p ⟨t.val * 2000 + p.val, by omega⟩ rfl, blk_1 V c t p ⟨t.val * 2000 + p.val, by omega⟩ rfl,
    blk_2 V c t, blk_3 V c t, blk_4 V c t, blk_5 V c t, blk_6 V c t, blk_7 V c t, blk_8 V c t, blk_9 V c t, blk_10 V c t, blk_11 V c t, blk_12 V c t, blk_13 V c t]

/-- An index of the array is in point `t`'s block iff each coordinate is in the block's range on its axis. -/
theorem mem_blk (t : Fin cfg2.N) (i : S100000x64.Idx) :
    i ∈ ((cfg2.win 14).blk t).view.set ↔ ∀ a : Fin 2, win2_14.index t a * S2000x64.size a ≤ (i a).val ∧ (i a).val < win2_14.index t a * S2000x64.size a + S2000x64.size a := by
  show i ∈ ((View.whole main_v138).slice (win2_14.rect t)).set ↔ _
  rw [View.set_slice_whole, Rect.mem_set_unit]
  exact Iff.rfl

/-- Row `n` lies in the block of point `n / 2000`. -/
theorem cover (i : S100000x64.Idx) : ∃ t : Fin cfg2.N, (cfg2.win 14).flush t = true ∧ i ∈ ((cfg2.win 14).blk t).view.set := by
  have hi0 : (i 0).val < 100000 := (i 0).isLt
  have hi1 : (i 1).val < 64 := (i 1).isLt
  have ht : (i 0).val / 2000 < cfg2.N := by rw [hN]; omega
  have h := idx_facts ⟨(i 0).val / 2000, ht⟩
  obtain ⟨e0, e1, e2, e3, e4, e5, e6, e7, e8, e9, e10, e11, e12, e13, e14, e15, e16, e17, e18, e19, e20, e21, e22, e23, e24, e25, e26, e27, e28, e29⟩ := h
  refine ⟨⟨(i 0).val / 2000, ht⟩, flush2_14 _, ?_⟩
  rw [mem_blk]
  intro a
  match a with
  | ⟨0, _⟩ =>
    show win2_14.index ⟨(i 0).val / 2000, ht⟩ (0 : Fin 2) * 2000 ≤ (i 0).val ∧ (i 0).val < win2_14.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_14.index ⟨(i 0).val / 2000, ht⟩ (1 : Fin 2) * 64 ≤ (i 1).val ∧ (i 1).val < win2_14.index ⟨(i 0).val / 2000, ht⟩ (1 : Fin 2) * 64 + 64
    rw [e5]; omega

/-- THE OUTPUT ARRAY after the region: the layer of the arrays as the region finds them. -/
theorem final (c : Dev nD) :
    (dat2 (F := Ideal) V c).arrAt 14 cfg2.N = Cert.Gin.layerOf (V c main_v93) (V c main_v103) (V c main_v105) (V c main_v128) (V c main_v129) (V c main_v130) (V c main_v131) (V c main_v132) (V c main_v117) (V c main_v133) (V c main_v134) (V c main_v135) (V c main_v136) (V c main_v137) :=
  (dat2 V c).arrAt_eq_of_cover 14 _ (fun t _ => flushed_eq V c t) cover

end Cert.KernelIdeal.Region2

end
-- ==== Proof.Region3.lean ====
/-
  The read-out kernel as a map of whole arrays.

  Its grid is one point, which stages the whole pooled array [512, 64], the whole weight matrix [64, 128] and the
  bias row [1, 128], and writes back the whole output [512, 128]: the matrix product into a zero accumulator plus the
  bias row broadcast down the rows. Changes of float format are the identity on the extended reals.
-/
import proofs.«181532_j16295105921239_1_alg».proof.Proof.Gen.KernelIdeal.Frame
import proofs.«181532_j16295105921239_1_alg».proof.Proof.Spec
import proofs.«181532_j16295105921239_1_alg».proof.Proof.LibPlainDot
import Idealize.ShloMosaic.Lib.ValueLayout
import Idealize.ShloMosaic.Lib.Pipeline.Value

set_option maxRecDepth 16384

noncomputable section

namespace Cert.Gin

open Idealize.ShloMosaic Idealize.ShloMosaic.ValueIdx

/-- The head with its bias given as a one-row matrix. -/
def headOf (pooled : (⟨2, ![512, 64]⟩ : Shape).Idx → EReal) (W : (⟨2, ![64, 128]⟩ : Shape).Idx → EReal)
    (b : (⟨2, ![1, 128]⟩ : Shape).Idx → EReal) : (⟨2, ![512, 128]⟩ : Shape).Idx → EReal := fun i =>
  headAt (fun r k => pooled (ix2 r k)) (fun k j => W (ix2 k j)) (fun j => b (ix2 (0 : Fin 1) j)) (i 0) (i 1)

theorem headOf_apply (pooled : (⟨2, ![512, 64]⟩ : Shape).Idx → EReal) (W : (⟨2, ![64, 128]⟩ : Shape).Idx → EReal)
    (b : (⟨2, ![1, 128]⟩ : Shape).Idx → EReal) (r : Fin 512) (j : Fin 128) :
    headOf pooled W b (ix2 r j) = (∑ k : Fin 64, pooled (ix2 r k) * W (ix2 k j)) + b (ix2 (0 : Fin 1) j) := rfl

/-- With the bias row a cast of the bias vector, `headOf` is the head. -/
theorem headOf_eq_head (pooled : (⟨2, ![512, 64]⟩ : Shape).Idx → EReal) (W : (⟨2, ![64, 128]⟩ : Shape).Idx → EReal)
    (b : (⟨2, ![1, 128]⟩ : Shape).Idx → EReal) (b' : (⟨1, ![128]⟩ : Shape).Idx → EReal)
    (hb : ∀ j, b (ix2 (0 : Fin 1) j) = b' (ix1 j)) : headOf pooled W b = head pooled W b' := by
  funext i
  unfold headOf head
  simp only [hb]

end Cert.Gin

namespace Cert.KernelIdeal.Region3

open Idealize.ShloMosaic Idealize.ShloMosaic.TcCoe Idealize.ShloMosaic.ValueIdx Idealize.ShloMosaic.Pipeline Idealize.SL.Sem Cert.KernelIdeal Cert.KernelIdeal.Gen

/-- The body's payload at graph `r`, channel `j`. -/
theorem pay_apply (x : Vec Ideal S512x64 .f32) (w : Vec Ideal S64x128 .f32) (b : Vec Ideal S1x128 .f32) (r : Fin 512) (j : Fin 128) :
    k3_pay1 (F := Ideal) x w b (ix2 r j) = (∑ k : Fin 64, x (ix2 r k) * w (ix2 k j)) + b (ix2 (0 : Fin 1) j) := by
  unfold k3_pay1
  rw [addf_apply, broadcastTo_1b_ab_apply]
  simp only [shapeCast_self]
  rw [show dot_S512x64_S64x128_S512x128_1_0_0_1_n_n = DotDims.plain 512 64 128 from rfl, PlainDot.matmul_zero_apply]
  rfl

theorem hz2 : (![0, 0] : Fin 2 → Nat) = fun _ => 0 := funext fun a => by fin_cases a <;> rfl

/-- What the body leaves in the output block. -/
theorem out_apply (x0 : Vec Ideal S512x64 .f32) (x1 : Vec Ideal S64x128 .f32) (x2 : Vec Ideal S1x128 .f32) (r : Fin 512) (j : Fin 128) :
    out3_3 (F := Ideal) x0 x1 x2 (ix2 r j) = (∑ k : Fin 64, x0 (ix2 r k) * x1 (ix2 k j)) + x2 (ix2 (0 : Fin 1) j) := by
  unfold out3_3
  rw [View.canon_unit_zero hz2]
  simp only [View.ld_unit_zero (S := S512x64) hz2, View.ld_unit_zero (S := S64x128) hz2, View.ld_unit_zero (S := S1x128) hz2]
  exact pay_apply _ _ _ r j

variable (V : (c : Dev nD) → (b : Ref sig .tc) → Buf (Elt Ideal) ((c : Thread nD τ).loc b))

theorem hN : cfg3.N = 1 := rfl

/-- The printed index maps at the grid's one point: every window sits at the origin. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem emb_0 (t : Fin cfg3.N) (r : Fin 512) (k : Fin 64) : ((cfg3.win 0).blk t).view.emb (ix2 r k) = ix2 r k := by
  obtain ⟨e0, e1, e2, e3, e4, e5, e6, e7⟩ := idx_facts t
  funext ax; apply Fin.ext
  match ax with
  | ⟨0, _⟩ => show win3_0.index t (0 : Fin 2) * 512 + 1 * r.val = r.val; omega
  | ⟨1, _⟩ => show win3_0.index t (1 : Fin 2) * 64 + 1 * k.val = k.val; omega

theorem emb_1 (t : Fin cfg3.N) (k : Fin 64) (j : Fin 128) : ((cfg3.win 1).blk t).view.emb (ix2 k j) = ix2 k j := by
  obtain ⟨e0, e1, e2, e3, e4, e5, e6, e7⟩ := idx_facts t
  funext ax; apply Fin.ext
  match ax with
  | ⟨0, _⟩ => show win3_1.index t (0 : Fin 2) * 64 + 1 * k.val = k.val; omega
  | ⟨1, _⟩ => show win3_1.index t (1 : Fin 2) * 128 + 1 * j.val = j.val; omega

theorem emb_2 (t : Fin cfg3.N) (u : Fin 1) (j : Fin 128) : ((cfg3.win 2).blk t).view.emb (ix2 u j) = ix2 u j := by
  obtain ⟨e0, e1, e2, e3, e4, e5, e6, e7⟩ := idx_facts t
  funext ax; apply Fin.ext
  match ax with
  | ⟨0, _⟩ => show win3_2.index t (0 : Fin 2) * 1 + 1 * u.val = u.val; omega
  | ⟨1, _⟩ => show win3_2.index t (1 : Fin 2) * 128 + 1 * j.val = j.val; omega

theorem emb_3 (t : Fin cfg3.N) (r : Fin 512) (j : Fin 128) : ((cfg3.win 3).blk t).view.emb (ix2 r j) = ix2 r j := by
  obtain ⟨e0, e1, e2, e3, e4, e5, e6, e7⟩ := idx_facts t
  funext ax; apply Fin.ext
  match ax with
  | ⟨0, _⟩ => show win3_3.index t (0 : Fin 2) * 512 + 1 * r.val = r.val; omega
  | ⟨1, _⟩ => show win3_3.index t (1 : Fin 2) * 128 + 1 * j.val = j.val; omega

/-- WHAT THE POINT WRITES BACK is the head of the arrays as the region finds them. -/
theorem flushed_eq (c : Dev nD) (t : Fin cfg3.N) :
    (dat3 (F := Ideal) V c).flushed 3 t = ((cfg3.win 3).blk t).view.read (Elt Ideal)
      (Cert.Gin.headOf (V c main_v141) (V c main_arg15) (V c main_v142)) := by
  show (cfg3.win 3).cut (grid3.coords t) ((dat3 V c).after 3 t) = _
  rw [after3_3]
  funext j
  obtain ⟨r, q, rfl⟩ : ∃ (r : Fin 512) (q : Fin 128), j = ix2 r q := ⟨j 0, j 1, eq_ix2 j⟩
  show out3_3 (iblk3 V c 0 t) (iblk3 V c 1 t) (iblk3 V c 2 t) (ix2 r q)
    = Cert.Gin.headOf (V c main_v141) (V c main_arg15) (V c main_v142) (((cfg3.win 3).blk t).view.emb (ix2 r q))
  rw [emb_3 t r q, Cert.Gin.headOf_apply]
  refine (out_apply (iblk3 V c 0 t) (iblk3 V c 1 t) (iblk3 V c 2 t) r q).trans ?_
  unfold iblk3
  (simp only [View.read_apply, cast_eq, emb_0 t, emb_1 t, emb_2 t]) <;> rfl

theorem mem_blk (t : Fin cfg3.N) (i : S512x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v143).slice (win3_3.rect t)).set ↔ _
  rw [View.set_slice_whole, Rect.mem_set_unit]
  exact Iff.rfl

theorem cover (i : S512x128.Idx) : ∃ t : Fin cfg3.N, (cfg3.win 3).flush t = true ∧ i ∈ ((cfg3.win 3).blk t).view.set := by
  have hi0 : (i 0).val < 512 := (i 0).isLt
  have hi1 : (i 1).val < 128 := (i 1).isLt
  have ht : 0 < cfg3.N := by rw [hN]; omega
  obtain ⟨e0, e1, e2, e3, e4, e5, e6, e7⟩ := idx_facts ⟨0, ht⟩
  refine ⟨⟨0, ht⟩, flush3_3 _, ?_⟩
  rw [mem_blk]
  intro a
  match a with
  | ⟨0, _⟩ =>
    show win3_3.index ⟨0, ht⟩ (0 : Fin 2) * 512 ≤ (i 0).val ∧ (i 0).val < win3_3.index ⟨0, ht⟩ (0 : Fin 2) * 512 + 512
    rw [e6]; omega
  | ⟨1, _⟩ =>
    show win3_3.index ⟨0, ht⟩ (1 : Fin 2) * 128 ≤ (i 1).val ∧ (i 1).val < win3_3.index ⟨0, ht⟩ (1 : Fin 2) * 128 + 128
    rw [e7]; omega

/-- THE OUTPUT ARRAY after the region. -/
theorem final (c : Dev nD) :
    (dat3 (F := Ideal) V c).arrAt 3 cfg3.N = Cert.Gin.headOf (V c main_v141) (V c main_arg15) (V c main_v142) :=
  (dat3 V c).arrAt_eq_of_cover 3 _ (fun t _ => flushed_eq V c t) cover

end Cert.KernelIdeal.Region3

end
-- ==== Proof.HostTerms.lean ====
/-
  The index-dependent host operations both programs share, as functions: the neighbour sums of a feature array along
  the edges, and the sum of the rows of a feature array per graph.
-/
import proofs.«181532_j16295105921239_1_alg».proof.Proof.Gen.KernelIdeal.Launch
import Idealize.ShloMosaic.Lib.StableHlo.Run
import Idealize.ShloMosaic.PureOps.Ideal

set_option maxRecDepth 16384

noncomputable section

namespace Cert.KernelIdeal.Glue

open Idealize.ShloMosaic Idealize.ShloMosaic.TcCoe Idealize.SL.Sem Idealize.ShloMosaic.StableHlo Cert.KernelIdeal Cert.KernelIdeal.Gen

/-- The source nodes of the edges: row 0 of the edge array. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The target nodes of the edges: row 1 of the edge array. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The neighbour sums: gather the rows of `X` at the source nodes (a negative node number wrapped by 100000), and add
    them up at the target nodes into a zero array. -/
def aggOf (s d : (⟨S1600000, .i32⟩ : BufTy).Contents (Elt Ideal)) (X : (⟨S100000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 X
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The per-graph sums: add up the rows of `X` at their graph numbers into a zero array. -/
def poolOf (g : (⟨S100000, .i32⟩ : BufTy).Contents (Elt Ideal)) (X : (⟨S100000x64, .f32⟩ : BufTy).Contents (Elt Ideal)) :
    (⟨S512x64, .f32⟩ : BufTy).Contents (Elt Ideal) :=
  Host.scatterAdd scatter_S512x64_S100000x1_S100000x64_1_0_0_1
    (broadcastInDim S512x64 ![] bcast_S_S512x64 (constant (F := Ideal) S_ .f32 0x00000000#32))
    (broadcastInDim S100000x1 ![0] bcast_S100000_S100000x1_0 g) X

end Cert.KernelIdeal.Glue

end
-- ==== Proof.Host3.lean ====
/-
  What the host operations before the read-out kernel leave in the buffers it reads: the per-graph sums of the last
  layer's output, and the bias vector as a one-row matrix.
-/
import proofs.«181532_j16295105921239_1_alg».proof.Proof.HostTerms

set_option maxRecDepth 16384

noncomputable section

namespace Cert.KernelIdeal.Glue

open Idealize.ShloMosaic Idealize.ShloMosaic.TcCoe Idealize.SL.Sem Idealize.ShloMosaic.StableHlo Cert.KernelIdeal Cert.KernelIdeal.Gen

set_option maxHeartbeats 8000000 in
theorem h3_v141 (W : Valuation τ sig (Elt Ideal)) :
    StableHlo.after (hostOps3 (F := Ideal)) W (Proc.devRef .tc main_v141) = poolOf (W (Proc.devRef .tc main_arg2)) (W (Proc.devRef .tc main_v138)) := by
  after_results
  rfl

set_option maxHeartbeats 8000000 in
theorem h3_v142 (W : Valuation τ sig (Elt Ideal)) :
    StableHlo.after (hostOps3 (F := Ideal)) W (Proc.devRef .tc main_v142) = shapeCast S1x128 (W (Proc.devRef .tc main_arg16)) shapeCasts_S128_S1x128 := by
  after_results
  rfl

theorem k3_arg15 (W : Valuation τ sig (Elt Ideal)) :
    StableHlo.after (hostOps3 (F := Ideal)) W (Proc.devRef .tc main_arg15) = W (Proc.devRef .tc main_arg15) :=
  StableHlo.after_of_forall_not_mem (b := Proc.devRef .tc main_arg15) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Glue

end
-- ==== Proof.Host0.lean ====
/-
  What the host operations before layer kernel 0 leave in the buffers the kernel reads, as terms of the contents
  they start from: the neighbour sums, and member 0 of each parameter stack as a matrix or as a one-row matrix.
-/
import proofs.«181532_j16295105921239_1_alg».proof.Proof.HostTerms

set_option maxRecDepth 16384

noncomputable section

namespace Cert.KernelIdeal.Glue

open Idealize.ShloMosaic Idealize.ShloMosaic.TcCoe Idealize.SL.Sem Idealize.ShloMosaic.StableHlo Cert.KernelIdeal Cert.KernelIdeal.Gen

set_option maxHeartbeats 8000000 in
theorem h0_v1 (W : Valuation τ sig (Elt Ideal)) :
    StableHlo.after (hostOps0 (F := Ideal)) W (Proc.devRef .tc main_v1) = srcOf (W (Proc.devRef .tc main_arg1)) := by
  after_results
  rfl
set_option maxHeartbeats 8000000 in
theorem h0_v3 (W : Valuation τ sig (Elt Ideal)) :
    StableHlo.after (hostOps0 (F := Ideal)) W (Proc.devRef .tc main_v3) = dstOf (W (Proc.devRef .tc main_arg1)) := by
  after_results
  rfl
set_option maxHeartbeats 8000000 in
theorem h0_v13 (W : Valuation τ sig (Elt Ideal)) :
    StableHlo.after (hostOps0 (F := Ideal)) W (Proc.devRef .tc main_v13) = aggOf (srcOf (W (Proc.devRef .tc main_arg1))) (dstOf (W (Proc.devRef .tc main_arg1))) (W (Proc.devRef .tc main_arg0)) := by
  after_results
  rfl
theorem k0_arg0 (W : Valuation τ sig (Elt Ideal)) :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 8000000 in
theorem h0_v15 (W : Valuation τ sig (Elt Ideal)) :
    StableHlo.after (hostOps0 (F := Ideal)) W (Proc.devRef .tc main_v15) = shapeCast S64x64 (extractStridedSlice S1x64x64 ![0, 0, 0] (W (Proc.devRef .tc main_arg3)) slices_S3x64x64_S1x64x64_0_0_0) shapeCasts_S1x64x64_S64x64 := by
  after_results
  rfl
set_option maxHeartbeats 8000000 in
theorem h0_v38 (W : Valuation τ sig (Elt Ideal)) :
    StableHlo.after (hostOps0 (F := Ideal)) W (Proc.devRef .tc main_v38) = shapeCast S1x64 (shapeCast S64 (extractStridedSlice S1x64 ![0, 0] (W (Proc.devRef .tc main_arg4)) slices_S3x64_S1x64_0_0) shapeCasts_S1x64_S64) shapeCasts_S64_S1x64 := by
  after_results
  rfl
set_option maxHeartbeats 8000000 in
theorem h0_v39 (W : Valuation τ sig (Elt Ideal)) :
    StableHlo.after (hostOps0 (F := Ideal)) W (Proc.devRef .tc main_v39) = shapeCast S1x64 (shapeCast S64 (extractStridedSlice S1x64 ![0, 0] (W (Proc.devRef .tc main_arg5)) slices_S3x64_S1x64_0_0) shapeCasts_S1x64_S64) shapeCasts_S64_S1x64 := by
  after_results
  rfl
set_option maxHeartbeats 8000000 in
theorem h0_v40 (W : Valuation τ sig (Elt Ideal)) :
    StableHlo.after (hostOps0 (F := Ideal)) W (Proc.devRef .tc main_v40) = shapeCast S1x64 (shapeCast S64 (extractStridedSlice S1x64 ![0, 0] (W (Proc.devRef .tc main_arg6)) slices_S3x64_S1x64_0_0) shapeCasts_S1x64_S64) shapeCasts_S64_S1x64 := by
  after_results
  rfl
set_option maxHeartbeats 8000000 in
theorem h0_v41 (W : Valuation τ sig (Elt Ideal)) :
    StableHlo.after (hostOps0 (F := Ideal)) W (Proc.devRef .tc main_v41) = shapeCast S1x64 (shapeCast S64 (extractStridedSlice S1x64 ![0, 0] (W (Proc.devRef .tc main_arg7)) slices_S3x64_S1x64_0_0) shapeCasts_S1x64_S64) shapeCasts_S64_S1x64 := by
  after_results
  rfl
set_option maxHeartbeats 8000000 in
theorem h0_v42 (W : Valuation τ sig (Elt Ideal)) :
    StableHlo.after (hostOps0 (F := Ideal)) W (Proc.devRef .tc main_v42) = shapeCast S1x64 (shapeCast S64 (extractStridedSlice S1x64 ![0, 0] (W (Proc.devRef .tc main_arg8)) slices_S3x64_S1x64_0_0) shapeCasts_S1x64_S64) shapeCasts_S64_S1x64 := by
  after_results
  rfl
set_option maxHeartbeats 8000000 in
theorem h0_v27 (W : Valuation τ sig (Elt Ideal)) :
    StableHlo.after (hostOps0 (F := Ideal)) W (Proc.devRef .tc main_v27) = shapeCast S64x64 (extractStridedSlice S1x64x64 ![0, 0, 0] (W (Proc.devRef .tc main_arg9)) slices_S3x64x64_S1x64x64_0_0_0) shapeCasts_S1x64x64_S64x64 := by
  after_results
  rfl
set_option maxHeartbeats 8000000 in
theorem h0_v43 (W : Valuation τ sig (Elt Ideal)) :
    StableHlo.after (hostOps0 (F := Ideal)) W (Proc.devRef .tc main_v43) = shapeCast S1x64 (shapeCast S64 (extractStridedSlice S1x64 ![0, 0] (W (Proc.devRef .tc main_arg10)) slices_S3x64_S1x64_0_0) shapeCasts_S1x64_S64) shapeCasts_S64_S1x64 := by
  after_results
  rfl
set_option maxHeartbeats 8000000 in
theorem h0_v44 (W : Valuation τ sig (Elt Ideal)) :
    StableHlo.after (hostOps0 (F := Ideal)) W (Proc.devRef .tc main_v44) = shapeCast S1x64 (shapeCast S64 (extractStridedSlice S1x64 ![0, 0] (W (Proc.devRef .tc main_arg11)) slices_S3x64_S1x64_0_0) shapeCasts_S1x64_S64) shapeCasts_S64_S1x64 := by
  after_results
  rfl
set_option maxHeartbeats 8000000 in
theorem h0_v45 (W : Valuation τ sig (Elt Ideal)) :
    StableHlo.after (hostOps0 (F := Ideal)) W (Proc.devRef .tc main_v45) = shapeCast S1x64 (shapeCast S64 (extractStridedSlice S1x64 ![0, 0] (W (Proc.devRef .tc main_arg12)) slices_S3x64_S1x64_0_0) shapeCasts_S1x64_S64) shapeCasts_S64_S1x64 := by
  after_results
  rfl
set_option maxHeartbeats 8000000 in
theorem h0_v46 (W : Valuation τ sig (Elt Ideal)) :
    StableHlo.after (hostOps0 (F := Ideal)) W (Proc.devRef .tc main_v46) = shapeCast S1x64 (shapeCast S64 (extractStridedSlice S1x64 ![0, 0] (W (Proc.devRef .tc main_arg13)) slices_S3x64_S1x64_0_0) shapeCasts_S1x64_S64) shapeCasts_S64_S1x64 := by
  after_results
  rfl
set_option maxHeartbeats 8000000 in
theorem h0_v47 (W : Valuation τ sig (Elt Ideal)) :
    StableHlo.after (hostOps0 (F := Ideal)) W (Proc.devRef .tc main_v47) = shapeCast S1x64 (shapeCast S64 (extractStridedSlice S1x64 ![0, 0] (W (Proc.devRef .tc main_arg14)) slices_S3x64_S1x64_0_0) shapeCasts_S1x64_S64) shapeCasts_S64_S1x64 := by
  after_results
  rfl
theorem k0_arg3 (W : Valuation τ sig (Elt Ideal)) :
    StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg4 (W : Valuation τ sig (Elt Ideal)) :
    StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg5 (W : Valuation τ sig (Elt Ideal)) :
    StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg6 (W : Valuation τ sig (Elt Ideal)) :
    StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg7 (W : Valuation τ sig (Elt Ideal)) :
    StableHlo.after (hostOps0 (F := Ideal)) W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg8 (W : Valuation τ sig (Elt Ideal)) :
    StableHlo.after (hostOps0 (F := Ideal)) W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg9 (W : Valuation τ sig (Elt Ideal)) :
    StableHlo.after (hostOps0 (F := Ideal)) W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg10 (W : Valuation τ sig (Elt Ideal)) :
    StableHlo.after (hostOps0 (F := Ideal)) W (Proc.devRef .tc main_arg10) = W (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg11 (W : Valuation τ sig (Elt Ideal)) :
    StableHlo.after (hostOps0 (F := Ideal)) W (Proc.devRef .tc main_arg11) = W (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg12 (W : Valuation τ sig (Elt Ideal)) :
    StableHlo.after (hostOps0 (F := Ideal)) W (Proc.devRef .tc main_arg12) = W (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg13 (W : Valuation τ sig (Elt Ideal)) :
    StableHlo.after (hostOps0 (F := Ideal)) W (Proc.devRef .tc main_arg13) = W (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg14 (W : Valuation τ sig (Elt Ideal)) :
    StableHlo.after (hostOps0 (F := Ideal)) W (Proc.devRef .tc main_arg14) = W (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg2 (W : Valuation τ sig (Elt Ideal)) :
    StableHlo.after (hostOps0 (F := Ideal)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg15 (W : Valuation τ sig (Elt Ideal)) :
    StableHlo.after (hostOps0 (F := Ideal)) W (Proc.devRef .tc main_arg15) = W (Proc.devRef .tc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg16 (W : Valuation τ sig (Elt Ideal)) :
    StableHlo.after (hostOps0 (F := Ideal)) W (Proc.devRef .tc main_arg16) = W (Proc.devRef .tc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k0_arg1 (W : Valuation τ sig (Elt Ideal)) :
    StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Glue

end
-- ==== Proof.Host1.lean ====
/-
  What the host operations before layer kernel 1 leave in the buffers the kernel reads, as terms of the contents
  they start from: the neighbour sums, and member 1 of each parameter stack as a matrix or as a one-row matrix.
-/
import proofs.«181532_j16295105921239_1_alg».proof.Proof.HostTerms

set_option maxRecDepth 16384

noncomputable section

namespace Cert.KernelIdeal.Glue

open Idealize.ShloMosaic Idealize.ShloMosaic.TcCoe Idealize.SL.Sem Idealize.ShloMosaic.StableHlo Cert.KernelIdeal Cert.KernelIdeal.Gen

set_option maxHeartbeats 8000000 in
theorem h1_v58 (W : Valuation τ sig (Elt Ideal)) :
    StableHlo.after (hostOps1 (F := Ideal)) W (Proc.devRef .tc main_v58) = aggOf (W (Proc.devRef .tc main_v1)) (W (Proc.devRef .tc main_v3)) (W (Proc.devRef .tc main_v48)) := by
  after_results
  rfl
theorem k1_v48 (W : Valuation τ sig (Elt Ideal)) :
    StableHlo.after (hostOps1 (F := Ideal)) W (Proc.devRef .tc main_v48) = W (Proc.devRef .tc main_v48) :=
  StableHlo.after_of_forall_not_mem (b := Proc.devRef .tc main_v48) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_v1 (W : Valuation τ sig (Elt Ideal)) :
    StableHlo.after (hostOps1 (F := Ideal)) W (Proc.devRef .tc main_v1) = W (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_v3 (W : Valuation τ sig (Elt Ideal)) :
    StableHlo.after (hostOps1 (F := Ideal)) W (Proc.devRef .tc main_v3) = W (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 8000000 in
theorem h1_v60 (W : Valuation τ sig (Elt Ideal)) :
    StableHlo.after (hostOps1 (F := Ideal)) W (Proc.devRef .tc main_v60) = shapeCast S64x64 (extractStridedSlice S1x64x64 ![1, 0, 0] (W (Proc.devRef .tc main_arg3)) slices_S3x64x64_S1x64x64_1_0_0) shapeCasts_S1x64x64_S64x64 := by
  after_results
  rfl
set_option maxHeartbeats 8000000 in
theorem h1_v83 (W : Valuation τ sig (Elt Ideal)) :
    StableHlo.after (hostOps1 (F := Ideal)) W (Proc.devRef .tc main_v83) = shapeCast S1x64 (shapeCast S64 (extractStridedSlice S1x64 ![1, 0] (W (Proc.devRef .tc main_arg4)) slices_S3x64_S1x64_1_0) shapeCasts_S1x64_S64) shapeCasts_S64_S1x64 := by
  after_results
  rfl
set_option maxHeartbeats 8000000 in
theorem h1_v84 (W : Valuation τ sig (Elt Ideal)) :
    StableHlo.after (hostOps1 (F := Ideal)) W (Proc.devRef .tc main_v84) = shapeCast S1x64 (shapeCast S64 (extractStridedSlice S1x64 ![1, 0] (W (Proc.devRef .tc main_arg5)) slices_S3x64_S1x64_1_0) shapeCasts_S1x64_S64) shapeCasts_S64_S1x64 := by
  after_results
  rfl
set_option maxHeartbeats 8000000 in
theorem h1_v85 (W : Valuation τ sig (Elt Ideal)) :
    StableHlo.after (hostOps1 (F := Ideal)) W (Proc.devRef .tc main_v85) = shapeCast S1x64 (shapeCast S64 (extractStridedSlice S1x64 ![1, 0] (W (Proc.devRef .tc main_arg6)) slices_S3x64_S1x64_1_0) shapeCasts_S1x64_S64) shapeCasts_S64_S1x64 := by
  after_results
  rfl
set_option maxHeartbeats 8000000 in
theorem h1_v86 (W : Valuation τ sig (Elt Ideal)) :
    StableHlo.after (hostOps1 (F := Ideal)) W (Proc.devRef .tc main_v86) = shapeCast S1x64 (shapeCast S64 (extractStridedSlice S1x64 ![1, 0] (W (Proc.devRef .tc main_arg7)) slices_S3x64_S1x64_1_0) shapeCasts_S1x64_S64) shapeCasts_S64_S1x64 := by
  after_results
  rfl
set_option maxHeartbeats 8000000 in
theorem h1_v87 (W : Valuation τ sig (Elt Ideal)) :
    StableHlo.after (hostOps1 (F := Ideal)) W (Proc.devRef .tc main_v87) = shapeCast S1x64 (shapeCast S64 (extractStridedSlice S1x64 ![1, 0] (W (Proc.devRef .tc main_arg8)) slices_S3x64_S1x64_1_0) shapeCasts_S1x64_S64) shapeCasts_S64_S1x64 := by
  after_results
  rfl
set_option maxHeartbeats 8000000 in
theorem h1_v72 (W : Valuation τ sig (Elt Ideal)) :
    StableHlo.after (hostOps1 (F := Ideal)) W (Proc.devRef .tc main_v72) = shapeCast S64x64 (extractStridedSlice S1x64x64 ![1, 0, 0] (W (Proc.devRef .tc main_arg9)) slices_S3x64x64_S1x64x64_1_0_0) shapeCasts_S1x64x64_S64x64 := by
  after_results
  rfl
set_option maxHeartbeats 8000000 in
theorem h1_v88 (W : Valuation τ sig (Elt Ideal)) :
    StableHlo.after (hostOps1 (F := Ideal)) W (Proc.devRef .tc main_v88) = shapeCast S1x64 (shapeCast S64 (extractStridedSlice S1x64 ![1, 0] (W (Proc.devRef .tc main_arg10)) slices_S3x64_S1x64_1_0) shapeCasts_S1x64_S64) shapeCasts_S64_S1x64 := by
  after_results
  rfl
set_option maxHeartbeats 8000000 in
theorem h1_v89 (W : Valuation τ sig (Elt Ideal)) :
    StableHlo.after (hostOps1 (F := Ideal)) W (Proc.devRef .tc main_v89) = shapeCast S1x64 (shapeCast S64 (extractStridedSlice S1x64 ![1, 0] (W (Proc.devRef .tc main_arg11)) slices_S3x64_S1x64_1_0) shapeCasts_S1x64_S64) shapeCasts_S64_S1x64 := by
  after_results
  rfl
set_option maxHeartbeats 8000000 in
theorem h1_v90 (W : Valuation τ sig (Elt Ideal)) :
    StableHlo.after (hostOps1 (F := Ideal)) W (Proc.devRef .tc main_v90) = shapeCast S1x64 (shapeCast S64 (extractStridedSlice S1x64 ![1, 0] (W (Proc.devRef .tc main_arg12)) slices_S3x64_S1x64_1_0) shapeCasts_S1x64_S64) shapeCasts_S64_S1x64 := by
  after_results
  rfl
set_option maxHeartbeats 8000000 in
theorem h1_v91 (W : Valuation τ sig (Elt Ideal)) :
    StableHlo.after (hostOps1 (F := Ideal)) W (Proc.devRef .tc main_v91) = shapeCast S1x64 (shapeCast S64 (extractStridedSlice S1x64 ![1, 0] (W (Proc.devRef .tc main_arg13)) slices_S3x64_S1x64_1_0) shapeCasts_S1x64_S64) shapeCasts_S64_S1x64 := by
  after_results
  rfl
set_option maxHeartbeats 8000000 in
theorem h1_v92 (W : Valuation τ sig (Elt Ideal)) :
    StableHlo.after (hostOps1 (F := Ideal)) W (Proc.devRef .tc main_v92) = shapeCast S1x64 (shapeCast S64 (extractStridedSlice S1x64 ![1, 0] (W (Proc.devRef .tc main_arg14)) slices_S3x64_S1x64_1_0) shapeCasts_S1x64_S64) shapeCasts_S64_S1x64 := by
  after_results
  rfl
theorem k1_arg3 (W : Valuation τ sig (Elt Ideal)) :
    StableHlo.after (hostOps1 (F := Ideal)) W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg4 (W : Valuation τ sig (Elt Ideal)) :
    StableHlo.after (hostOps1 (F := Ideal)) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg5 (W : Valuation τ sig (Elt Ideal)) :
    StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg6 (W : Valuation τ sig (Elt Ideal)) :
    StableHlo.after (hostOps1 (F := Ideal)) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg7 (W : Valuation τ sig (Elt Ideal)) :
    StableHlo.after (hostOps1 (F := Ideal)) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg8 (W : Valuation τ sig (Elt Ideal)) :
    StableHlo.after (hostOps1 (F := Ideal)) W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg9 (W : Valuation τ sig (Elt Ideal)) :
    StableHlo.after (hostOps1 (F := Ideal)) W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg10 (W : Valuation τ sig (Elt Ideal)) :
    StableHlo.after (hostOps1 (F := Ideal)) W (Proc.devRef .tc main_arg10) = W (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg11 (W : Valuation τ sig (Elt Ideal)) :
    StableHlo.after (hostOps1 (F := Ideal)) W (Proc.devRef .tc main_arg11) = W (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg12 (W : Valuation τ sig (Elt Ideal)) :
    StableHlo.after (hostOps1 (F := Ideal)) W (Proc.devRef .tc main_arg12) = W (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg13 (W : Valuation τ sig (Elt Ideal)) :
    StableHlo.after (hostOps1 (F := Ideal)) W (Proc.devRef .tc main_arg13) = W (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg14 (W : Valuation τ sig (Elt Ideal)) :
    StableHlo.after (hostOps1 (F := Ideal)) W (Proc.devRef .tc main_arg14) = W (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg2 (W : Valuation τ sig (Elt Ideal)) :
    StableHlo.after (hostOps1 (F := Ideal)) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg15 (W : Valuation τ sig (Elt Ideal)) :
    StableHlo.after (hostOps1 (F := Ideal)) W (Proc.devRef .tc main_arg15) = W (Proc.devRef .tc main_arg15) :=
  StableHlo.after_of_forall_not_mem (b := Proc.devRef .tc main_arg15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k1_arg16 (W : Valuation τ sig (Elt Ideal)) :
    StableHlo.after (hostOps1 (F := Ideal)) W (Proc.devRef .tc main_arg16) = W (Proc.devRef .tc main_arg16) :=
  StableHlo.after_of_forall_not_mem (b := Proc.devRef .tc main_arg16) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Glue

end
-- ==== Proof.Host2.lean ====
/-
  What the host operations before layer kernel 2 leave in the buffers the kernel reads, as terms of the contents
  they start from: the neighbour sums, and member 2 of each parameter stack as a matrix or as a one-row matrix.
-/
import proofs.«181532_j16295105921239_1_alg».proof.Proof.HostTerms

set_option maxRecDepth 16384

noncomputable section

namespace Cert.KernelIdeal.Glue

open Idealize.ShloMosaic Idealize.ShloMosaic.TcCoe Idealize.SL.Sem Idealize.ShloMosaic.StableHlo Cert.KernelIdeal Cert.KernelIdeal.Gen

set_option maxHeartbeats 8000000 in
theorem h2_v103 (W : Valuation τ sig (Elt Ideal)) :
    StableHlo.after (hostOps2 (F := Ideal)) W (Proc.devRef .tc main_v103) = aggOf (W (Proc.devRef .tc main_v1)) (W (Proc.devRef .tc main_v3)) (W (Proc.devRef .tc main_v93)) := by
  after_results
  rfl
theorem k2_v93 (W : Valuation τ sig (Elt Ideal)) :
    StableHlo.after (hostOps2 (F := Ideal)) W (Proc.devRef .tc main_v93) = W (Proc.devRef .tc main_v93) :=
  StableHlo.after_of_forall_not_mem (b := Proc.devRef .tc main_v93) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_v1 (W : Valuation τ sig (Elt Ideal)) :
    StableHlo.after (hostOps2 (F := Ideal)) W (Proc.devRef .tc main_v1) = W (Proc.devRef .tc main_v1) :=
  StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_v3 (W : Valuation τ sig (Elt Ideal)) :
    StableHlo.after (hostOps2 (F := Ideal)) W (Proc.devRef .tc main_v3) = W (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 8000000 in
theorem h2_v105 (W : Valuation τ sig (Elt Ideal)) :
    StableHlo.after (hostOps2 (F := Ideal)) W (Proc.devRef .tc main_v105) = shapeCast S64x64 (extractStridedSlice S1x64x64 ![2, 0, 0] (W (Proc.devRef .tc main_arg3)) slices_S3x64x64_S1x64x64_2_0_0) shapeCasts_S1x64x64_S64x64 := by
  after_results
  rfl
set_option maxHeartbeats 8000000 in
theorem h2_v128 (W : Valuation τ sig (Elt Ideal)) :
    StableHlo.after (hostOps2 (F := Ideal)) W (Proc.devRef .tc main_v128) = shapeCast S1x64 (shapeCast S64 (extractStridedSlice S1x64 ![2, 0] (W (Proc.devRef .tc main_arg4)) slices_S3x64_S1x64_2_0) shapeCasts_S1x64_S64) shapeCasts_S64_S1x64 := by
  after_results
  rfl
set_option maxHeartbeats 8000000 in
theorem h2_v129 (W : Valuation τ sig (Elt Ideal)) :
    StableHlo.after (hostOps2 (F := Ideal)) W (Proc.devRef .tc main_v129) = shapeCast S1x64 (shapeCast S64 (extractStridedSlice S1x64 ![2, 0] (W (Proc.devRef .tc main_arg5)) slices_S3x64_S1x64_2_0) shapeCasts_S1x64_S64) shapeCasts_S64_S1x64 := by
  after_results
  rfl
set_option maxHeartbeats 8000000 in
theorem h2_v130 (W : Valuation τ sig (Elt Ideal)) :
    StableHlo.after (hostOps2 (F := Ideal)) W (Proc.devRef .tc main_v130) = shapeCast S1x64 (shapeCast S64 (extractStridedSlice S1x64 ![2, 0] (W (Proc.devRef .tc main_arg6)) slices_S3x64_S1x64_2_0) shapeCasts_S1x64_S64) shapeCasts_S64_S1x64 := by
  after_results
  rfl
set_option maxHeartbeats 8000000 in
theorem h2_v131 (W : Valuation τ sig (Elt Ideal)) :
    StableHlo.after (hostOps2 (F := Ideal)) W (Proc.devRef .tc main_v131) = shapeCast S1x64 (shapeCast S64 (extractStridedSlice S1x64 ![2, 0] (W (Proc.devRef .tc main_arg7)) slices_S3x64_S1x64_2_0) shapeCasts_S1x64_S64) shapeCasts_S64_S1x64 := by
  after_results
  rfl
set_option maxHeartbeats 8000000 in
theorem h2_v132 (W : Valuation τ sig (Elt Ideal)) :
    StableHlo.after (hostOps2 (F := Ideal)) W (Proc.devRef .tc main_v132) = shapeCast S1x64 (shapeCast S64 (extractStridedSlice S1x64 ![2, 0] (W (Proc.devRef .tc main_arg8)) slices_S3x64_S1x64_2_0) shapeCasts_S1x64_S64) shapeCasts_S64_S1x64 := by
  after_results
  rfl
set_option maxHeartbeats 8000000 in
theorem h2_v117 (W : Valuation τ sig (Elt Ideal)) :
    StableHlo.after (hostOps2 (F := Ideal)) W (Proc.devRef .tc main_v117) = shapeCast S64x64 (extractStridedSlice S1x64x64 ![2, 0, 0] (W (Proc.devRef .tc main_arg9)) slices_S3x64x64_S1x64x64_2_0_0) shapeCasts_S1x64x64_S64x64 := by
  after_results
  rfl
set_option maxHeartbeats 8000000 in
theorem h2_v133 (W : Valuation τ sig (Elt Ideal)) :
    StableHlo.after (hostOps2 (F := Ideal)) W (Proc.devRef .tc main_v133) = shapeCast S1x64 (shapeCast S64 (extractStridedSlice S1x64 ![2, 0] (W (Proc.devRef .tc main_arg10)) slices_S3x64_S1x64_2_0) shapeCasts_S1x64_S64) shapeCasts_S64_S1x64 := by
  after_results
  rfl
set_option maxHeartbeats 8000000 in
theorem h2_v134 (W : Valuation τ sig (Elt Ideal)) :
    StableHlo.after (hostOps2 (F := Ideal)) W (Proc.devRef .tc main_v134) = shapeCast S1x64 (shapeCast S64 (extractStridedSlice S1x64 ![2, 0] (W (Proc.devRef .tc main_arg11)) slices_S3x64_S1x64_2_0) shapeCasts_S1x64_S64) shapeCasts_S64_S1x64 := by
  after_results
  rfl
set_option maxHeartbeats 8000000 in
theorem h2_v135 (W : Valuation τ sig (Elt Ideal)) :
    StableHlo.after (hostOps2 (F := Ideal)) W (Proc.devRef .tc main_v135) = shapeCast S1x64 (shapeCast S64 (extractStridedSlice S1x64 ![2, 0] (W (Proc.devRef .tc main_arg12)) slices_S3x64_S1x64_2_0) shapeCasts_S1x64_S64) shapeCasts_S64_S1x64 := by
  after_results
  rfl
set_option maxHeartbeats 8000000 in
theorem h2_v136 (W : Valuation τ sig (Elt Ideal)) :
    StableHlo.after (hostOps2 (F := Ideal)) W (Proc.devRef .tc main_v136) = shapeCast S1x64 (shapeCast S64 (extractStridedSlice S1x64 ![2, 0] (W (Proc.devRef .tc main_arg13)) slices_S3x64_S1x64_2_0) shapeCasts_S1x64_S64) shapeCasts_S64_S1x64 := by
  after_results
  rfl
set_option maxHeartbeats 8000000 in
theorem h2_v137 (W : Valuation τ sig (Elt Ideal)) :
    StableHlo.after (hostOps2 (F := Ideal)) W (Proc.devRef .tc main_v137) = shapeCast S1x64 (shapeCast S64 (extractStridedSlice S1x64 ![2, 0] (W (Proc.devRef .tc main_arg14)) slices_S3x64_S1x64_2_0) shapeCasts_S1x64_S64) shapeCasts_S64_S1x64 := by
  after_results
  rfl
theorem k2_arg3 (W : Valuation τ sig (Elt Ideal)) :
    StableHlo.after (hostOps2 (F := Ideal)) W (Proc.devRef .tc main_arg3) = W (Proc.devRef .tc main_arg3) :=
  StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg4 (W : Valuation τ sig (Elt Ideal)) :
    StableHlo.after (hostOps2 (F := Ideal)) W (Proc.devRef .tc main_arg4) = W (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg5 (W : Valuation τ sig (Elt Ideal)) :
    StableHlo.after (hostOps2 (F := Ideal)) W (Proc.devRef .tc main_arg5) = W (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg6 (W : Valuation τ sig (Elt Ideal)) :
    StableHlo.after (hostOps2 (F := Ideal)) W (Proc.devRef .tc main_arg6) = W (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg7 (W : Valuation τ sig (Elt Ideal)) :
    StableHlo.after (hostOps2 (F := Ideal)) W (Proc.devRef .tc main_arg7) = W (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg8 (W : Valuation τ sig (Elt Ideal)) :
    StableHlo.after (hostOps2 (F := Ideal)) W (Proc.devRef .tc main_arg8) = W (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg9 (W : Valuation τ sig (Elt Ideal)) :
    StableHlo.after (hostOps2 (F := Ideal)) W (Proc.devRef .tc main_arg9) = W (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg10 (W : Valuation τ sig (Elt Ideal)) :
    StableHlo.after (hostOps2 (F := Ideal)) W (Proc.devRef .tc main_arg10) = W (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg11 (W : Valuation τ sig (Elt Ideal)) :
    StableHlo.after (hostOps2 (F := Ideal)) W (Proc.devRef .tc main_arg11) = W (Proc.devRef .tc main_arg11) :=
  StableHlo.after_of_forall_not_mem (b := Proc.devRef .tc main_arg11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg12 (W : Valuation τ sig (Elt Ideal)) :
    StableHlo.after (hostOps2 (F := Ideal)) W (Proc.devRef .tc main_arg12) = W (Proc.devRef .tc main_arg12) :=
  StableHlo.after_of_forall_not_mem (b := Proc.devRef .tc main_arg12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg13 (W : Valuation τ sig (Elt Ideal)) :
    StableHlo.after (hostOps2 (F := Ideal)) W (Proc.devRef .tc main_arg13) = W (Proc.devRef .tc main_arg13) :=
  StableHlo.after_of_forall_not_mem (b := Proc.devRef .tc main_arg13) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg14 (W : Valuation τ sig (Elt Ideal)) :
    StableHlo.after (hostOps2 (F := Ideal)) W (Proc.devRef .tc main_arg14) = W (Proc.devRef .tc main_arg14) :=
  StableHlo.after_of_forall_not_mem (b := Proc.devRef .tc main_arg14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg2 (W : Valuation τ sig (Elt Ideal)) :
    StableHlo.after (hostOps2 (F := Ideal)) W (Proc.devRef .tc main_arg2) = W (Proc.devRef .tc main_arg2) :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg15 (W : Valuation τ sig (Elt Ideal)) :
    StableHlo.after (hostOps2 (F := Ideal)) W (Proc.devRef .tc main_arg15) = W (Proc.devRef .tc main_arg15) :=
  StableHlo.after_of_forall_not_mem (b := Proc.devRef .tc main_arg15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem k2_arg16 (W : Valuation τ sig (Elt Ideal)) :
    StableHlo.after (hostOps2 (F := Ideal)) W (Proc.devRef .tc main_arg16) = W (Proc.devRef .tc main_arg16) :=
  StableHlo.after_of_forall_not_mem (b := Proc.devRef .tc main_arg16) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Glue

end
-- ==== Proof.Walk.lean ====
/-
  The buffers the later host operations and kernels read, walked back through the fold of the buffer contents:
  no host operation and no kernel region writes an argument array, the source or target node vectors, or (outside its
  own region) a layer's output, so at every segment boundary these hold what they held when first computed.
-/
import proofs.«181532_j16295105921239_1_alg».proof.Proof.Gen.KernelIdeal.Frame
import proofs.«181532_j16295105921239_1_alg».proof.Proof.Host0
import proofs.«181532_j16295105921239_1_alg».proof.Proof.Host1
import proofs.«181532_j16295105921239_1_alg».proof.Proof.Host2

set_option maxRecDepth 16384

noncomputable section

namespace Cert.KernelIdeal.Net

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

theorem a2_arg3 : W2 m ρ c (Proc.devRef .tc main_arg3) = (m ((c : Thread nD τ).loc main_arg3)) :=
  (W2_of_ne m ρ c main_arg3 (by decide)).trans (Glue.k0_arg3 (W0 m ρ c))
theorem a4_arg3 : W4 m ρ c (Proc.devRef .tc main_arg3) = (m ((c : Thread nD τ).loc main_arg3)) :=
  (W4_of_ne m ρ c main_arg3 (by decide)).trans ((Glue.k1_arg3 (W2 m ρ c)).trans (a2_arg3 m ρ c))
theorem a6_arg3 : W6 m ρ c (Proc.devRef .tc main_arg3) = (m ((c : Thread nD τ).loc main_arg3)) :=
  (W6_of_ne m ρ c main_arg3 (by decide)).trans ((Glue.k2_arg3 (W4 m ρ c)).trans (a4_arg3 m ρ c))
theorem a2_arg4 : W2 m ρ c (Proc.devRef .tc main_arg4) = (m ((c : Thread nD τ).loc main_arg4)) :=
  (W2_of_ne m ρ c main_arg4 (by decide)).trans (Glue.k0_arg4 (W0 m ρ c))
theorem a4_arg4 : W4 m ρ c (Proc.devRef .tc main_arg4) = (m ((c : Thread nD τ).loc main_arg4)) :=
  (W4_of_ne m ρ c main_arg4 (by decide)).trans ((Glue.k1_arg4 (W2 m ρ c)).trans (a2_arg4 m ρ c))
theorem a6_arg4 : W6 m ρ c (Proc.devRef .tc main_arg4) = (m ((c : Thread nD τ).loc main_arg4)) :=
  (W6_of_ne m ρ c main_arg4 (by decide)).trans ((Glue.k2_arg4 (W4 m ρ c)).trans (a4_arg4 m ρ c))
theorem a2_arg5 : W2 m ρ c (Proc.devRef .tc main_arg5) = (m ((c : Thread nD τ).loc main_arg5)) :=
  (W2_of_ne m ρ c main_arg5 (by decide)).trans (Glue.k0_arg5 (W0 m ρ c))
theorem a4_arg5 : W4 m ρ c (Proc.devRef .tc main_arg5) = (m ((c : Thread nD τ).loc main_arg5)) :=
  (W4_of_ne m ρ c main_arg5 (by decide)).trans ((Glue.k1_arg5 (W2 m ρ c)).trans (a2_arg5 m ρ c))
theorem a6_arg5 : W6 m ρ c (Proc.devRef .tc main_arg5) = (m ((c : Thread nD τ).loc main_arg5)) :=
  (W6_of_ne m ρ c main_arg5 (by decide)).trans ((Glue.k2_arg5 (W4 m ρ c)).trans (a4_arg5 m ρ c))
theorem a2_arg6 : W2 m ρ c (Proc.devRef .tc main_arg6) = (m ((c : Thread nD τ).loc main_arg6)) :=
  (W2_of_ne m ρ c main_arg6 (by decide)).trans (Glue.k0_arg6 (W0 m ρ c))
theorem a4_arg6 : W4 m ρ c (Proc.devRef .tc main_arg6) = (m ((c : Thread nD τ).loc main_arg6)) :=
  (W4_of_ne m ρ c main_arg6 (by decide)).trans ((Glue.k1_arg6 (W2 m ρ c)).trans (a2_arg6 m ρ c))
theorem a6_arg6 : W6 m ρ c (Proc.devRef .tc main_arg6) = (m ((c : Thread nD τ).loc main_arg6)) :=
  (W6_of_ne m ρ c main_arg6 (by decide)).trans ((Glue.k2_arg6 (W4 m ρ c)).trans (a4_arg6 m ρ c))
theorem a2_arg7 : W2 m ρ c (Proc.devRef .tc main_arg7) = (m ((c : Thread nD τ).loc main_arg7)) :=
  (W2_of_ne m ρ c main_arg7 (by decide)).trans (Glue.k0_arg7 (W0 m ρ c))
theorem a4_arg7 : W4 m ρ c (Proc.devRef .tc main_arg7) = (m ((c : Thread nD τ).loc main_arg7)) :=
  (W4_of_ne m ρ c main_arg7 (by decide)).trans ((Glue.k1_arg7 (W2 m ρ c)).trans (a2_arg7 m ρ c))
theorem a6_arg7 : W6 m ρ c (Proc.devRef .tc main_arg7) = (m ((c : Thread nD τ).loc main_arg7)) :=
  (W6_of_ne m ρ c main_arg7 (by decide)).trans ((Glue.k2_arg7 (W4 m ρ c)).trans (a4_arg7 m ρ c))
theorem a2_arg8 : W2 m ρ c (Proc.devRef .tc main_arg8) = (m ((c : Thread nD τ).loc main_arg8)) :=
  (W2_of_ne m ρ c main_arg8 (by decide)).trans (Glue.k0_arg8 (W0 m ρ c))
theorem a4_arg8 : W4 m ρ c (Proc.devRef .tc main_arg8) = (m ((c : Thread nD τ).loc main_arg8)) :=
  (W4_of_ne m ρ c main_arg8 (by decide)).trans ((Glue.k1_arg8 (W2 m ρ c)).trans (a2_arg8 m ρ c))
theorem a6_arg8 : W6 m ρ c (Proc.devRef .tc main_arg8) = (m ((c : Thread nD τ).loc main_arg8)) :=
  (W6_of_ne m ρ c main_arg8 (by decide)).trans ((Glue.k2_arg8 (W4 m ρ c)).trans (a4_arg8 m ρ c))
theorem a2_arg9 : W2 m ρ c (Proc.devRef .tc main_arg9) = (m ((c : Thread nD τ).loc main_arg9)) :=
  (W2_of_ne m ρ c main_arg9 (by decide)).trans (Glue.k0_arg9 (W0 m ρ c))
theorem a4_arg9 : W4 m ρ c (Proc.devRef .tc main_arg9) = (m ((c : Thread nD τ).loc main_arg9)) :=
  (W4_of_ne m ρ c main_arg9 (by decide)).trans ((Glue.k1_arg9 (W2 m ρ c)).trans (a2_arg9 m ρ c))
theorem a6_arg9 : W6 m ρ c (Proc.devRef .tc main_arg9) = (m ((c : Thread nD τ).loc main_arg9)) :=
  (W6_of_ne m ρ c main_arg9 (by decide)).trans ((Glue.k2_arg9 (W4 m ρ c)).trans (a4_arg9 m ρ c))
theorem a2_arg10 : W2 m ρ c (Proc.devRef .tc main_arg10) = (m ((c : Thread nD τ).loc main_arg10)) :=
  (W2_of_ne m ρ c main_arg10 (by decide)).trans (Glue.k0_arg10 (W0 m ρ c))
theorem a4_arg10 : W4 m ρ c (Proc.devRef .tc main_arg10) = (m ((c : Thread nD τ).loc main_arg10)) :=
  (W4_of_ne m ρ c main_arg10 (by decide)).trans ((Glue.k1_arg10 (W2 m ρ c)).trans (a2_arg10 m ρ c))
theorem a6_arg10 : W6 m ρ c (Proc.devRef .tc main_arg10) = (m ((c : Thread nD τ).loc main_arg10)) :=
  (W6_of_ne m ρ c main_arg10 (by decide)).trans ((Glue.k2_arg10 (W4 m ρ c)).trans (a4_arg10 m ρ c))
theorem a2_arg11 : W2 m ρ c (Proc.devRef .tc main_arg11) = (m ((c : Thread nD τ).loc main_arg11)) :=
  (W2_of_ne m ρ c main_arg11 (by decide)).trans (Glue.k0_arg11 (W0 m ρ c))
theorem a4_arg11 : W4 m ρ c (Proc.devRef .tc main_arg11) = (m ((c : Thread nD τ).loc main_arg11)) :=
  (W4_of_ne m ρ c main_arg11 (by decide)).trans ((Glue.k1_arg11 (W2 m ρ c)).trans (a2_arg11 m ρ c))
theorem a6_arg11 : W6 m ρ c (Proc.devRef .tc main_arg11) = (m ((c : Thread nD τ).loc main_arg11)) :=
  (W6_of_ne m ρ c main_arg11 (by decide)).trans ((Glue.k2_arg11 (W4 m ρ c)).trans (a4_arg11 m ρ c))
theorem a2_arg12 : W2 m ρ c (Proc.devRef .tc main_arg12) = (m ((c : Thread nD τ).loc main_arg12)) :=
  (W2_of_ne m ρ c main_arg12 (by decide)).trans (Glue.k0_arg12 (W0 m ρ c))
theorem a4_arg12 : W4 m ρ c (Proc.devRef .tc main_arg12) = (m ((c : Thread nD τ).loc main_arg12)) :=
  (W4_of_ne m ρ c main_arg12 (by decide)).trans ((Glue.k1_arg12 (W2 m ρ c)).trans (a2_arg12 m ρ c))
theorem a6_arg12 : W6 m ρ c (Proc.devRef .tc main_arg12) = (m ((c : Thread nD τ).loc main_arg12)) :=
  (W6_of_ne m ρ c main_arg12 (by decide)).trans ((Glue.k2_arg12 (W4 m ρ c)).trans (a4_arg12 m ρ c))
theorem a2_arg13 : W2 m ρ c (Proc.devRef .tc main_arg13) = (m ((c : Thread nD τ).loc main_arg13)) :=
  (W2_of_ne m ρ c main_arg13 (by decide)).trans (Glue.k0_arg13 (W0 m ρ c))
theorem a4_arg13 : W4 m ρ c (Proc.devRef .tc main_arg13) = (m ((c : Thread nD τ).loc main_arg13)) :=
  (W4_of_ne m ρ c main_arg13 (by decide)).trans ((Glue.k1_arg13 (W2 m ρ c)).trans (a2_arg13 m ρ c))
theorem a6_arg13 : W6 m ρ c (Proc.devRef .tc main_arg13) = (m ((c : Thread nD τ).loc main_arg13)) :=
  (W6_of_ne m ρ c main_arg13 (by decide)).trans ((Glue.k2_arg13 (W4 m ρ c)).trans (a4_arg13 m ρ c))
theorem a2_arg14 : W2 m ρ c (Proc.devRef .tc main_arg14) = (m ((c : Thread nD τ).loc main_arg14)) :=
  (W2_of_ne m ρ c main_arg14 (by decide)).trans (Glue.k0_arg14 (W0 m ρ c))
theorem a4_arg14 : W4 m ρ c (Proc.devRef .tc main_arg14) = (m ((c : Thread nD τ).loc main_arg14)) :=
  (W4_of_ne m ρ c main_arg14 (by decide)).trans ((Glue.k1_arg14 (W2 m ρ c)).trans (a2_arg14 m ρ c))
theorem a6_arg14 : W6 m ρ c (Proc.devRef .tc main_arg14) = (m ((c : Thread nD τ).loc main_arg14)) :=
  (W6_of_ne m ρ c main_arg14 (by decide)).trans ((Glue.k2_arg14 (W4 m ρ c)).trans (a4_arg14 m ρ c))
theorem a2_arg2 : W2 m ρ c (Proc.devRef .tc main_arg2) = (m ((c : Thread nD τ).loc main_arg2)) :=
  (W2_of_ne m ρ c main_arg2 (by decide)).trans (Glue.k0_arg2 (W0 m ρ c))
theorem a4_arg2 : W4 m ρ c (Proc.devRef .tc main_arg2) = (m ((c : Thread nD τ).loc main_arg2)) :=
  (W4_of_ne m ρ c main_arg2 (by decide)).trans ((Glue.k1_arg2 (W2 m ρ c)).trans (a2_arg2 m ρ c))
theorem a6_arg2 : W6 m ρ c (Proc.devRef .tc main_arg2) = (m ((c : Thread nD τ).loc main_arg2)) :=
  (W6_of_ne m ρ c main_arg2 (by decide)).trans ((Glue.k2_arg2 (W4 m ρ c)).trans (a4_arg2 m ρ c))
theorem a2_arg15 : W2 m ρ c (Proc.devRef .tc main_arg15) = (m ((c : Thread nD τ).loc main_arg15)) :=
  (W2_of_ne m ρ c main_arg15 (by decide)).trans (Glue.k0_arg15 (W0 m ρ c))
theorem a4_arg15 : W4 m ρ c (Proc.devRef .tc main_arg15) = (m ((c : Thread nD τ).loc main_arg15)) :=
  (W4_of_ne m ρ c main_arg15 (by decide)).trans ((Glue.k1_arg15 (W2 m ρ c)).trans (a2_arg15 m ρ c))
theorem a6_arg15 : W6 m ρ c (Proc.devRef .tc main_arg15) = (m ((c : Thread nD τ).loc main_arg15)) :=
  (W6_of_ne m ρ c main_arg15 (by decide)).trans ((Glue.k2_arg15 (W4 m ρ c)).trans (a4_arg15 m ρ c))
theorem a2_arg16 : W2 m ρ c (Proc.devRef .tc main_arg16) = (m ((c : Thread nD τ).loc main_arg16)) :=
  (W2_of_ne m ρ c main_arg16 (by decide)).trans (Glue.k0_arg16 (W0 m ρ c))
theorem a4_arg16 : W4 m ρ c (Proc.devRef .tc main_arg16) = (m ((c : Thread nD τ).loc main_arg16)) :=
  (W4_of_ne m ρ c main_arg16 (by decide)).trans ((Glue.k1_arg16 (W2 m ρ c)).trans (a2_arg16 m ρ c))
theorem a6_arg16 : W6 m ρ c (Proc.devRef .tc main_arg16) = (m ((c : Thread nD τ).loc main_arg16)) :=
  (W6_of_ne m ρ c main_arg16 (by decide)).trans ((Glue.k2_arg16 (W4 m ρ c)).trans (a4_arg16 m ρ c))

/-- The source node vector at the boundaries where it is read again. -/
theorem s2 : W2 m ρ c (Proc.devRef .tc main_v1) = Glue.srcOf (m ((c : Thread nD τ).loc main_arg1)) :=
  (W2_of_ne m ρ c main_v1 (by decide)).trans (Glue.h0_v1 (W0 m ρ c))
theorem s4 : W4 m ρ c (Proc.devRef .tc main_v1) = Glue.srcOf (m ((c : Thread nD τ).loc main_arg1)) :=
  (W4_of_ne m ρ c main_v1 (by decide)).trans ((Glue.k1_v1 (W2 m ρ c)).trans (s2 m ρ c))
/-- The target node vector likewise. -/
theorem d2 : W2 m ρ c (Proc.devRef .tc main_v3) = Glue.dstOf (m ((c : Thread nD τ).loc main_arg1)) :=
  (W2_of_ne m ρ c main_v3 (by decide)).trans (Glue.h0_v3 (W0 m ρ c))
theorem d4 : W4 m ρ c (Proc.devRef .tc main_v3) = Glue.dstOf (m ((c : Thread nD τ).loc main_arg1)) :=
  (W4_of_ne m ρ c main_v3 (by decide)).trans ((Glue.k1_v3 (W2 m ρ c)).trans (d2 m ρ c))

end Cert.KernelIdeal.Net

end
-- ==== Proof.LibStackSlice.lean ====
/-
  One member of a stack, read at coordinates.

  A stack of `L` matrices `[L, a, b]` sliced to its member `o` (`[1, a, b]`) and cast to `[a, b]` reads, at `(i, j)`,
  the stack at `(o, i, j)`. A stack of `L` rows `[L, n]` sliced to its member `o` (`[1, n]`), cast to the vector `[n]`
  and back to the row `[1, n]`, reads at `(0, k)` the stack at `(o, k)`; the same without the last cast reads at `k`.
  These are the forms in which a per-layer parameter reaches a kernel's window or a host operation.
-/
import Idealize.ShloMosaic.Lib.ValueLayout
import Idealize.ShloMosaic.Lib.Pipeline.Value
import Idealize.ShloMosaic.Lib.ValueIdx

namespace Idealize.ShloMosaic.StackSlice

open Idealize.ShloMosaic Idealize.ShloMosaic.ValueIdx

variable {α : Type}

/-- Member `o` of a stack of matrices, as a matrix, at `(i, j)`. -/
theorem mat_apply {L a b : ℕ} (o : ℕ) (ho : o < L) (W : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] W hs) hc (ix2 i j) = W (ix3 (⟨o, ho⟩ : Fin L) i j) := by
  rw [shapeCast_1ab_ab_apply]
  exact extractStridedSlice_apply ![o, 0, 0] W hs _ (ix3 (⟨o, ho⟩ : Fin L) i j) (fun ax => match ax with
    | ⟨0, _⟩ => by show o = o + 0; omega
    | ⟨1, _⟩ => by show i.val = 0 + i.val; omega
    | ⟨2, _⟩ => by show j.val = 0 + j.val; omega)

/-- Member `o` of a stack of rows, as a vector, at `k`. -/
theorem vec_apply {L n : ℕ} (o : ℕ) (ho : o < L) (B : (⟨2, ![L, n]⟩ : Shape).Idx → α)
    (hs : (⟨2, ![L, n]⟩ : Shape).Slices ![o, 0] ⟨2, ![1, n]⟩)
    (hc : (⟨2, ![1, n]⟩ : Shape).ShapeCasts ⟨1, ![n]⟩) (k : Fin n) :
    shapeCast ⟨1, ![n]⟩ (extractStridedSlice ⟨2, ![1, n]⟩ ![o, 0] B hs) hc (ix1 k) = B (ix2 (⟨o, ho⟩ : Fin L) k) := by
  rw [shapeCast_1a_a_apply]
  exact extractStridedSlice_apply ![o, 0] B hs _ (ix2 (⟨o, ho⟩ : Fin L) k) (fun ax => match ax with
    | ⟨0, _⟩ => by show o = o + 0; omega
    | ⟨1, _⟩ => by show k.val = 0 + k.val; omega)

/-- Member `o` of a stack of rows, cast to a vector and back to a one-row matrix, at `(0, k)`. -/
theorem row_apply {L n : ℕ} (o : ℕ) (ho : o < L) (B : (⟨2, ![L, n]⟩ : Shape).Idx → α)
    (hs : (⟨2, ![L, n]⟩ : Shape).Slices ![o, 0] ⟨2, ![1, n]⟩)
    (hc : (⟨2, ![1, n]⟩ : Shape).ShapeCasts ⟨1, ![n]⟩) (hc' : (⟨1, ![n]⟩ : Shape).ShapeCasts ⟨2, ![1, n]⟩) (u : Fin 1) (k : Fin n) :
    shapeCast ⟨2, ![1, n]⟩ (shapeCast ⟨1, ![n]⟩ (extractStridedSlice ⟨2, ![1, n]⟩ ![o, 0] B hs) hc) hc' (ix2 u k)
      = B (ix2 (⟨o, ho⟩ : Fin L) k) := by
  rw [shapeCast_a_1a_apply]
  exact vec_apply o ho B hs hc k

end Idealize.ShloMosaic.StackSlice
-- ==== Proof.KernelNet.lean ====
/-
  The idealized kernel's result as the network of the argument arrays.

  Region by region: a layer kernel's output array is the layer (of the arrays it finds) as one whole-array function;
  the arrays it finds are, by the host operations before it, the previous features, their neighbour sums, and member
  l of each parameter stack; so its output is layer l of the previous features. The read-out kernel finds the
  per-graph sums of the last features, the head's weight matrix and its bias as a one-row matrix.
-/
import proofs.«181532_j16295105921239_1_alg».proof.Proof.Gen.KernelIdeal.Frame
import proofs.«181532_j16295105921239_1_alg».proof.Proof.Region0
import proofs.«181532_j16295105921239_1_alg».proof.Proof.Region1
import proofs.«181532_j16295105921239_1_alg».proof.Proof.Region2
import proofs.«181532_j16295105921239_1_alg».proof.Proof.Region3
import proofs.«181532_j16295105921239_1_alg».proof.Proof.Host3
import proofs.«181532_j16295105921239_1_alg».proof.Proof.Walk
import proofs.«181532_j16295105921239_1_alg».proof.Proof.LibStackSlice

set_option maxRecDepth 16384

noncomputable section

namespace Cert.KernelIdeal.Net

open Idealize.ShloMosaic Idealize.ShloMosaic.ValueIdx Idealize.ShloMosaic.TcCoe Idealize.SL.Sem Idealize.ShloMosaic.StableHlo Cert.KernelIdeal Cert.KernelIdeal.Gen

/-- A layer whose matrices and rows are member `o` of the parameter stacks (sliced, cast) is layer `o`. -/
theorem layerOf_slices (o : ℕ) (ho : o < 3) (x agg : Cert.Gin.Nodes.Idx → EReal) (P : Cert.Gin.Params)
    (hsM : S3x64x64.Slices ![o, 0, 0] S1x64x64) (hsR : S3x64.Slices ![o, 0] S1x64) :
    Cert.Gin.layerOf x agg
      (shapeCast S64x64 (extractStridedSlice S1x64x64 ![o, 0, 0] P.W1 hsM) shapeCasts_S1x64x64_S64x64)
      (shapeCast S1x64 (shapeCast S64 (extractStridedSlice S1x64 ![o, 0] P.b1 hsR) shapeCasts_S1x64_S64) shapeCasts_S64_S1x64)
      (shapeCast S1x64 (shapeCast S64 (extractStridedSlice S1x64 ![o, 0] P.g1 hsR) shapeCasts_S1x64_S64) shapeCasts_S64_S1x64)
      (shapeCast S1x64 (shapeCast S64 (extractStridedSlice S1x64 ![o, 0] P.bt1 hsR) shapeCasts_S1x64_S64) shapeCasts_S64_S1x64)
      (shapeCast S1x64 (shapeCast S64 (extractStridedSlice S1x64 ![o, 0] P.rm1 hsR) shapeCasts_S1x64_S64) shapeCasts_S64_S1x64)
      (shapeCast S1x64 (shapeCast S64 (extractStridedSlice S1x64 ![o, 0] P.rv1 hsR) shapeCasts_S1x64_S64) shapeCasts_S64_S1x64)
      (shapeCast S64x64 (extractStridedSlice S1x64x64 ![o, 0, 0] P.W2 hsM) shapeCasts_S1x64x64_S64x64)
      (shapeCast S1x64 (shapeCast S64 (extractStridedSlice S1x64 ![o, 0] P.b2 hsR) shapeCasts_S1x64_S64) shapeCasts_S64_S1x64)
      (shapeCast S1x64 (shapeCast S64 (extractStridedSlice S1x64 ![o, 0] P.g2 hsR) shapeCasts_S1x64_S64) shapeCasts_S64_S1x64)
      (shapeCast S1x64 (shapeCast S64 (extractStridedSlice S1x64 ![o, 0] P.bt2 hsR) shapeCasts_S1x64_S64) shapeCasts_S64_S1x64)
      (shapeCast S1x64 (shapeCast S64 (extractStridedSlice S1x64 ![o, 0] P.rm2 hsR) shapeCasts_S1x64_S64) shapeCasts_S64_S1x64)
      (shapeCast S1x64 (shapeCast S64 (extractStridedSlice S1x64 ![o, 0] P.rv2 hsR) shapeCasts_S1x64_S64) shapeCasts_S64_S1x64)
      = Cert.Gin.layer P ⟨o, ho⟩ x agg :=
  Cert.Gin.layerOf_eq_layer P ⟨o, ho⟩ x agg _ _ _ _ _ _ _ _ _ _ _ _
    (fun a b => StackSlice.mat_apply o ho P.W1 hsM _ a b)
    (fun k => StackSlice.row_apply o ho P.b1 hsR _ _ 0 k)
    (fun k => StackSlice.row_apply o ho P.g1 hsR _ _ 0 k)
    (fun k => StackSlice.row_apply o ho P.bt1 hsR _ _ 0 k)
    (fun k => StackSlice.row_apply o ho P.rm1 hsR _ _ 0 k)
    (fun k => StackSlice.row_apply o ho P.rv1 hsR _ _ 0 k)
    (fun a b => StackSlice.mat_apply o ho P.W2 hsM _ a b)
    (fun k => StackSlice.row_apply o ho P.b2 hsR _ _ 0 k)
    (fun k => StackSlice.row_apply o ho P.g2 hsR _ _ 0 k)
    (fun k => StackSlice.row_apply o ho P.bt2 hsR _ _ 0 k)
    (fun k => StackSlice.row_apply o ho P.rm2 hsR _ _ 0 k)
    (fun k => StackSlice.row_apply o ho P.rv2 hsR _ _ 0 k)

variable (m : (ℓ : Loc nD τ sig) → Buf (Elt Ideal) ℓ) (ρ : Dev nD → PrngReg) (c : Dev nD)

/-- The parameter stacks as launched. -/
def params : Cert.Gin.Params := ⟨(m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9)), (m ((c : Thread nD τ).loc main_arg10)), (m ((c : Thread nD τ).loc main_arg11)), (m ((c : Thread nD τ).loc main_arg12)), (m ((c : Thread nD τ).loc main_arg13)), (m ((c : Thread nD τ).loc main_arg14))⟩

/-- The neighbour sums along the launched edge array. -/
def aggK (X : Cert.Gin.Nodes.Idx → EReal) : Cert.Gin.Nodes.Idx → EReal :=
  Glue.aggOf (Glue.srcOf (m ((c : Thread nD τ).loc main_arg1))) (Glue.dstOf (m ((c : Thread nD τ).loc main_arg1))) X

/-- The per-graph sums along the launched graph numbers. -/
def poolK (X : Cert.Gin.Nodes.Idx → EReal) : (⟨2, ![512, 64]⟩ : Shape).Idx → EReal :=
  Glue.poolOf (m ((c : Thread nD τ).loc main_arg2)) X

/-- The features after one, two and three layers. -/
def x1t : Cert.Gin.Nodes.Idx → EReal := Cert.Gin.layer (params m c) 0 (m ((c : Thread nD τ).loc main_arg0)) (aggK m c (m ((c : Thread nD τ).loc main_arg0)))
def x2t : Cert.Gin.Nodes.Idx → EReal := Cert.Gin.layer (params m c) 1 (x1t m c) (aggK m c (x1t m c))
def x3t : Cert.Gin.Nodes.Idx → EReal := Cert.Gin.layer (params m c) 2 (x2t m c) (aggK m c (x2t m c))

set_option maxHeartbeats 1000000 in
/-- Layer kernel 0's output array. -/
theorem x1_eq : W2 m ρ c (Proc.devRef .tc main_v48) = x1t m c := by
  refine (W2_arr m ρ c 14).trans ?_
  refine (Region0.final (V1 m ρ) c).trans ?_
  have e0 : V1 m ρ c main_arg0 = (m ((c : Thread nD τ).loc main_arg0)) := Glue.k0_arg0 (W0 m ρ c)
  have e1 : V1 m ρ c main_v13 = aggK m c (m ((c : Thread nD τ).loc main_arg0)) := Glue.h0_v13 (W0 m ρ c)
  have e2 : V1 m ρ c main_v15 = shapeCast S64x64 (extractStridedSlice S1x64x64 ![0, 0, 0] (m ((c : Thread nD τ).loc main_arg3)) slices_S3x64x64_S1x64x64_0_0_0) shapeCasts_S1x64x64_S64x64 := Glue.h0_v15 (W0 m ρ c)
  have e3 : V1 m ρ c main_v38 = shapeCast S1x64 (shapeCast S64 (extractStridedSlice S1x64 ![0, 0] (m ((c : Thread nD τ).loc main_arg4)) slices_S3x64_S1x64_0_0) shapeCasts_S1x64_S64) shapeCasts_S64_S1x64 := Glue.h0_v38 (W0 m ρ c)
  have e4 : V1 m ρ c main_v39 = shapeCast S1x64 (shapeCast S64 (extractStridedSlice S1x64 ![0, 0] (m ((c : Thread nD τ).loc main_arg5)) slices_S3x64_S1x64_0_0) shapeCasts_S1x64_S64) shapeCasts_S64_S1x64 := Glue.h0_v39 (W0 m ρ c)
  have e5 : V1 m ρ c main_v40 = shapeCast S1x64 (shapeCast S64 (extractStridedSlice S1x64 ![0, 0] (m ((c : Thread nD τ).loc main_arg6)) slices_S3x64_S1x64_0_0) shapeCasts_S1x64_S64) shapeCasts_S64_S1x64 := Glue.h0_v40 (W0 m ρ c)
  have e6 : V1 m ρ c main_v41 = shapeCast S1x64 (shapeCast S64 (extractStridedSlice S1x64 ![0, 0] (m ((c : Thread nD τ).loc main_arg7)) slices_S3x64_S1x64_0_0) shapeCasts_S1x64_S64) shapeCasts_S64_S1x64 := Glue.h0_v41 (W0 m ρ c)
  have e7 : V1 m ρ c main_v42 = shapeCast S1x64 (shapeCast S64 (extractStridedSlice S1x64 ![0, 0] (m ((c : Thread nD τ).loc main_arg8)) slices_S3x64_S1x64_0_0) shapeCasts_S1x64_S64) shapeCasts_S64_S1x64 := Glue.h0_v42 (W0 m ρ c)
  have e8 : V1 m ρ c main_v27 = shapeCast S64x64 (extractStridedSlice S1x64x64 ![0, 0, 0] (m ((c : Thread nD τ).loc main_arg9)) slices_S3x64x64_S1x64x64_0_0_0) shapeCasts_S1x64x64_S64x64 := Glue.h0_v27 (W0 m ρ c)
  have e9 : V1 m ρ c main_v43 = shapeCast S1x64 (shapeCast S64 (extractStridedSlice S1x64 ![0, 0] (m ((c : Thread nD τ).loc main_arg10)) slices_S3x64_S1x64_0_0) shapeCasts_S1x64_S64) shapeCasts_S64_S1x64 := Glue.h0_v43 (W0 m ρ c)
  have e10 : V1 m ρ c main_v44 = shapeCast S1x64 (shapeCast S64 (extractStridedSlice S1x64 ![0, 0] (m ((c : Thread nD τ).loc main_arg11)) slices_S3x64_S1x64_0_0) shapeCasts_S1x64_S64) shapeCasts_S64_S1x64 := Glue.h0_v44 (W0 m ρ c)
  have e11 : V1 m ρ c main_v45 = shapeCast S1x64 (shapeCast S64 (extractStridedSlice S1x64 ![0, 0] (m ((c : Thread nD τ).loc main_arg12)) slices_S3x64_S1x64_0_0) shapeCasts_S1x64_S64) shapeCasts_S64_S1x64 := Glue.h0_v45 (W0 m ρ c)
  have e12 : V1 m ρ c main_v46 = shapeCast S1x64 (shapeCast S64 (extractStridedSlice S1x64 ![0, 0] (m ((c : Thread nD τ).loc main_arg13)) slices_S3x64_S1x64_0_0) shapeCasts_S1x64_S64) shapeCasts_S64_S1x64 := Glue.h0_v46 (W0 m ρ c)
  have e13 : V1 m ρ c main_v47 = shapeCast S1x64 (shapeCast S64 (extractStridedSlice S1x64 ![0, 0] (m ((c : Thread nD τ).loc main_arg14)) slices_S3x64_S1x64_0_0) shapeCasts_S1x64_S64) shapeCasts_S64_S1x64 := Glue.h0_v47 (W0 m ρ c)
  rw [e0, e1, e2, e3, e4, e5, e6, e7, e8, e9, e10, e11, e12, e13]
  refine (layerOf_slices 0 (by omega) (m ((c : Thread nD τ).loc main_arg0)) (aggK m c (m ((c : Thread nD τ).loc main_arg0))) (params m c) slices_S3x64x64_S1x64x64_0_0_0 slices_S3x64_S1x64_0_0).trans ?_
  rfl

set_option maxHeartbeats 1000000 in
/-- Layer kernel 1's output array. -/
theorem x2_eq : W4 m ρ c (Proc.devRef .tc main_v93) = x2t m c := by
  refine (W4_arr m ρ c 14).trans ?_
  refine (Region1.final (V3 m ρ) c).trans ?_
  have e0 : V3 m ρ c main_v48 = x1t m c := (Glue.k1_v48 (W2 m ρ c)).trans (x1_eq m ρ c)
  have e1 : V3 m ρ c main_v58 = aggK m c (x1t m c) := by
    refine (Glue.h1_v58 (W2 m ρ c)).trans ?_
    rw [s2 m ρ c, d2 m ρ c, x1_eq m ρ c]
    rfl
  have e2 : V3 m ρ c main_v60 = shapeCast S64x64 (extractStridedSlice S1x64x64 ![1, 0, 0] (m ((c : Thread nD τ).loc main_arg3)) slices_S3x64x64_S1x64x64_1_0_0) shapeCasts_S1x64x64_S64x64 :=
    (Glue.h1_v60 (W2 m ρ c)).trans (by rw [a2_arg3 m ρ c])
  have e3 : V3 m ρ c main_v83 = shapeCast S1x64 (shapeCast S64 (extractStridedSlice S1x64 ![1, 0] (m ((c : Thread nD τ).loc main_arg4)) slices_S3x64_S1x64_1_0) shapeCasts_S1x64_S64) shapeCasts_S64_S1x64 :=
    (Glue.h1_v83 (W2 m ρ c)).trans (by rw [a2_arg4 m ρ c])
  have e4 : V3 m ρ c main_v84 = shapeCast S1x64 (shapeCast S64 (extractStridedSlice S1x64 ![1, 0] (m ((c : Thread nD τ).loc main_arg5)) slices_S3x64_S1x64_1_0) shapeCasts_S1x64_S64) shapeCasts_S64_S1x64 :=
    (Glue.h1_v84 (W2 m ρ c)).trans (by rw [a2_arg5 m ρ c])
  have e5 : V3 m ρ c main_v85 = shapeCast S1x64 (shapeCast S64 (extractStridedSlice S1x64 ![1, 0] (m ((c : Thread nD τ).loc main_arg6)) slices_S3x64_S1x64_1_0) shapeCasts_S1x64_S64) shapeCasts_S64_S1x64 :=
    (Glue.h1_v85 (W2 m ρ c)).trans (by rw [a2_arg6 m ρ c])
  have e6 : V3 m ρ c main_v86 = shapeCast S1x64 (shapeCast S64 (extractStridedSlice S1x64 ![1, 0] (m ((c : Thread nD τ).loc main_arg7)) slices_S3x64_S1x64_1_0) shapeCasts_S1x64_S64) shapeCasts_S64_S1x64 :=
    (Glue.h1_v86 (W2 m ρ c)).trans (by rw [a2_arg7 m ρ c])
  have e7 : V3 m ρ c main_v87 = shapeCast S1x64 (shapeCast S64 (extractStridedSlice S1x64 ![1, 0] (m ((c : Thread nD τ).loc main_arg8)) slices_S3x64_S1x64_1_0) shapeCasts_S1x64_S64) shapeCasts_S64_S1x64 :=
    (Glue.h1_v87 (W2 m ρ c)).trans (by rw [a2_arg8 m ρ c])
  have e8 : V3 m ρ c main_v72 = shapeCast S64x64 (extractStridedSlice S1x64x64 ![1, 0, 0] (m ((c : Thread nD τ).loc main_arg9)) slices_S3x64x64_S1x64x64_1_0_0) shapeCasts_S1x64x64_S64x64 :=
    (Glue.h1_v72 (W2 m ρ c)).trans (by rw [a2_arg9 m ρ c])
  have e9 : V3 m ρ c main_v88 = shapeCast S1x64 (shapeCast S64 (extractStridedSlice S1x64 ![1, 0] (m ((c : Thread nD τ).loc main_arg10)) slices_S3x64_S1x64_1_0) shapeCasts_S1x64_S64) shapeCasts_S64_S1x64 :=
    (Glue.h1_v88 (W2 m ρ c)).trans (by rw [a2_arg10 m ρ c])
  have e10 : V3 m ρ c main_v89 = shapeCast S1x64 (shapeCast S64 (extractStridedSlice S1x64 ![1, 0] (m ((c : Thread nD τ).loc main_arg11)) slices_S3x64_S1x64_1_0) shapeCasts_S1x64_S64) shapeCasts_S64_S1x64 :=
    (Glue.h1_v89 (W2 m ρ c)).trans (by rw [a2_arg11 m ρ c])
  have e11 : V3 m ρ c main_v90 = shapeCast S1x64 (shapeCast S64 (extractStridedSlice S1x64 ![1, 0] (m ((c : Thread nD τ).loc main_arg12)) slices_S3x64_S1x64_1_0) shapeCasts_S1x64_S64) shapeCasts_S64_S1x64 :=
    (Glue.h1_v90 (W2 m ρ c)).trans (by rw [a2_arg12 m ρ c])
  have e12 : V3 m ρ c main_v91 = shapeCast S1x64 (shapeCast S64 (extractStridedSlice S1x64 ![1, 0] (m ((c : Thread nD τ).loc main_arg13)) slices_S3x64_S1x64_1_0) shapeCasts_S1x64_S64) shapeCasts_S64_S1x64 :=
    (Glue.h1_v91 (W2 m ρ c)).trans (by rw [a2_arg13 m ρ c])
  have e13 : V3 m ρ c main_v92 = shapeCast S1x64 (shapeCast S64 (extractStridedSlice S1x64 ![1, 0] (m ((c : Thread nD τ).loc main_arg14)) slices_S3x64_S1x64_1_0) shapeCasts_S1x64_S64) shapeCasts_S64_S1x64 :=
    (Glue.h1_v92 (W2 m ρ c)).trans (by rw [a2_arg14 m ρ c])
  rw [e0, e1, e2, e3, e4, e5, e6, e7, e8, e9, e10, e11, e12, e13]
  refine (layerOf_slices 1 (by omega) (x1t m c) (aggK m c (x1t m c)) (params m c) slices_S3x64x64_S1x64x64_1_0_0 slices_S3x64_S1x64_1_0).trans ?_
  rfl

set_option maxHeartbeats 1000000 in
/-- Layer kernel 2's output array. -/
theorem x3_eq : W6 m ρ c (Proc.devRef .tc main_v138) = x3t m c := by
  refine (W6_arr m ρ c 14).trans ?_
  refine (Region2.final (V5 m ρ) c).trans ?_
  have e0 : V5 m ρ c main_v93 = x2t m c := (Glue.k2_v93 (W4 m ρ c)).trans (x2_eq m ρ c)
  have e1 : V5 m ρ c main_v103 = aggK m c (x2t m c) := by
    refine (Glue.h2_v103 (W4 m ρ c)).trans ?_
    rw [s4 m ρ c, d4 m ρ c, x2_eq m ρ c]
    rfl
  have e2 : V5 m ρ c main_v105 = shapeCast S64x64 (extractStridedSlice S1x64x64 ![2, 0, 0] (m ((c : Thread nD τ).loc main_arg3)) slices_S3x64x64_S1x64x64_2_0_0) shapeCasts_S1x64x64_S64x64 :=
    (Glue.h2_v105 (W4 m ρ c)).trans (by rw [a4_arg3 m ρ c])
  have e3 : V5 m ρ c main_v128 = shapeCast S1x64 (shapeCast S64 (extractStridedSlice S1x64 ![2, 0] (m ((c : Thread nD τ).loc main_arg4)) slices_S3x64_S1x64_2_0) shapeCasts_S1x64_S64) shapeCasts_S64_S1x64 :=
    (Glue.h2_v128 (W4 m ρ c)).trans (by rw [a4_arg4 m ρ c])
  have e4 : V5 m ρ c main_v129 = shapeCast S1x64 (shapeCast S64 (extractStridedSlice S1x64 ![2, 0] (m ((c : Thread nD τ).loc main_arg5)) slices_S3x64_S1x64_2_0) shapeCasts_S1x64_S64) shapeCasts_S64_S1x64 :=
    (Glue.h2_v129 (W4 m ρ c)).trans (by rw [a4_arg5 m ρ c])
  have e5 : V5 m ρ c main_v130 = shapeCast S1x64 (shapeCast S64 (extractStridedSlice S1x64 ![2, 0] (m ((c : Thread nD τ).loc main_arg6)) slices_S3x64_S1x64_2_0) shapeCasts_S1x64_S64) shapeCasts_S64_S1x64 :=
    (Glue.h2_v130 (W4 m ρ c)).trans (by rw [a4_arg6 m ρ c])
  have e6 : V5 m ρ c main_v131 = shapeCast S1x64 (shapeCast S64 (extractStridedSlice S1x64 ![2, 0] (m ((c : Thread nD τ).loc main_arg7)) slices_S3x64_S1x64_2_0) shapeCasts_S1x64_S64) shapeCasts_S64_S1x64 :=
    (Glue.h2_v131 (W4 m ρ c)).trans (by rw [a4_arg7 m ρ c])
  have e7 : V5 m ρ c main_v132 = shapeCast S1x64 (shapeCast S64 (extractStridedSlice S1x64 ![2, 0] (m ((c : Thread nD τ).loc main_arg8)) slices_S3x64_S1x64_2_0) shapeCasts_S1x64_S64) shapeCasts_S64_S1x64 :=
    (Glue.h2_v132 (W4 m ρ c)).trans (by rw [a4_arg8 m ρ c])
  have e8 : V5 m ρ c main_v117 = shapeCast S64x64 (extractStridedSlice S1x64x64 ![2, 0, 0] (m ((c : Thread nD τ).loc main_arg9)) slices_S3x64x64_S1x64x64_2_0_0) shapeCasts_S1x64x64_S64x64 :=
    (Glue.h2_v117 (W4 m ρ c)).trans (by rw [a4_arg9 m ρ c])
  have e9 : V5 m ρ c main_v133 = shapeCast S1x64 (shapeCast S64 (extractStridedSlice S1x64 ![2, 0] (m ((c : Thread nD τ).loc main_arg10)) slices_S3x64_S1x64_2_0) shapeCasts_S1x64_S64) shapeCasts_S64_S1x64 :=
    (Glue.h2_v133 (W4 m ρ c)).trans (by rw [a4_arg10 m ρ c])
  have e10 : V5 m ρ c main_v134 = shapeCast S1x64 (shapeCast S64 (extractStridedSlice S1x64 ![2, 0] (m ((c : Thread nD τ).loc main_arg11)) slices_S3x64_S1x64_2_0) shapeCasts_S1x64_S64) shapeCasts_S64_S1x64 :=
    (Glue.h2_v134 (W4 m ρ c)).trans (by rw [a4_arg11 m ρ c])
  have e11 : V5 m ρ c main_v135 = shapeCast S1x64 (shapeCast S64 (extractStridedSlice S1x64 ![2, 0] (m ((c : Thread nD τ).loc main_arg12)) slices_S3x64_S1x64_2_0) shapeCasts_S1x64_S64) shapeCasts_S64_S1x64 :=
    (Glue.h2_v135 (W4 m ρ c)).trans (by rw [a4_arg12 m ρ c])
  have e12 : V5 m ρ c main_v136 = shapeCast S1x64 (shapeCast S64 (extractStridedSlice S1x64 ![2, 0] (m ((c : Thread nD τ).loc main_arg13)) slices_S3x64_S1x64_2_0) shapeCasts_S1x64_S64) shapeCasts_S64_S1x64 :=
    (Glue.h2_v136 (W4 m ρ c)).trans (by rw [a4_arg13 m ρ c])
  have e13 : V5 m ρ c main_v137 = shapeCast S1x64 (shapeCast S64 (extractStridedSlice S1x64 ![2, 0] (m ((c : Thread nD τ).loc main_arg14)) slices_S3x64_S1x64_2_0) shapeCasts_S1x64_S64) shapeCasts_S64_S1x64 :=
    (Glue.h2_v137 (W4 m ρ c)).trans (by rw [a4_arg14 m ρ c])
  rw [e0, e1, e2, e3, e4, e5, e6, e7, e8, e9, e10, e11, e12, e13]
  refine (layerOf_slices 2 (by omega) (x2t m c) (aggK m c (x2t m c)) (params m c) slices_S3x64x64_S1x64x64_2_0_0 slices_S3x64_S1x64_2_0).trans ?_
  rfl

/-- The result buffer: the network of the launched arrays. -/
theorem out_eq : W8 m ρ c (Proc.devRef .tc main_v143)
    = Cert.Gin.net (aggK m c) (poolK m c) (params m c) (m ((c : Thread nD τ).loc main_arg15)) (m ((c : Thread nD τ).loc main_arg16)) (m ((c : Thread nD τ).loc main_arg0)) := by
  refine (W8_arr m ρ c 3).trans ?_
  refine (Region3.final (V7 m ρ) c).trans ?_
  have e0 : V7 m ρ c main_v141 = poolK m c (x3t m c) := by
    refine (Glue.h3_v141 (W6 m ρ c)).trans ?_
    rw [a6_arg2 m ρ c, x3_eq m ρ c]
    rfl
  have e1 : V7 m ρ c main_arg15 = (m ((c : Thread nD τ).loc main_arg15)) := (Glue.k3_arg15 (W6 m ρ c)).trans (a6_arg15 m ρ c)
  have e2 : V7 m ρ c main_v142 = shapeCast S1x128 (m ((c : Thread nD τ).loc main_arg16)) shapeCasts_S128_S1x128 :=
    (Glue.h3_v142 (W6 m ρ c)).trans (by rw [a6_arg16 m ρ c])
  rw [e0, e1, e2]
  exact Cert.Gin.headOf_eq_head _ _ _ _ (fun j => shapeCast_a_1a_apply _ _ 0 j)

end Cert.KernelIdeal.Net

end
-- ==== Proof.RefNet.lean ====
/-
  The reference program's value, read as the network of the specification.

  Each layer of the reference is, entry by entry, the map `Cert.Gin.layer` of the node features and their
  neighbour sums: a dense layer, the normalisation by the running statistics and the rectifier, twice. The
  parameter rows reach an entry through a slice of the stack, a reshape and two broadcasts, which read the
  stack at (layer, channel); the weights through a slice and a reshape, which read it at (layer, row, column).
  The neighbour sums of layers 1 and 2 are the same gather and accumulating scatter as layer 0's, applied to
  the previous layer's output, and the pooled rows are one accumulating scatter of the last layer's output.
-/
import proofs.«181532_j16295105921239_1_alg».proof.Proof.RefReadP
import proofs.«181532_j16295105921239_1_alg».proof.Proof.Spec
import Idealize.ShloMosaic.Lib.ValueIdx
import Idealize.ShloMosaic.Lib.Pipeline.Value
import Idealize.ShloMosaic.PureOps.Ideal.Laws

noncomputable section

namespace Cert.RefNet

open Idealize.ShloMosaic Idealize.ShloMosaic.ValueIdx Cert.ReferenceIdeal Cert.ReferenceIdeal.ReadP

/-! ## Layer 0, first half -/

/-- The weights of this dense layer at (row, column). -/
theorem v16_at (x3 : (⟨S3x64x64, .f32⟩ : BufTy).Contents (Elt Ideal)) (a b : Fin 64) :
    val_main_v16 (F := Ideal) x3 (ix2 a b) = x3 (ix3 0 a b) := by
  rw [val_main_v16_apply, val_main_v15_apply]
  congr 1
  funext c
  apply Fin.ext
  match c with
  | ⟨0, _⟩ => rfl
  | ⟨1, _⟩ => show (a.val * 64 + b.val) / 64 % 64 = a.val; omega
  | ⟨2, _⟩ => show (a.val * 64 + b.val) % 64 = b.val; omega

/-- The dense layer at (node, channel): the sum over the input channels. -/
theorem v17_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (n : Fin 100000) (q : Fin 64) :
    val_main_v17 (F := Ideal) x0 x1 x3 (ix2 n q) = ∑ k : Fin 64, (x0 (ix2 n k) + val_main_v13 (F := Ideal) x0 x1 (ix2 n k)) * x3 (ix3 0 k q) := by
  rw [val_main_v17_apply]
  refine Finset.sum_congr rfl fun k _ => ?_
  have el : lidx_main_v17 (ix2 n q) k = ix2 n k :=
    funext fun a => Fin.ext (by match a with | ⟨0, _⟩ => rfl | ⟨1, _⟩ => rfl)
  have er : ridx_main_v17 (ix2 n q) k = ix2 k q :=
    funext fun a => Fin.ext (by match a with | ⟨0, _⟩ => rfl | ⟨1, _⟩ => rfl)
  rw [el, er, v16_at]
  exact congrArg (fun t : EReal => t * x3 (ix3 0 k q)) (val_main_v14_apply x0 x1 (ix2 n k))

/-- The parameter rows, broadcast over the nodes, read at (node, channel). -/
theorem v21_at (x4 : (⟨S3x64, .f32⟩ : BufTy).Contents (Elt Ideal)) (n : Fin 100000) (q : Fin 64) :
    val_main_v21 (F := Ideal) x4 (ix2 n q) = x4 (ix2 0 q) := by
  rw [val_main_v21_apply, val_main_v20_apply, val_main_v19_apply, val_main_v18_apply]
  congr 1
  funext a
  apply Fin.ext
  match a with
  | ⟨0, _⟩ => rfl
  | ⟨1, _⟩ => exact Nat.mod_eq_of_lt q.isLt

theorem v32_at (x7 : (⟨S3x64, .f32⟩ : BufTy).Contents (Elt Ideal)) (n : Fin 100000) (q : Fin 64) :
    val_main_v32 (F := Ideal) x7 (ix2 n q) = x7 (ix2 0 q) := by
  rw [val_main_v32_apply, val_main_v31_apply, val_main_v28_apply, val_main_v27_apply]
  congr 1
  funext a
  apply Fin.ext
  match a with
  | ⟨0, _⟩ => rfl
  | ⟨1, _⟩ => exact Nat.mod_eq_of_lt q.isLt

theorem v41_at (x5 : (⟨S3x64, .f32⟩ : BufTy).Contents (Elt Ideal)) (n : Fin 100000) (q : Fin 64) :
    val_main_v41 (F := Ideal) x5 (ix2 n q) = x5 (ix2 0 q) := by
  rw [val_main_v41_apply, val_main_v40_apply, val_main_v24_apply, val_main_v23_apply]
  congr 1
  funext a
  apply Fin.ext
  match a with
  | ⟨0, _⟩ => rfl
  | ⟨1, _⟩ => exact Nat.mod_eq_of_lt q.isLt

theorem v44_at (x6 : (⟨S3x64, .f32⟩ : BufTy).Contents (Elt Ideal)) (n : Fin 100000) (q : Fin 64) :
    val_main_v44 (F := Ideal) x6 (ix2 n q) = x6 (ix2 0 q) := by
  rw [val_main_v44_apply, val_main_v43_apply, val_main_v26_apply, val_main_v25_apply]
  congr 1
  funext a
  apply Fin.ext
  match a with
  | ⟨0, _⟩ => rfl
  | ⟨1, _⟩ => exact Nat.mod_eq_of_lt q.isLt

/-- The normalisation factor at (node, channel). -/
theorem v38_at (x8 : (⟨S3x64, .f32⟩ : BufTy).Contents (Elt Ideal)) (n : Fin 100000) (q : Fin 64) :
    val_main_v38 (F := Ideal) x8 (ix2 n q) = Ideal.rsqrt (x8 (ix2 0 q) + Ideal.ofBits .f32 0x3727C5AC#32) := by
  rw [val_main_v38_apply, val_main_v37_apply, val_main_v36_apply, val_main_v35_apply, val_main_v34_apply,
    val_main_cst_1_apply, val_main_v30_apply, val_main_v29_apply]
  have e : idx_main_v29 (idx_main_v30 (idx_main_v37 (idx_main_v38 (ix2 n q)))) = ix2 0 q := by
    funext a
    apply Fin.ext
    match a with
    | ⟨0, _⟩ => rfl
    | ⟨1, _⟩ => exact Nat.mod_eq_of_lt q.isLt
  exact congrArg (fun j => Ideal.rsqrt (x8 j + Ideal.ofBits .f32 0x3727C5AC#32)) e

/-- This half of the layer at (node, channel). -/
theorem v46_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (n : Fin 100000) (q : Fin 64) :
    val_main_v46 (F := Ideal) x0 x1 x3 x4 x5 x6 x7 x8 (ix2 n q) = Cert.Gin.half (fun k => (x0 (ix2 n k) + val_main_v13 (F := Ideal) x0 x1 (ix2 n k)))
      (fun a b => x3 (ix3 0 a b)) (fun k => x4 (ix2 0 k)) (fun k => x7 (ix2 0 k)) (fun k => x8 (ix2 0 k))
      (fun k => x5 (ix2 0 k)) (fun k => x6 (ix2 0 k)) q := by
  unfold Cert.Gin.half
  rw [val_main_v46_apply, val_main_v45_apply, val_main_v42_apply, val_main_v39_apply, val_main_v33_apply,
    val_main_v22_apply, v17_at, v21_at, v32_at, v38_at, v41_at, v44_at,
    val_main_call0_v0_apply, val_main_call0_cst_apply]
  rfl

/-! ## Layer 0, second half -/

/-- The weights of this dense layer at (row, column). -/
theorem v48_at (x9 : (⟨S3x64x64, .f32⟩ : BufTy).Contents (Elt Ideal)) (a b : Fin 64) :
    val_main_v48 (F := Ideal) x9 (ix2 a b) = x9 (ix3 0 a b) := by
  rw [val_main_v48_apply, val_main_v47_apply]
  congr 1
  funext c
  apply Fin.ext
  match c with
  | ⟨0, _⟩ => rfl
  | ⟨1, _⟩ => show (a.val * 64 + b.val) / 64 % 64 = a.val; omega
  | ⟨2, _⟩ => show (a.val * 64 + b.val) % 64 = b.val; omega

/-- The dense layer at (node, channel): the sum over the input channels. -/
theorem v49_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (n : Fin 100000) (q : Fin 64) :
    val_main_v49 (F := Ideal) x0 x1 x3 x4 x5 x6 x7 x8 x9 (ix2 n q) = ∑ k : Fin 64, val_main_v46 (F := Ideal) x0 x1 x3 x4 x5 x6 x7 x8 (ix2 n k) * x9 (ix3 0 k q) := by
  rw [val_main_v49_apply]
  refine Finset.sum_congr rfl fun k _ => ?_
  have el : lidx_main_v49 (ix2 n q) k = ix2 n k :=
    funext fun a => Fin.ext (by match a with | ⟨0, _⟩ => rfl | ⟨1, _⟩ => rfl)
  have er : ridx_main_v49 (ix2 n q) k = ix2 k q :=
    funext fun a => Fin.ext (by match a with | ⟨0, _⟩ => rfl | ⟨1, _⟩ => rfl)
  rw [el, er, v48_at]

/-- The parameter rows, broadcast over the nodes, read at (node, channel). -/
theorem v53_at (x10 : (⟨S3x64, .f32⟩ : BufTy).Contents (Elt Ideal)) (n : Fin 100000) (q : Fin 64) :
    val_main_v53 (F := Ideal) x10 (ix2 n q) = x10 (ix2 0 q) := by
  rw [val_main_v53_apply, val_main_v52_apply, val_main_v51_apply, val_main_v50_apply]
  congr 1
  funext a
  apply Fin.ext
  match a with
  | ⟨0, _⟩ => rfl
  | ⟨1, _⟩ => exact Nat.mod_eq_of_lt q.isLt

theorem v64_at (x13 : (⟨S3x64, .f32⟩ : BufTy).Contents (Elt Ideal)) (n : Fin 100000) (q : Fin 64) :
    val_main_v64 (F := Ideal) x13 (ix2 n q) = x13 (ix2 0 q) := by
  rw [val_main_v64_apply, val_main_v63_apply, val_main_v60_apply, val_main_v59_apply]
  congr 1
  funext a
  apply Fin.ext
  match a with
  | ⟨0, _⟩ => rfl
  | ⟨1, _⟩ => exact Nat.mod_eq_of_lt q.isLt

theorem v73_at (x11 : (⟨S3x64, .f32⟩ : BufTy).Contents (Elt Ideal)) (n : Fin 100000) (q : Fin 64) :
    val_main_v73 (F := Ideal) x11 (ix2 n q) = x11 (ix2 0 q) := by
  rw [val_main_v73_apply, val_main_v72_apply, val_main_v56_apply, val_main_v55_apply]
  congr 1
  funext a
  apply Fin.ext
  match a with
  | ⟨0, _⟩ => rfl
  | ⟨1, _⟩ => exact Nat.mod_eq_of_lt q.isLt

theorem v76_at (x12 : (⟨S3x64, .f32⟩ : BufTy).Contents (Elt Ideal)) (n : Fin 100000) (q : Fin 64) :
    val_main_v76 (F := Ideal) x12 (ix2 n q) = x12 (ix2 0 q) := by
  rw [val_main_v76_apply, val_main_v75_apply, val_main_v58_apply, val_main_v57_apply]
  congr 1
  funext a
  apply Fin.ext
  match a with
  | ⟨0, _⟩ => rfl
  | ⟨1, _⟩ => exact Nat.mod_eq_of_lt q.isLt

/-- The normalisation factor at (node, channel). -/
theorem v70_at (x14 : (⟨S3x64, .f32⟩ : BufTy).Contents (Elt Ideal)) (n : Fin 100000) (q : Fin 64) :
    val_main_v70 (F := Ideal) x14 (ix2 n q) = Ideal.rsqrt (x14 (ix2 0 q) + Ideal.ofBits .f32 0x3727C5AC#32) := by
  rw [val_main_v70_apply, val_main_v69_apply, val_main_v68_apply, val_main_v67_apply, val_main_v66_apply,
    val_main_cst_2_apply, val_main_v62_apply, val_main_v61_apply]
  have e : idx_main_v61 (idx_main_v62 (idx_main_v69 (idx_main_v70 (ix2 n q)))) = ix2 0 q := by
    funext a
    apply Fin.ext
    match a with
    | ⟨0, _⟩ => rfl
    | ⟨1, _⟩ => exact Nat.mod_eq_of_lt q.isLt
  exact congrArg (fun j => Ideal.rsqrt (x14 j + Ideal.ofBits .f32 0x3727C5AC#32)) e

/-- This half of the layer at (node, channel). -/
theorem v78_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v78 (F := Ideal) x0 x1 x3 x4 x5 x6 x7 x8 x9 x10 x11 x12 x13 x14 (ix2 n q) = Cert.Gin.half (fun k => val_main_v46 (F := Ideal) x0 x1 x3 x4 x5 x6 x7 x8 (ix2 n k))
      (fun a b => x9 (ix3 0 a b)) (fun k => x10 (ix2 0 k)) (fun k => x13 (ix2 0 k)) (fun k => x14 (ix2 0 k))
      (fun k => x11 (ix2 0 k)) (fun k => x12 (ix2 0 k)) q := by
  unfold Cert.Gin.half
  rw [val_main_v78_apply, val_main_v77_apply, val_main_v74_apply, val_main_v71_apply, val_main_v65_apply,
    val_main_v54_apply, v49_at, v53_at, v64_at, v70_at, v73_at, v76_at,
    val_main_call1_v0_apply, val_main_call1_cst_apply]
  rfl

/-- Layer 0 of the reference is the specification's layer 0 of its input and the neighbour sums. -/
theorem layer0 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) :
    val_main_v78 (F := Ideal) x0 x1 x3 x4 x5 x6 x7 x8 x9 x10 x11 x12 x13 x14 = Cert.Gin.layer ⟨x3, x4, x5, x6, x7, x8, x9, x10, x11, x12, x13, x14⟩ 0 x0 (val_main_v13 (F := Ideal) x0 x1) := by
  funext i
  obtain ⟨n, q, rfl⟩ : ∃ (n : Fin 100000) (q : Fin 64), i = ix2 n q := ⟨i 0, i 1, eq_ix2 i⟩
  rw [Cert.Gin.layer_apply, v78_at]
  unfold Cert.Gin.layerAt
  simp only [v46_at]

/-- The neighbour sums of layer 1 are layer 0's gather and accumulating scatter, applied to layer 0's output. -/
theorem agg1 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) :
    val_main_v88 (F := Ideal) x0 x1 x3 x4 x5 x6 x7 x8 x9 x10 x11 x12 x13 x14 = val_main_v13 (F := Ideal) (val_main_v78 (F := Ideal) x0 x1 x3 x4 x5 x6 x7 x8 x9 x10 x11 x12 x13 x14) x1 := by
  unfold val_main_v88 val_main_v85
  generalize val_main_v78 (F := Ideal) x0 x1 x3 x4 x5 x6 x7 x8 x9 x10 x11 x12 x13 x14 = Y
  unfold val_main_v13 val_main_v10 val_main_v86 val_main_cst_5 val_main_v11 val_main_cst val_main_v87 val_main_v12 val_main_v84 val_main_v9
    val_main_v83 val_main_v8 val_main_v80 val_main_v5 val_main_v79 val_main_v4 val_main_c_3 val_main_c val_main_v82 val_main_v7 val_main_v81 val_main_v6
    val_main_c_4 val_main_c_0
  rfl

/-! ## Layer 1, first half -/

/-- The weights of this dense layer at (row, column). -/
theorem v91_at (x3 : (⟨S3x64x64, .f32⟩ : BufTy).Contents (Elt Ideal)) (a b : Fin 64) :
    val_main_v91 (F := Ideal) x3 (ix2 a b) = x3 (ix3 1 a b) := by
  rw [val_main_v91_apply, val_main_v90_apply]
  congr 1
  funext c
  apply Fin.ext
  match c with
  | ⟨0, _⟩ => rfl
  | ⟨1, _⟩ => show (a.val * 64 + b.val) / 64 % 64 = a.val; omega
  | ⟨2, _⟩ => show (a.val * 64 + b.val) % 64 = b.val; omega

/-- The dense layer at (node, channel): the sum over the input channels. -/
theorem v92_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v92 (F := Ideal) x0 x1 x3 x4 x5 x6 x7 x8 x9 x10 x11 x12 x13 x14 (ix2 n q) = ∑ k : Fin 64, (val_main_v78 (F := Ideal) x0 x1 x3 x4 x5 x6 x7 x8 x9 x10 x11 x12 x13 x14 (ix2 n k) + val_main_v88 (F := Ideal) x0 x1 x3 x4 x5 x6 x7 x8 x9 x10 x11 x12 x13 x14 (ix2 n k)) * x3 (ix3 1 k q) := by
  rw [val_main_v92_apply]
  refine Finset.sum_congr rfl fun k _ => ?_
  have el : lidx_main_v92 (ix2 n q) k = ix2 n k :=
    funext fun a => Fin.ext (by match a with | ⟨0, _⟩ => rfl | ⟨1, _⟩ => rfl)
  have er : ridx_main_v92 (ix2 n q) k = ix2 k q :=
    funext fun a => Fin.ext (by match a with | ⟨0, _⟩ => rfl | ⟨1, _⟩ => rfl)
  rw [el, er, v91_at]
  exact congrArg (fun t : EReal => t * x3 (ix3 1 k q)) (val_main_v89_apply x0 x1 x3 x4 x5 x6 x7 x8 x9 x10 x11 x12 x13 x14 (ix2 n k))

/-- The parameter rows, broadcast over the nodes, read at (node, channel). -/
theorem v96_at (x4 : (⟨S3x64, .f32⟩ : BufTy).Contents (Elt Ideal)) (n : Fin 100000) (q : Fin 64) :
    val_main_v96 (F := Ideal) x4 (ix2 n q) = x4 (ix2 1 q) := by
  rw [val_main_v96_apply, val_main_v95_apply, val_main_v94_apply, val_main_v93_apply]
  congr 1
  funext a
  apply Fin.ext
  match a with
  | ⟨0, _⟩ => rfl
  | ⟨1, _⟩ => exact Nat.mod_eq_of_lt q.isLt

theorem v107_at (x7 : (⟨S3x64, .f32⟩ : BufTy).Contents (Elt Ideal)) (n : Fin 100000) (q : Fin 64) :
    val_main_v107 (F := Ideal) x7 (ix2 n q) = x7 (ix2 1 q) := by
  rw [val_main_v107_apply, val_main_v106_apply, val_main_v103_apply, val_main_v102_apply]
  congr 1
  funext a
  apply Fin.ext
  match a with
  | ⟨0, _⟩ => rfl
  | ⟨1, _⟩ => exact Nat.mod_eq_of_lt q.isLt

theorem v116_at (x5 : (⟨S3x64, .f32⟩ : BufTy).Contents (Elt Ideal)) (n : Fin 100000) (q : Fin 64) :
    val_main_v116 (F := Ideal) x5 (ix2 n q) = x5 (ix2 1 q) := by
  rw [val_main_v116_apply, val_main_v115_apply, val_main_v99_apply, val_main_v98_apply]
  congr 1
  funext a
  apply Fin.ext
  match a with
  | ⟨0, _⟩ => rfl
  | ⟨1, _⟩ => exact Nat.mod_eq_of_lt q.isLt

theorem v119_at (x6 : (⟨S3x64, .f32⟩ : BufTy).Contents (Elt Ideal)) (n : Fin 100000) (q : Fin 64) :
    val_main_v119 (F := Ideal) x6 (ix2 n q) = x6 (ix2 1 q) := by
  rw [val_main_v119_apply, val_main_v118_apply, val_main_v101_apply, val_main_v100_apply]
  congr 1
  funext a
  apply Fin.ext
  match a with
  | ⟨0, _⟩ => rfl
  | ⟨1, _⟩ => exact Nat.mod_eq_of_lt q.isLt

/-- The normalisation factor at (node, channel). -/
theorem v113_at (x8 : (⟨S3x64, .f32⟩ : BufTy).Contents (Elt Ideal)) (n : Fin 100000) (q : Fin 64) :
    val_main_v113 (F := Ideal) x8 (ix2 n q) = Ideal.rsqrt (x8 (ix2 1 q) + Ideal.ofBits .f32 0x3727C5AC#32) := by
  rw [val_main_v113_apply, val_main_v112_apply, val_main_v111_apply, val_main_v110_apply, val_main_v109_apply,
    val_main_cst_6_apply, val_main_v105_apply, val_main_v104_apply]
  have e : idx_main_v104 (idx_main_v105 (idx_main_v112 (idx_main_v113 (ix2 n q)))) = ix2 1 q := by
    funext a
    apply Fin.ext
    match a with
    | ⟨0, _⟩ => rfl
    | ⟨1, _⟩ => exact Nat.mod_eq_of_lt q.isLt
  exact congrArg (fun j => Ideal.rsqrt (x8 j + Ideal.ofBits .f32 0x3727C5AC#32)) e

/-- This half of the layer at (node, channel). -/
theorem v121_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v121 (F := Ideal) x0 x1 x3 x4 x5 x6 x7 x8 x9 x10 x11 x12 x13 x14 (ix2 n q) = Cert.Gin.half (fun k => (val_main_v78 (F := Ideal) x0 x1 x3 x4 x5 x6 x7 x8 x9 x10 x11 x12 x13 x14 (ix2 n k) + val_main_v88 (F := Ideal) x0 x1 x3 x4 x5 x6 x7 x8 x9 x10 x11 x12 x13 x14 (ix2 n k)))
      (fun a b => x3 (ix3 1 a b)) (fun k => x4 (ix2 1 k)) (fun k => x7 (ix2 1 k)) (fun k => x8 (ix2 1 k))
      (fun k => x5 (ix2 1 k)) (fun k => x6 (ix2 1 k)) q := by
  unfold Cert.Gin.half
  rw [val_main_v121_apply, val_main_v120_apply, val_main_v117_apply, val_main_v114_apply, val_main_v108_apply,
    val_main_v97_apply, v92_at, v96_at, v107_at, v113_at, v116_at, v119_at,
    val_main_call2_v0_apply, val_main_call2_cst_apply]
  rfl

/-! ## Layer 1, second half -/

/-- The weights of this dense layer at (row, column). -/
theorem v123_at (x9 : (⟨S3x64x64, .f32⟩ : BufTy).Contents (Elt Ideal)) (a b : Fin 64) :
    val_main_v123 (F := Ideal) x9 (ix2 a b) = x9 (ix3 1 a b) := by
  rw [val_main_v123_apply, val_main_v122_apply]
  congr 1
  funext c
  apply Fin.ext
  match c with
  | ⟨0, _⟩ => rfl
  | ⟨1, _⟩ => show (a.val * 64 + b.val) / 64 % 64 = a.val; omega
  | ⟨2, _⟩ => show (a.val * 64 + b.val) % 64 = b.val; omega

/-- The dense layer at (node, channel): the sum over the input channels. -/
theorem v124_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v124 (F := Ideal) x0 x1 x3 x4 x5 x6 x7 x8 x9 x10 x11 x12 x13 x14 (ix2 n q) = ∑ k : Fin 64, val_main_v121 (F := Ideal) x0 x1 x3 x4 x5 x6 x7 x8 x9 x10 x11 x12 x13 x14 (ix2 n k) * x9 (ix3 1 k q) := by
  rw [val_main_v124_apply]
  refine Finset.sum_congr rfl fun k _ => ?_
  have el : lidx_main_v124 (ix2 n q) k = ix2 n k :=
    funext fun a => Fin.ext (by match a with | ⟨0, _⟩ => rfl | ⟨1, _⟩ => rfl)
  have er : ridx_main_v124 (ix2 n q) k = ix2 k q :=
    funext fun a => Fin.ext (by match a with | ⟨0, _⟩ => rfl | ⟨1, _⟩ => rfl)
  rw [el, er, v123_at]

/-- The parameter rows, broadcast over the nodes, read at (node, channel). -/
theorem v128_at (x10 : (⟨S3x64, .f32⟩ : BufTy).Contents (Elt Ideal)) (n : Fin 100000) (q : Fin 64) :
    val_main_v128 (F := Ideal) x10 (ix2 n q) = x10 (ix2 1 q) := by
  rw [val_main_v128_apply, val_main_v127_apply, val_main_v126_apply, val_main_v125_apply]
  congr 1
  funext a
  apply Fin.ext
  match a with
  | ⟨0, _⟩ => rfl
  | ⟨1, _⟩ => exact Nat.mod_eq_of_lt q.isLt

theorem v139_at (x13 : (⟨S3x64, .f32⟩ : BufTy).Contents (Elt Ideal)) (n : Fin 100000) (q : Fin 64) :
    val_main_v139 (F := Ideal) x13 (ix2 n q) = x13 (ix2 1 q) := by
  rw [val_main_v139_apply, val_main_v138_apply, val_main_v135_apply, val_main_v134_apply]
  congr 1
  funext a
  apply Fin.ext
  match a with
  | ⟨0, _⟩ => rfl
  | ⟨1, _⟩ => exact Nat.mod_eq_of_lt q.isLt

theorem v148_at (x11 : (⟨S3x64, .f32⟩ : BufTy).Contents (Elt Ideal)) (n : Fin 100000) (q : Fin 64) :
    val_main_v148 (F := Ideal) x11 (ix2 n q) = x11 (ix2 1 q) := by
  rw [val_main_v148_apply, val_main_v147_apply, val_main_v131_apply, val_main_v130_apply]
  congr 1
  funext a
  apply Fin.ext
  match a with
  | ⟨0, _⟩ => rfl
  | ⟨1, _⟩ => exact Nat.mod_eq_of_lt q.isLt

theorem v151_at (x12 : (⟨S3x64, .f32⟩ : BufTy).Contents (Elt Ideal)) (n : Fin 100000) (q : Fin 64) :
    val_main_v151 (F := Ideal) x12 (ix2 n q) = x12 (ix2 1 q) := by
  rw [val_main_v151_apply, val_main_v150_apply, val_main_v133_apply, val_main_v132_apply]
  congr 1
  funext a
  apply Fin.ext
  match a with
  | ⟨0, _⟩ => rfl
  | ⟨1, _⟩ => exact Nat.mod_eq_of_lt q.isLt

/-- The normalisation factor at (node, channel). -/
theorem v145_at (x14 : (⟨S3x64, .f32⟩ : BufTy).Contents (Elt Ideal)) (n : Fin 100000) (q : Fin 64) :
    val_main_v145 (F := Ideal) x14 (ix2 n q) = Ideal.rsqrt (x14 (ix2 1 q) + Ideal.ofBits .f32 0x3727C5AC#32) := by
  rw [val_main_v145_apply, val_main_v144_apply, val_main_v143_apply, val_main_v142_apply, val_main_v141_apply,
    val_main_cst_7_apply, val_main_v137_apply, val_main_v136_apply]
  have e : idx_main_v136 (idx_main_v137 (idx_main_v144 (idx_main_v145 (ix2 n q)))) = ix2 1 q := by
    funext a
    apply Fin.ext
    match a with
    | ⟨0, _⟩ => rfl
    | ⟨1, _⟩ => exact Nat.mod_eq_of_lt q.isLt
  exact congrArg (fun j => Ideal.rsqrt (x14 j + Ideal.ofBits .f32 0x3727C5AC#32)) e

/-- This half of the layer at (node, channel). -/
theorem v153_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v153 (F := Ideal) x0 x1 x3 x4 x5 x6 x7 x8 x9 x10 x11 x12 x13 x14 (ix2 n q) = Cert.Gin.half (fun k => val_main_v121 (F := Ideal) x0 x1 x3 x4 x5 x6 x7 x8 x9 x10 x11 x12 x13 x14 (ix2 n k))
      (fun a b => x9 (ix3 1 a b)) (fun k => x10 (ix2 1 k)) (fun k => x13 (ix2 1 k)) (fun k => x14 (ix2 1 k))
      (fun k => x11 (ix2 1 k)) (fun k => x12 (ix2 1 k)) q := by
  unfold Cert.Gin.half
  rw [val_main_v153_apply, val_main_v152_apply, val_main_v149_apply, val_main_v146_apply, val_main_v140_apply,
    val_main_v129_apply, v124_at, v128_at, v139_at, v145_at, v148_at, v151_at,
    val_main_call3_v0_apply, val_main_call3_cst_apply]
  rfl

/-- Layer 1 of the reference is the specification's layer 1 of its input and the neighbour sums. -/
theorem layer1 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) :
    val_main_v153 (F := Ideal) x0 x1 x3 x4 x5 x6 x7 x8 x9 x10 x11 x12 x13 x14 = Cert.Gin.layer ⟨x3, x4, x5, x6, x7, x8, x9, x10, x11, x12, x13, x14⟩ 1 (val_main_v78 (F := Ideal) x0 x1 x3 x4 x5 x6 x7 x8 x9 x10 x11 x12 x13 x14) (val_main_v88 (F := Ideal) x0 x1 x3 x4 x5 x6 x7 x8 x9 x10 x11 x12 x13 x14) := by
  funext i
  obtain ⟨n, q, rfl⟩ : ∃ (n : Fin 100000) (q : Fin 64), i = ix2 n q := ⟨i 0, i 1, eq_ix2 i⟩
  rw [Cert.Gin.layer_apply, v153_at]
  unfold Cert.Gin.layerAt
  simp only [v121_at]

/-- The neighbour sums of layer 2 are layer 0's gather and accumulating scatter, applied to layer 1's output. -/
theorem agg2 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) :
    val_main_v163 (F := Ideal) x0 x1 x3 x4 x5 x6 x7 x8 x9 x10 x11 x12 x13 x14 = val_main_v13 (F := Ideal) (val_main_v153 (F := Ideal) x0 x1 x3 x4 x5 x6 x7 x8 x9 x10 x11 x12 x13 x14) x1 := by
  unfold val_main_v163 val_main_v160
  generalize val_main_v153 (F := Ideal) x0 x1 x3 x4 x5 x6 x7 x8 x9 x10 x11 x12 x13 x14 = Y
  unfold val_main_v13 val_main_v10 val_main_v161 val_main_cst_10 val_main_v11 val_main_cst val_main_v162 val_main_v12 val_main_v159 val_main_v9
    val_main_v158 val_main_v8 val_main_v155 val_main_v5 val_main_v154 val_main_v4 val_main_c_8 val_main_c val_main_v157 val_main_v7 val_main_v156 val_main_v6
    val_main_c_9 val_main_c_0
  rfl

/-! ## Layer 2, first half -/

/-- The weights of this dense layer at (row, column). -/
theorem v166_at (x3 : (⟨S3x64x64, .f32⟩ : BufTy).Contents (Elt Ideal)) (a b : Fin 64) :
    val_main_v166 (F := Ideal) x3 (ix2 a b) = x3 (ix3 2 a b) := by
  rw [val_main_v166_apply, val_main_v165_apply]
  congr 1
  funext c
  apply Fin.ext
  match c with
  | ⟨0, _⟩ => rfl
  | ⟨1, _⟩ => show (a.val * 64 + b.val) / 64 % 64 = a.val; omega
  | ⟨2, _⟩ => show (a.val * 64 + b.val) % 64 = b.val; omega

/-- The dense layer at (node, channel): the sum over the input channels. -/
theorem v167_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v167 (F := Ideal) x0 x1 x3 x4 x5 x6 x7 x8 x9 x10 x11 x12 x13 x14 (ix2 n q) = ∑ k : Fin 64, (val_main_v153 (F := Ideal) x0 x1 x3 x4 x5 x6 x7 x8 x9 x10 x11 x12 x13 x14 (ix2 n k) + val_main_v163 (F := Ideal) x0 x1 x3 x4 x5 x6 x7 x8 x9 x10 x11 x12 x13 x14 (ix2 n k)) * x3 (ix3 2 k q) := by
  rw [val_main_v167_apply]
  refine Finset.sum_congr rfl fun k _ => ?_
  have el : lidx_main_v167 (ix2 n q) k = ix2 n k :=
    funext fun a => Fin.ext (by match a with | ⟨0, _⟩ => rfl | ⟨1, _⟩ => rfl)
  have er : ridx_main_v167 (ix2 n q) k = ix2 k q :=
    funext fun a => Fin.ext (by match a with | ⟨0, _⟩ => rfl | ⟨1, _⟩ => rfl)
  rw [el, er, v166_at]
  exact congrArg (fun t : EReal => t * x3 (ix3 2 k q)) (val_main_v164_apply x0 x1 x3 x4 x5 x6 x7 x8 x9 x10 x11 x12 x13 x14 (ix2 n k))

/-- The parameter rows, broadcast over the nodes, read at (node, channel). -/
theorem v171_at (x4 : (⟨S3x64, .f32⟩ : BufTy).Contents (Elt Ideal)) (n : Fin 100000) (q : Fin 64) :
    val_main_v171 (F := Ideal) x4 (ix2 n q) = x4 (ix2 2 q) := by
  rw [val_main_v171_apply, val_main_v170_apply, val_main_v169_apply, val_main_v168_apply]
  congr 1
  funext a
  apply Fin.ext
  match a with
  | ⟨0, _⟩ => rfl
  | ⟨1, _⟩ => exact Nat.mod_eq_of_lt q.isLt

theorem v182_at (x7 : (⟨S3x64, .f32⟩ : BufTy).Contents (Elt Ideal)) (n : Fin 100000) (q : Fin 64) :
    val_main_v182 (F := Ideal) x7 (ix2 n q) = x7 (ix2 2 q) := by
  rw [val_main_v182_apply, val_main_v181_apply, val_main_v178_apply, val_main_v177_apply]
  congr 1
  funext a
  apply Fin.ext
  match a with
  | ⟨0, _⟩ => rfl
  | ⟨1, _⟩ => exact Nat.mod_eq_of_lt q.isLt

theorem v191_at (x5 : (⟨S3x64, .f32⟩ : BufTy).Contents (Elt Ideal)) (n : Fin 100000) (q : Fin 64) :
    val_main_v191 (F := Ideal) x5 (ix2 n q) = x5 (ix2 2 q) := by
  rw [val_main_v191_apply, val_main_v190_apply, val_main_v174_apply, val_main_v173_apply]
  congr 1
  funext a
  apply Fin.ext
  match a with
  | ⟨0, _⟩ => rfl
  | ⟨1, _⟩ => exact Nat.mod_eq_of_lt q.isLt

theorem v194_at (x6 : (⟨S3x64, .f32⟩ : BufTy).Contents (Elt Ideal)) (n : Fin 100000) (q : Fin 64) :
    val_main_v194 (F := Ideal) x6 (ix2 n q) = x6 (ix2 2 q) := by
  rw [val_main_v194_apply, val_main_v193_apply, val_main_v176_apply, val_main_v175_apply]
  congr 1
  funext a
  apply Fin.ext
  match a with
  | ⟨0, _⟩ => rfl
  | ⟨1, _⟩ => exact Nat.mod_eq_of_lt q.isLt

/-- The normalisation factor at (node, channel). -/
theorem v188_at (x8 : (⟨S3x64, .f32⟩ : BufTy).Contents (Elt Ideal)) (n : Fin 100000) (q : Fin 64) :
    val_main_v188 (F := Ideal) x8 (ix2 n q) = Ideal.rsqrt (x8 (ix2 2 q) + Ideal.ofBits .f32 0x3727C5AC#32) := by
  rw [val_main_v188_apply, val_main_v187_apply, val_main_v186_apply, val_main_v185_apply, val_main_v184_apply,
    val_main_cst_11_apply, val_main_v180_apply, val_main_v179_apply]
  have e : idx_main_v179 (idx_main_v180 (idx_main_v187 (idx_main_v188 (ix2 n q)))) = ix2 2 q := by
    funext a
    apply Fin.ext
    match a with
    | ⟨0, _⟩ => rfl
    | ⟨1, _⟩ => exact Nat.mod_eq_of_lt q.isLt
  exact congrArg (fun j => Ideal.rsqrt (x8 j + Ideal.ofBits .f32 0x3727C5AC#32)) e

/-- This half of the layer at (node, channel). -/
theorem v196_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v196 (F := Ideal) x0 x1 x3 x4 x5 x6 x7 x8 x9 x10 x11 x12 x13 x14 (ix2 n q) = Cert.Gin.half (fun k => (val_main_v153 (F := Ideal) x0 x1 x3 x4 x5 x6 x7 x8 x9 x10 x11 x12 x13 x14 (ix2 n k) + val_main_v163 (F := Ideal) x0 x1 x3 x4 x5 x6 x7 x8 x9 x10 x11 x12 x13 x14 (ix2 n k)))
      (fun a b => x3 (ix3 2 a b)) (fun k => x4 (ix2 2 k)) (fun k => x7 (ix2 2 k)) (fun k => x8 (ix2 2 k))
      (fun k => x5 (ix2 2 k)) (fun k => x6 (ix2 2 k)) q := by
  unfold Cert.Gin.half
  rw [val_main_v196_apply, val_main_v195_apply, val_main_v192_apply, val_main_v189_apply, val_main_v183_apply,
    val_main_v172_apply, v167_at, v171_at, v182_at, v188_at, v191_at, v194_at,
    val_main_call4_v0_apply, val_main_call4_cst_apply]
  rfl

/-! ## Layer 2, second half -/

/-- The weights of this dense layer at (row, column). -/
theorem v198_at (x9 : (⟨S3x64x64, .f32⟩ : BufTy).Contents (Elt Ideal)) (a b : Fin 64) :
    val_main_v198 (F := Ideal) x9 (ix2 a b) = x9 (ix3 2 a b) := by
  rw [val_main_v198_apply, val_main_v197_apply]
  congr 1
  funext c
  apply Fin.ext
  match c with
  | ⟨0, _⟩ => rfl
  | ⟨1, _⟩ => show (a.val * 64 + b.val) / 64 % 64 = a.val; omega
  | ⟨2, _⟩ => show (a.val * 64 + b.val) % 64 = b.val; omega

/-- The dense layer at (node, channel): the sum over the input channels. -/
theorem v199_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v199 (F := Ideal) x0 x1 x3 x4 x5 x6 x7 x8 x9 x10 x11 x12 x13 x14 (ix2 n q) = ∑ k : Fin 64, val_main_v196 (F := Ideal) x0 x1 x3 x4 x5 x6 x7 x8 x9 x10 x11 x12 x13 x14 (ix2 n k) * x9 (ix3 2 k q) := by
  rw [val_main_v199_apply]
  refine Finset.sum_congr rfl fun k _ => ?_
  have el : lidx_main_v199 (ix2 n q) k = ix2 n k :=
    funext fun a => Fin.ext (by match a with | ⟨0, _⟩ => rfl | ⟨1, _⟩ => rfl)
  have er : ridx_main_v199 (ix2 n q) k = ix2 k q :=
    funext fun a => Fin.ext (by match a with | ⟨0, _⟩ => rfl | ⟨1, _⟩ => rfl)
  rw [el, er, v198_at]

/-- The parameter rows, broadcast over the nodes, read at (node, channel). -/
theorem v203_at (x10 : (⟨S3x64, .f32⟩ : BufTy).Contents (Elt Ideal)) (n : Fin 100000) (q : Fin 64) :
    val_main_v203 (F := Ideal) x10 (ix2 n q) = x10 (ix2 2 q) := by
  rw [val_main_v203_apply, val_main_v202_apply, val_main_v201_apply, val_main_v200_apply]
  congr 1
  funext a
  apply Fin.ext
  match a with
  | ⟨0, _⟩ => rfl
  | ⟨1, _⟩ => exact Nat.mod_eq_of_lt q.isLt

theorem v214_at (x13 : (⟨S3x64, .f32⟩ : BufTy).Contents (Elt Ideal)) (n : Fin 100000) (q : Fin 64) :
    val_main_v214 (F := Ideal) x13 (ix2 n q) = x13 (ix2 2 q) := by
  rw [val_main_v214_apply, val_main_v213_apply, val_main_v210_apply, val_main_v209_apply]
  congr 1
  funext a
  apply Fin.ext
  match a with
  | ⟨0, _⟩ => rfl
  | ⟨1, _⟩ => exact Nat.mod_eq_of_lt q.isLt

theorem v223_at (x11 : (⟨S3x64, .f32⟩ : BufTy).Contents (Elt Ideal)) (n : Fin 100000) (q : Fin 64) :
    val_main_v223 (F := Ideal) x11 (ix2 n q) = x11 (ix2 2 q) := by
  rw [val_main_v223_apply, val_main_v222_apply, val_main_v206_apply, val_main_v205_apply]
  congr 1
  funext a
  apply Fin.ext
  match a with
  | ⟨0, _⟩ => rfl
  | ⟨1, _⟩ => exact Nat.mod_eq_of_lt q.isLt

theorem v226_at (x12 : (⟨S3x64, .f32⟩ : BufTy).Contents (Elt Ideal)) (n : Fin 100000) (q : Fin 64) :
    val_main_v226 (F := Ideal) x12 (ix2 n q) = x12 (ix2 2 q) := by
  rw [val_main_v226_apply, val_main_v225_apply, val_main_v208_apply, val_main_v207_apply]
  congr 1
  funext a
  apply Fin.ext
  match a with
  | ⟨0, _⟩ => rfl
  | ⟨1, _⟩ => exact Nat.mod_eq_of_lt q.isLt

/-- The normalisation factor at (node, channel). -/
theorem v220_at (x14 : (⟨S3x64, .f32⟩ : BufTy).Contents (Elt Ideal)) (n : Fin 100000) (q : Fin 64) :
    val_main_v220 (F := Ideal) x14 (ix2 n q) = Ideal.rsqrt (x14 (ix2 2 q) + Ideal.ofBits .f32 0x3727C5AC#32) := by
  rw [val_main_v220_apply, val_main_v219_apply, val_main_v218_apply, val_main_v217_apply, val_main_v216_apply,
    val_main_cst_12_apply, val_main_v212_apply, val_main_v211_apply]
  have e : idx_main_v211 (idx_main_v212 (idx_main_v219 (idx_main_v220 (ix2 n q)))) = ix2 2 q := by
    funext a
    apply Fin.ext
    match a with
    | ⟨0, _⟩ => rfl
    | ⟨1, _⟩ => exact Nat.mod_eq_of_lt q.isLt
  exact congrArg (fun j => Ideal.rsqrt (x14 j + Ideal.ofBits .f32 0x3727C5AC#32)) e

/-- This half of the layer at (node, channel). -/
theorem v228_at (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (n : Fin 100000) (q : Fin 64) :
    val_main_v228 (F := Ideal) x0 x1 x3 x4 x5 x6 x7 x8 x9 x10 x11 x12 x13 x14 (ix2 n q) = Cert.Gin.half (fun k => val_main_v196 (F := Ideal) x0 x1 x3 x4 x5 x6 x7 x8 x9 x10 x11 x12 x13 x14 (ix2 n k))
      (fun a b => x9 (ix3 2 a b)) (fun k => x10 (ix2 2 k)) (fun k => x13 (ix2 2 k)) (fun k => x14 (ix2 2 k))
      (fun k => x11 (ix2 2 k)) (fun k => x12 (ix2 2 k)) q := by
  unfold Cert.Gin.half
  rw [val_main_v228_apply, val_main_v227_apply, val_main_v224_apply, val_main_v221_apply, val_main_v215_apply,
    val_main_v204_apply, v199_at, v203_at, v214_at, v220_at, v223_at, v226_at,
    val_main_call5_v0_apply, val_main_call5_cst_apply]
  rfl

/-- Layer 2 of the reference is the specification's layer 2 of its input and the neighbour sums. -/
theorem layer2 (x0 : (⟨S100000x64, .f32⟩ : BufTy).Contents (Elt Ideal)) (x1 : (⟨S2x1600000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) :
    val_main_v228 (F := Ideal) x0 x1 x3 x4 x5 x6 x7 x8 x9 x10 x11 x12 x13 x14 = Cert.Gin.layer ⟨x3, x4, x5, x6, x7, x8, x9, x10, x11, x12, x13, x14⟩ 2 (val_main_v153 (F := Ideal) x0 x1 x3 x4 x5 x6 x7 x8 x9 x10 x11 x12 x13 x14) (val_main_v163 (F := Ideal) x0 x1 x3 x4 x5 x6 x7 x8 x9 x10 x11 x12 x13 x14) := by
  funext i
  obtain ⟨n, q, rfl⟩ : ∃ (n : Fin 100000) (q : Fin 64), i = ix2 n q := ⟨i 0, i 1, eq_ix2 i⟩
  rw [Cert.Gin.layer_apply, v228_at]
  unfold Cert.Gin.layerAt
  simp only [v196_at]

/-! ## Pooling and the read-out head -/

/-- The rows of `X` summed per graph: the accumulating scatter of `X` along the graph index of each node into the
    zero array, the operation the reference applies to the last layer's output. -/
def pool (x2 : (⟨S100000, .i32⟩ : BufTy).Contents (Elt Ideal)) (X : (⟨S100000x64, .f32⟩ : BufTy).Contents (Elt Ideal)) : (⟨S512x64, .f32⟩ : BufTy).Contents (Elt Ideal) :=
  Host.scatterAdd (F := Ideal) (φ := .f32) scatter_S512x64_S100000x1_S100000x64_1_0_0_1 (val_main_v229 (F := Ideal)) (val_main_v230 (F := Ideal) x2) X

theorem pool_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) :
    val_main_v231 (F := Ideal) x0 x1 x2 x3 x4 x5 x6 x7 x8 x9 x10 x11 x12 x13 x14 = pool x2 (val_main_v228 (F := Ideal) x0 x1 x3 x4 x5 x6 x7 x8 x9 x10 x11 x12 x13 x14) := by
  unfold val_main_v231 pool
  rfl

/-- The reference's result is the specification's head of the pooled rows. -/
theorem head_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (x15 : (⟨S64x128, .f32⟩ : BufTy).Contents (Elt Ideal)) (x16 : (⟨S128, .f32⟩ : BufTy).Contents (Elt Ideal)) :
    val_main_v235 (F := Ideal) x0 x1 x2 x3 x4 x5 x6 x7 x8 x9 x10 x11 x12 x13 x14 x15 x16 = Cert.Gin.head (val_main_v231 (F := Ideal) x0 x1 x2 x3 x4 x5 x6 x7 x8 x9 x10 x11 x12 x13 x14) x15 x16 := by
  funext i
  obtain ⟨r, j, rfl⟩ : ∃ (r : Fin 512) (j : Fin 128), i = ix2 r j := ⟨i 0, i 1, eq_ix2 i⟩
  rw [Cert.Gin.head_apply]
  unfold Cert.Gin.headAt
  rw [val_main_v235_apply, val_main_v232_apply, val_main_v234_apply, val_main_v233_apply]
  have e : idx_main_v233 (idx_main_v234 (ix2 r j)) = ix1 j :=
    funext fun a => Fin.ext (by match a with | ⟨0, _⟩ => rfl)
  have el : ∀ k : Fin 64, lidx_main_v232 (ix2 r j) k = ix2 r k := fun k =>
    funext fun a => Fin.ext (by match a with | ⟨0, _⟩ => rfl | ⟨1, _⟩ => rfl)
  have er : ∀ k : Fin 64, ridx_main_v232 (ix2 r j) k = ix2 k j := fun k =>
    funext fun a => Fin.ext (by match a with | ⟨0, _⟩ => rfl | ⟨1, _⟩ => rfl)
  simp only [e, el, er]
  rfl

/-! ## The whole network -/

/-- The reference program's result is the specification's network, with the neighbour sums and the pooling the
    reference's own gather and scatter operations. -/
theorem result_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S3x64, .f32⟩ : BufTy).Contents (Elt Ideal)) (x12 : (⟨S3x64, .f32⟩ : BufTy).Contents (Elt Ideal)) (x13 : (⟨S3x64, .f32⟩ : BufTy).Contents (Elt Ideal)) (x14 : (⟨S3x64, .f32⟩ : BufTy).Contents (Elt Ideal)) (x15 : (⟨S64x128, .f32⟩ : BufTy).Contents (Elt Ideal)) (x16 : (⟨S128, .f32⟩ : BufTy).Contents (Elt Ideal)) :
    val_main_v235 (F := Ideal) x0 x1 x2 x3 x4 x5 x6 x7 x8 x9 x10 x11 x12 x13 x14 x15 x16
      = Cert.Gin.net (fun X => val_main_v13 (F := Ideal) X x1) (pool x2) ⟨x3, x4, x5, x6, x7, x8, x9, x10, x11, x12, x13, x14⟩ x15 x16 x0 := by
  unfold Cert.Gin.net
  rw [head_eq, pool_eq, layer2, agg2, layer1, agg1, layer0]

end Cert.RefNet

end
-- ==== Proof.lean ====
/-
  The certificate's five claims.

  Both programs compute a three-layer graph-isomorphism network and a linear read-out: per layer the neighbour sums
  (a gather along the edges' source nodes and an accumulating scatter along their target nodes), then twice
  "dense layer, batch normalisation with running statistics, rectifier"; then the per-graph sums of the rows and one more
  dense layer. The kernel program runs the dense part of each layer as a kernel over blocks of 2000 rows and the read-out
  as a one-block kernel, with the gathers and scatters as host operations between them; the reference runs everything as
  host operations on whole arrays. Over the extended reals a change of float format is the identity, a matrix product
  into a zero accumulator and a host contraction are the same finite sum, and the kernels' row blocks tile the arrays,
  so both results are one function, `Cert.Gin.net`, of the argument arrays; the index-dependent host operations are the
  same operations in both programs and are carried as functions, never opened.
  The kernels' frames are the generated ones; the reference's is its run, read back segment by segment, with the result dropped; the ideal pass
  rewrote nothing, so the idealization claim is trivial.
-/
import proofs.«181532_j16295105921239_1_alg».proof.Defs
import proofs.«181532_j16295105921239_1_alg».proof.Proof.Gen.Kernel
import proofs.«181532_j16295105921239_1_alg».proof.Proof.Gen.Kernel.Skeleton
import proofs.«181532_j16295105921239_1_alg».proof.Proof.Gen.Kernel.Launch
import proofs.«181532_j16295105921239_1_alg».proof.Proof.Gen.Kernel.Points
import proofs.«181532_j16295105921239_1_alg».proof.Proof.Gen.Kernel.Frame
import proofs.«181532_j16295105921239_1_alg».proof.Proof.Gen.KernelIdeal
import proofs.«181532_j16295105921239_1_alg».proof.Proof.Gen.KernelIdeal.Skeleton
import proofs.«181532_j16295105921239_1_alg».proof.Proof.Gen.KernelIdeal.Launch
import proofs.«181532_j16295105921239_1_alg».proof.Proof.Gen.KernelIdeal.Points
import proofs.«181532_j16295105921239_1_alg».proof.Proof.Gen.KernelIdeal.Frame
import proofs.«181532_j16295105921239_1_alg».proof.Proof.Gen.ReferenceIdeal
import proofs.«181532_j16295105921239_1_alg».proof.Proof.RefReadP
import proofs.«181532_j16295105921239_1_alg».proof.Proof.RefRunP
import proofs.«181532_j16295105921239_1_alg».proof.Proof.Gen.Pre_finite_inputs
import proofs.«181532_j16295105921239_1_alg».proof.Proof.KernelRun
import proofs.«181532_j16295105921239_1_alg».proof.Proof.KernelNet
import proofs.«181532_j16295105921239_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The neighbour sums are the same host operations in both programs. -/
theorem agg_same (e : (⟨Cert.KernelIdeal.S2x1600000, .i32⟩ : BufTy).Contents (Elt Ideal))
    (X : (⟨Cert.KernelIdeal.S100000x64, .f32⟩ : BufTy).Contents (Elt Ideal)) :
    Cert.KernelIdeal.Glue.aggOf (Cert.KernelIdeal.Glue.srcOf e) (Cert.KernelIdeal.Glue.dstOf e) X
      = Cert.ReferenceIdeal.ReadP.val_main_v13 (F := Ideal) X e := by
  unfold Cert.KernelIdeal.Glue.aggOf Cert.KernelIdeal.Glue.srcOf Cert.KernelIdeal.Glue.dstOf
  unfold Cert.ReferenceIdeal.ReadP.val_main_v13 Cert.ReferenceIdeal.ReadP.val_main_v12 Cert.ReferenceIdeal.ReadP.val_main_v11
    Cert.ReferenceIdeal.ReadP.val_main_v10 Cert.ReferenceIdeal.ReadP.val_main_v9 Cert.ReferenceIdeal.ReadP.val_main_v8
    Cert.ReferenceIdeal.ReadP.val_main_v7 Cert.ReferenceIdeal.ReadP.val_main_v6 Cert.ReferenceIdeal.ReadP.val_main_v5
    Cert.ReferenceIdeal.ReadP.val_main_v4 Cert.ReferenceIdeal.ReadP.val_main_v3 Cert.ReferenceIdeal.ReadP.val_main_v2
    Cert.ReferenceIdeal.ReadP.val_main_v1 Cert.ReferenceIdeal.ReadP.val_main_v0 Cert.ReferenceIdeal.ReadP.val_main_c
    Cert.ReferenceIdeal.ReadP.val_main_c_0 Cert.ReferenceIdeal.ReadP.val_main_cst
  rfl

/-- The per-graph sums are the same host operations in both programs. -/
theorem pool_same (g : (⟨Cert.KernelIdeal.S100000, .i32⟩ : BufTy).Contents (Elt Ideal))
    (X : (⟨Cert.KernelIdeal.S100000x64, .f32⟩ : BufTy).Contents (Elt Ideal)) :
    Cert.KernelIdeal.Glue.poolOf g X = Cert.RefNet.pool g X := by
  unfold Cert.KernelIdeal.Glue.poolOf Cert.RefNet.pool
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories agreeing on the arguments, both idealized programs end with the network of the arguments in their
    result buffers. -/
theorem algebraic : Cert.algebraic_KernelIdeal_ReferenceIdeal := by
  intro m ρ m' ρ' _ hagree
  refine ⟨fun c => Cert.Gin.net (Cert.KernelIdeal.Net.aggK m c) (Cert.KernelIdeal.Net.poolK m c) (Cert.KernelIdeal.Net.params m c)
      (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Net.out_eq m ρ c), (h c).2⟩) (Cert.KernelIdeal.Net.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15, h16⟩ := hagree c
    rw [h0, h1, h2, h3, h4, h5, h6, h7, h8, h9, h10, h11, h12, h13, h14, h15, h16]
    rw [Cert.RefNet.result_eq]
    unfold Cert.KernelIdeal.Net.aggK Cert.KernelIdeal.Net.poolK Cert.KernelIdeal.Net.params
    have ha : (fun X => Cert.ReferenceIdeal.ReadP.val_main_v13 (F := Ideal) X (m ((c.tc : Thread Cert.KernelIdeal.nD Cert.KernelIdeal.τ).loc Cert.KernelIdeal.main_arg1)))
        = fun X => Cert.KernelIdeal.Glue.aggOf (Cert.KernelIdeal.Glue.srcOf (m ((c.tc : Thread Cert.KernelIdeal.nD Cert.KernelIdeal.τ).loc Cert.KernelIdeal.main_arg1))) (Cert.KernelIdeal.Glue.dstOf (m ((c.tc : Thread Cert.KernelIdeal.nD Cert.KernelIdeal.τ).loc Cert.KernelIdeal.main_arg1))) X :=
      funext fun X => (agg_same _ X).symm
    have hp : Cert.RefNet.pool (m ((c.tc : Thread Cert.KernelIdeal.nD Cert.KernelIdeal.τ).loc Cert.KernelIdeal.main_arg2)) = fun X => Cert.KernelIdeal.Glue.poolOf (m ((c.tc : Thread Cert.KernelIdeal.nD Cert.KernelIdeal.τ).loc Cert.KernelIdeal.main_arg2)) X :=
      funext fun X => (pool_same _ X).symm
    rw [ha, hp]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
